-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S64x10 .f32) (main_arg10 : FVec F S10 .f32) (main_v33 : IVec S_ 1) : IVec S_ 1 :=
  let main_v34 : FVec F S64x10 .f32 := Host.absf main_arg9
  let main_cst_12 : FVec F S_ .f32 := constant S_ .f32 0x7F800000#32
  let main_v35 : FVec F S64x10 .f32 := broadcastInDim S64x10 ![] bcast_S_S64x10 main_cst_12
  let main_v36 : IVec S64x10 1 := cmpf .olt main_v34 main_v35
  let main_c_13 : IVec S_ 1 := constantI S_ 1 1#1
  let main_v37 : IVec S_ 1 := (fun x v => Host.reduce IntOp.andi x v reducesTo_S64x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg6 : FVec F S64 .f32) (main_arg7 : FVec F S64x64 .f32) (main_arg8 : FVec F S64 .f32) (main_arg9 : FVec F S64x10 .f32) (main_arg10 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x3200000 32) (main_arg2 : IVec S100000 32) (main_arg3 : FVec F S128x64 .f32) (main_arg4 : FVec F S64 .f32) (main_arg5 : FVec F S64x64 .f32) (main_arg6 : FVec F S64 .f32) (main_arg7 : FVec F S64x64 .f32) (main_arg8 : FVec F S64 .f32) (main_arg9 : FVec F S64x10 .f32) (main_arg10 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x64 : Shape := ⟨2, ![100000, 64]⟩
abbrev S4000x128 : Shape := ⟨2, ![4000, 128]⟩
abbrev S4000x1 : Shape := ⟨2, ![4000, 1]⟩
abbrev S4000x64 : Shape := ⟨2, ![4000, 64]⟩
abbrev S3300000x64 : Shape := ⟨2, ![3300000, 64]⟩
abbrev S1x64 : Shape := ⟨2, ![1, 64]⟩
abbrev S1024x64 : Shape := ⟨2, ![1024, 64]⟩
abbrev S1024 : Shape := ⟨1, ![1024]⟩
abbrev S1024x1 : Shape := ⟨2, ![1024, 1]⟩
abbrev S1x10 : Shape := ⟨2, ![1, 10]⟩
abbrev S1024x10 : Shape := ⟨2, ![1024, 10]⟩

abbrev nBuf : Space → Nat
  | .hbm => 108
  | .vmem => 33
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x10, .f32⟩
  | .hbm, ⟨10, _⟩ => ⟨S10, .f32⟩
  | .hbm, ⟨11, _⟩ => ⟨S1x3200000, .i32⟩
  | .hbm, ⟨12, _⟩ => ⟨S3200000, .i32⟩
  | .hbm, ⟨13, _⟩ => ⟨S1x3200000, .i32⟩
  | .hbm, ⟨14, _⟩ => ⟨S3200000, .i32⟩
  | .hbm, ⟨15, _⟩ => ⟨S100000, .i32⟩
  | .hbm, ⟨16, _⟩ => ⟨S3300000, .i32⟩
  | .hbm, ⟨17, _⟩ => ⟨S3300000, .i32⟩
  | .hbm, ⟨18, _⟩ => ⟨S_, .f32⟩
  | .hbm, ⟨19, _⟩ => ⟨S3300000, .f32⟩
  | .hbm, ⟨20, _⟩ => ⟨S_, .f32⟩
  | .hbm, ⟨21, _⟩ => ⟨S100000, .f32⟩
  | .hbm, ⟨22, _⟩ => ⟨S3300000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x64, .f32⟩
  | .hbm, ⟨34, _⟩ => ⟨S_, .i32⟩
  | .hbm, ⟨35, _⟩ => ⟨S3300000, .i32⟩
  | .hbm, ⟨36, _⟩ => ⟨S3300000, .i1⟩
  | .hbm, ⟨37, _⟩ => ⟨S_, .i32⟩
  | .hbm, ⟨38, _⟩ => ⟨S3300000, .i32⟩
  | .hbm, ⟨39, _⟩ => ⟨S3300000, .i32⟩
  | .hbm, ⟨40, _⟩ => ⟨S3300000, .i32⟩
  | .hbm, ⟨41, _⟩ => ⟨S3300000x1, .i32⟩
  | .hbm, ⟨42, _⟩ => ⟨S3300000x64, .f32⟩
  | .hbm, ⟨43, _⟩ => ⟨S_, .f32⟩
  | .hbm, ⟨44, _⟩ => ⟨S100000x64, .f32⟩
  | .hbm, ⟨45, _⟩ => ⟨S3300000x1, .i32⟩
  | .hbm, ⟨46, _⟩ => ⟨S100000x64, .f32⟩
  | .hbm, ⟨47, _⟩ => ⟨S1x64, .f32⟩
  | .hbm, ⟨48, _⟩ => ⟨S100000x64, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000x64, .f32⟩
  | .hbm, ⟨58, _⟩ => ⟨S_, .f32⟩
  | .hbm, ⟨59, _⟩ => ⟨S100000x64, .f32⟩
  | .hbm, ⟨60, _⟩ => ⟨S3300000x1, .i32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S_, .i32⟩
  | .hbm, ⟨65, _⟩ => ⟨S3300000, .i32⟩
  | .hbm, ⟨66, _⟩ => ⟨S3300000, .i1⟩
  | .hbm, ⟨67, _⟩ => ⟨S_, .i32⟩
  | .hbm, ⟨68, _⟩ => ⟨S3300000, .i32⟩
  | .hbm, ⟨69, _⟩ => ⟨S3300000, .i32⟩
  | .hbm, ⟨70, _⟩ => ⟨S3300000, .i32⟩
  | .hbm, ⟨71, _⟩ => ⟨S3300000x1, .i32⟩
  | .hbm, ⟨72, _⟩ => ⟨S3300000x64, .f32⟩
  | .hbm, ⟨73, _⟩ => ⟨S_, .f32⟩
  | .hbm, ⟨74, _⟩ => ⟨S100000x64, .f32⟩
  | .hbm, ⟨75, _⟩ => ⟨S3300000x1, .i32⟩
  | .hbm, ⟨76, _⟩ => ⟨S100000x64, .f32⟩
  | .hbm, ⟨77, _⟩ => ⟨S100000x64, .f32⟩
  | .hbm, ⟨78, _⟩ => ⟨S_, .f32⟩
  | .hbm, ⟨79, _⟩ => ⟨S1024x64, .f32⟩
  | .hbm, ⟨80, _⟩ => ⟨S100000x1, .i32⟩
  | .hbm, ⟨81, _⟩ => ⟨S1024x64, .f32⟩
  | .hbm, ⟨82, _⟩ => ⟨S_, .f32⟩
  | .hbm, ⟨83, _⟩ => ⟨S100000, .f32⟩
  | .hbm, ⟨84, _⟩ => ⟨S_, .f32⟩
  | .hbm, ⟨85, _⟩ => ⟨S1024, .f32⟩
  | .hbm, ⟨86, _⟩ => ⟨S100000x1, .i32⟩
  | .hbm, ⟨87, _⟩ => ⟨S1024, .f32⟩
  | .hbm, ⟨88, _⟩ => ⟨S1024x1, .f32⟩
  | .hbm, ⟨89, _⟩ => ⟨S_, .f32⟩
  | .hbm, ⟨90, _⟩ => ⟨S1024x1, .f32⟩
  | .hbm, ⟨91, _⟩ => ⟨S1024x1, .i1⟩
  | .hbm, ⟨92, _⟩ => ⟨S_, .f32⟩
  | .hbm, ⟨93, _⟩ => ⟨S1024, .f32⟩
  | .hbm, ⟨94, _⟩ => ⟨S1024, .f32⟩
  | .hbm, ⟨95, _⟩ => ⟨S1024x1, .f32⟩
  | .hbm, ⟨96, _⟩ => ⟨S1024x64, .f32⟩
  | .hbm, ⟨97, _⟩ => ⟨S1024x64, .f32⟩
  | .hbm, ⟨98, _⟩ => ⟨S1x64, .f32⟩
  | .hbm, ⟨99, _⟩ => ⟨S1024x64, .f32⟩
  | .hbm, ⟨100, _⟩ => ⟨S1024x64, .f32⟩
  | .hbm, ⟨101, _⟩ => ⟨S_, .f32⟩
  | .hbm, ⟨102, _⟩ => ⟨S_, .f32⟩
  | .hbm, ⟨103, _⟩ => ⟨S1024x64, .i1⟩
  | .hbm, ⟨104, _⟩ => ⟨S1024x64, .f32⟩
  | .hbm, ⟨105, _⟩ => ⟨S1024x64, .f32⟩
  | .hbm, ⟨106, _⟩ => ⟨S1x10, .f32⟩
  | .hbm, ⟨107, _⟩ => ⟨S1024x10, .f32⟩
  | .local _ .vmem, ⟨0, _⟩ => ⟨S4000x128, .f32⟩
  | .local _ .vmem, ⟨1, _⟩ => ⟨S4000x128, .f32⟩
  | .local _ .vmem, ⟨2, _⟩ => ⟨S128x64, .f32⟩
  | .local _ .vmem, ⟨3, _⟩ => ⟨S4000x1, .f32⟩
  | .local _ .vmem, ⟨4, _⟩ => ⟨S4000x1, .f32⟩
  | .local _ .vmem, ⟨5, _⟩ => ⟨S4000x64, .f32⟩
  | .local _ .vmem, ⟨6, _⟩ => ⟨S4000x64, .f32⟩
  | .local _ .vmem, ⟨7, _⟩ => ⟨S4000x64, .f32⟩
  | .local _ .vmem, ⟨8, _⟩ => ⟨S4000x64, .f32⟩
  | .local _ .vmem, ⟨9, _⟩ => ⟨S4000x1, .f32⟩
  | .local _ .vmem, ⟨10, _⟩ => ⟨S4000x1, .f32⟩
  | .local _ .vmem, ⟨11, _⟩ => ⟨S1x64, .f32⟩
  | .local _ .vmem, ⟨12, _⟩ => ⟨S64x64, .f32⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S4000x64, .f32⟩
  | .local _ .vmem, ⟨17, _⟩ => ⟨S4000x1, .f32⟩
  | .local _ .vmem, ⟨18, _⟩ => ⟨S4000x1, .f32⟩
  | .local _ .vmem, ⟨19, _⟩ => ⟨S1x64, .f32⟩
  | .local _ .vmem, ⟨20, _⟩ => ⟨S64x64, .f32⟩
  | .local _ .vmem, ⟨21, _⟩ => ⟨S4000x64, .f32⟩
  | .local _ .vmem, ⟨22, _⟩ => ⟨S4000x64, .f32⟩
  | .local _ .vmem, ⟨23, _⟩ => ⟨S4000x64, .f32⟩
  | .local _ .vmem, ⟨24, _⟩ => ⟨S4000x64, .f32⟩
  | .local _ .vmem, ⟨25, _⟩ => ⟨S4000x1, .f32⟩
  | .local _ .vmem, ⟨26, _⟩ => ⟨S4000x1, .f32⟩
  | .local _ .vmem, ⟨27, _⟩ => ⟨S4000x64, .f32⟩
  | .local _ .vmem, ⟨28, _⟩ => ⟨S4000x64, .f32⟩
  | .local _ .vmem, ⟨29, _⟩ => ⟨S1024x64, .f32⟩
  | .local _ .vmem, ⟨30, _⟩ => ⟨S64x10, .f32⟩
  | .local _ .vmem, ⟨31, _⟩ => ⟨S1x10, .f32⟩
  | .local _ .vmem, ⟨32, _⟩ => ⟨S1024x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_8 : Ref sig .tc := ⟨.hbm, 64, rfl⟩
abbrev main_v41 : Ref sig .tc := ⟨.hbm, 65, rfl⟩
abbrev main_v42 : Ref sig .tc := ⟨.hbm, 66, rfl⟩
abbrev main_c_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_11 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_12 : Ref sig .tc := ⟨.hbm, 82, rfl⟩
abbrev main_v55 : Ref sig .tc := ⟨.hbm, 83, rfl⟩
abbrev main_cst_13 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_14 : Ref sig .tc := ⟨.hbm, 89, rfl⟩
abbrev main_v60 : Ref sig .tc := ⟨.hbm, 90, rfl⟩
abbrev main_v61 : Ref sig .tc := ⟨.hbm, 91, rfl⟩
abbrev main_cst_15 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_16 : Ref sig .tc := ⟨.hbm, 101, rfl⟩
abbrev main_call1_v0 : Ref sig .tc := ⟨.hbm, 102, rfl⟩
abbrev main_call1_v1 : Ref sig .tc := ⟨.hbm, 103, rfl⟩
abbrev main_call1_v2 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc4_stg0_0 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc4_sem0_0 : DmaSem sig := 29
abbrev cc4_sem1_0 : DmaSem sig := 30
abbrev cc4_sem2_0 : DmaSem sig := 31
abbrev cc4_sem3_0 : DmaSem sig := 32

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S1024x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S64x10 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x10 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1024x10 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  inb_S4000x64_S4000x64_0_0 : ∀ a, (![0, 0] : Fin 2 → Nat) a + S4000x64.size a ≤ S4000x64.size a
  h_S4000x64 : 0 < S4000x64.numel
  bcast_S_S100000x64 : S_.BroadcastsInDim S100000x64 (![] : Fin 0 → Fin S100000x64.rank)
  shapeCasts_S64_S1x64 : S64.ShapeCasts S1x64
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x64_S64x64_0_0 : ∀ a, (![0, 0] : Fin 2 → Nat) a + S64x64.size a ≤ S64x64.size a
  h_S64x64 : 0 < S64x64.numel
  bcast_S_S1024x64 : S_.BroadcastsInDim S1024x64 (![] : Fin 0 → Fin S1024x64.rank)
  bcast_S100000_S100000x1_0 : S100000.BroadcastsInDim S100000x1 (![0] : Fin 1 → Fin S100000x1.rank)
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x64_0_1 : S1024x1.BroadcastsInDim S1024x64 (![0, 1] : Fin 2 → Fin S1024x64.rank)
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  shapeCasts_S10_S1x10 : S10.ShapeCasts S1x10
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S1024x10 : S1x10.Broadcasts S1024x10
  inb_S1024x10_S1024x10_0_0 : ∀ a, (![0, 0] : Fin 2 → Nat) a + S1024x10.size a ≤ S1024x10.size a
  h_S1024x10 : 0 < S1024x10.numel
  scatter_S100000_S3300000x1_S3300000_n_0_0_1_wf : ScatterDims.WF S100000 S3300000x1 S3300000 [] [0] [0] 1
  dot_S4000x128_S128x64_S4000x64_1_0_0_1_n_n_wf : DotDims.WF S4000x128 S128x64 S4000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S4000x64_S64x64_S4000x64_1_0_0_1_n_n_wf : DotDims.WF S4000x64 S64x64 S4000x64 [1] [0] [0] [1] [] []
  scatter_S1024x64_S100000x1_S100000x64_1_0_0_1_wf : ScatterDims.WF S1024x64 S100000x1 S100000x64 [1] [0] [0] 1
  scatter_S1024_S100000x1_S100000_n_0_0_1_wf : ScatterDims.WF S1024 S100000x1 S100000 [] [0] [0] 1
  dot_S1024x64_S64x10_S1024x10_1_0_0_1_n_n_wf : DotDims.WF S1024x64 S64x10 S1024x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .f32 = 32 ∨ (Rect.block (s := S100000x64) S4000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x64.size a ≤ S100000x64.size a
  hwx1_4 : ∀ i : grid1.Coords, EltTy.bits .f32 = 32 ∨ (Rect.block (s := S100000x64) S4000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x64.size a ≤ S100000x64.size a
  hwx2_4 : ∀ i : grid2.Coords, EltTy.bits .f32 = 32 ∨ (Rect.block (s := S100000x64) S4000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S100000x64.size a
  hwx3_0 : ∀ i : grid3.Coords, EltTy.bits .f32 = 32 ∨ (Rect.block (s := S100000x64) S4000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x1.size a ≤ S100000x1.size a
  hwx3_1 : ∀ i : grid3.Coords, EltTy.bits .f32 = 32 ∨ (Rect.block (s := S100000x1) S4000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x64.size a ≤ S100000x64.size a
  hwx3_2 : ∀ i : grid3.Coords, EltTy.bits .f32 = 32 ∨ (Rect.block (s := S100000x64) S4000x64.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S1024x64.size a ≤ S1024x64.size a
  hwx4_0 : ∀ i : grid4.Coords, EltTy.bits .f32 = 32 ∨ (Rect.block (s := S1024x64) S1024x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x10.size a ≤ S64x10.size a
  hwx4_1 : ∀ i : grid4.Coords, EltTy.bits .f32 = 32 ∨ (Rect.block (s := S64x10) S64x10.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x10.size a ≤ S1x10.size a
  hwx4_2 : ∀ i : grid4.Coords, EltTy.bits .f32 = 32 ∨ (Rect.block (s := S1x10) S1x10.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1024x10.size a ≤ S1024x10.size a
  hwx4_3 : ∀ i : grid4.Coords, EltTy.bits .f32 = 32 ∨ (Rect.block (s := S1024x10) S1024x10.size (cc4_transform_3 i) (hinb4_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def scatter_S1024x64_S100000x1_S100000x64_1_0_0_1 : ScatterDims S1024x64 S100000x1 S100000x64 where
  updateWindowDims := [1]
  insertedWindowDims := [0]
  scatterDimsToOperandDims := [0]
  indexVectorDim := 1
  wf := scatter_S1024x64_S100000x1_S100000x64_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x64_S64x10_S1024x10_1_0_0_1_n_n : DotDims S1024x64 S64x10 S1024x10 where
  lhsContracting := [1]
  rhsContracting := [0]
  lhsNonContracting := [0]
  rhsNonContracting := [1]
  lhsBatch := []
  rhsBatch := []
  wf := dot_S1024x64_S64x10_S1024x10_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S4000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S4000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v50) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S4000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v51) S4000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v70) S1024x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S64x10.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v71) S1x10.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v72) S1024x10.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x3200000 : Shape := ⟨2, ![1, 3200000]⟩
abbrev S3200000 : Shape := ⟨1, ![3200000]⟩
abbrev S100000x64 : Shape := ⟨2, ![100000, 64]⟩
abbrev S3300000 : Shape := ⟨1, ![3300000]⟩
abbrev S_ : Shape := ⟨0, ![]⟩
abbrev S3300000x1 : Shape := ⟨2, ![3300000, 1]⟩
abbrev S3300000x64 : Shape := ⟨2, ![3300000, 64]⟩
abbrev S1x64 : Shape := ⟨2, ![1, 64]⟩
abbrev S1024x64 : Shape := ⟨2, ![1024, 64]⟩
abbrev S100000x1 : Shape := ⟨2, ![100000, 1]⟩
abbrev S1024 : Shape := ⟨1, ![1024]⟩
abbrev S1024x1 : Shape := ⟨2, ![1024, 1]⟩
abbrev S1024x10 : Shape := ⟨2, ![1024, 10]⟩
abbrev S1x10 : Shape := ⟨2, ![1, 10]⟩

abbrev nBuf : Space → Nat
  | .hbm => 209
  | .vmem => 0
  | .smem => 0
  | _ => 0

abbrev hbmTy0_0 (i : Nat) : BufTy := match i % 128 with
  | 0 => ⟨S100000x128, .f32⟩
  | 1 => ⟨S2x3200000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x10, .f32⟩
  | 10 => ⟨S10, .f32⟩
  | 11 => ⟨S1x3200000, .i32⟩
  | 12 => ⟨S3200000, .i32⟩
  | 13 => ⟨S1x3200000, .i32⟩
  | 14 => ⟨S3200000, .i32⟩
  | 15 => ⟨S100000x64, .f32⟩
  | 16 => ⟨S100000, .i32⟩
  | 17 => ⟨S3300000, .i32⟩
  | 18 => ⟨S3300000, .i32⟩
  | 19 => ⟨S_, .f32⟩
  | 20 => ⟨S3300000, .f32⟩
  | 21 => ⟨S_, .f32⟩
  | 22 => ⟨S100000, .f32⟩
  | 23 => ⟨S3300000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S3300000, .i32⟩
  | 35 => ⟨S3300000, .i1⟩
  | 36 => ⟨S_, .i32⟩
  | 37 => ⟨S3300000, .i32⟩
  | 38 => ⟨S3300000, .i32⟩
  | 39 => ⟨S3300000, .i32⟩
  | 40 => ⟨S3300000x1, .i32⟩
  | 41 => ⟨S3300000, .f32⟩
  | 42 => ⟨S_, .i32⟩
  | 43 => ⟨S3300000, .i32⟩
  | 44 => ⟨S3300000, .i1⟩
  | 45 => ⟨S_, .i32⟩
  | 46 => ⟨S3300000, .i32⟩
  | 47 => ⟨S3300000, .i32⟩
  | 48 => ⟨S3300000, .i32⟩
  | 49 => ⟨S3300000x1, .i32⟩
  | 50 => ⟨S3300000, .f32⟩
  | 51 => ⟨S3300000, .f32⟩
  | 52 => ⟨S_, .i32⟩
  | 53 => ⟨S3300000, .i32⟩
  | 54 => ⟨S3300000, .i1⟩
  | 55 => ⟨S_, .i32⟩
  | 56 => ⟨S3300000, .i32⟩
  | 57 => ⟨S3300000, .i32⟩
  | 58 => ⟨S3300000, .i32⟩
  | 59 => ⟨S3300000x1, .i32⟩
  | 60 => ⟨S3300000x64, .f32⟩
  | 61 => ⟨S3300000x1, .f32⟩
  | 62 => ⟨S3300000x64, .f32⟩
  | 63 => ⟨S3300000x64, .f32⟩
  | 64 => ⟨S_, .f32⟩
  | 65 => ⟨S100000x64, .f32⟩
  | 66 => ⟨S3300000x1, .i32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S100000x64, .f32⟩
  | 73 => ⟨S100000x64, .f32⟩
  | 74 => ⟨S100000x64, .f32⟩
  | 75 => ⟨S100000, .i32⟩
  | 76 => ⟨S3300000, .i32⟩
  | 77 => ⟨S3300000, .i32⟩
  | 78 => ⟨S_, .f32⟩
  | 79 => ⟨S3300000, .f32⟩
  | 80 => ⟨S_, .f32⟩
  | 81 => ⟨S100000, .f32⟩
  | 82 => ⟨S3300000x1, .i32⟩
  | 83 => ⟨S100000, .f32⟩
  | 84 => ⟨S_, .f32⟩
  | 85 => ⟨S100000, .f32⟩
  | 86 => ⟨S100000, .i1⟩
  | 87 => ⟨S100000, .f32⟩
  | 88 => ⟨S_, .f32⟩
  | 89 => ⟨S_, .f32⟩
  | 90 => ⟨S100000, .f32⟩
  | 91 => ⟨S100000, .f32⟩
  | 92 => ⟨S_, .i32⟩
  | 93 => ⟨S3300000, .i32⟩
  | 94 => ⟨S3300000, .i1⟩
  | 95 => ⟨S_, .i32⟩
  | 96 => ⟨S3300000, .i32⟩
  | 97 => ⟨S3300000, .i32⟩
  | 98 => ⟨S3300000, .i32⟩
  | 99 => ⟨S3300000x1, .i32⟩
  | 100 => ⟨S3300000, .f32⟩
  | 101 => ⟨S_, .i32⟩
  | 102 => ⟨S3300000, .i32⟩
  | 103 => ⟨S3300000, .i1⟩
  | 104 => ⟨S_, .i32⟩
  | 105 => ⟨S3300000, .i32⟩
  | 106 => ⟨S3300000, .i32⟩
  | 107 => ⟨S3300000, .i32⟩
  | 108 => ⟨S3300000x1, .i32⟩
  | 109 => ⟨S3300000, .f32⟩
  | 110 => ⟨S3300000, .f32⟩
  | 111 => ⟨S_, .i32⟩
  | 112 => ⟨S3300000, .i32⟩
  | 113 => ⟨S3300000, .i1⟩
  | 114 => ⟨S_, .i32⟩
  | 115 => ⟨S3300000, .i32⟩
  | 116 => ⟨S3300000, .i32⟩
  | 117 => ⟨S3300000, .i32⟩
  | 118 => ⟨S3300000x1, .i32⟩
  | 119 => ⟨S3300000x64, .f32⟩
  | 120 => ⟨S3300000x1, .f32⟩
  | 121 => ⟨S3300000x64, .f32⟩
  | 122 => ⟨S3300000x64, .f32⟩
  | 123 => ⟨S_, .f32⟩
  | 124 => ⟨S100000x64, .f32⟩
  | 125 => ⟨S3300000x1, .i32⟩
  | 126 => ⟨S100000x64, .f32⟩
  | 127 => ⟨S1x64, .f32⟩
  | _ => ⟨S100000x128, .f32⟩

abbrev hbmTy0_1 (i : Nat) : BufTy := match i % 128 with
  | 0 => ⟨S100000x64, .f32⟩
  | 1 => ⟨S100000x64, .f32⟩
  | 2 => ⟨S_, .f32⟩
  | 3 => ⟨S100000x64, .f32⟩
  | 4 => ⟨S100000x64, .f32⟩
  | 5 => ⟨S100000x64, .f32⟩
  | 6 => ⟨S100000, .i32⟩
  | 7 => ⟨S3300000, .i32⟩
  | 8 => ⟨S3300000, .i32⟩
  | 9 => ⟨S_, .f32⟩
  | 10 => ⟨S3300000, .f32⟩
  | 11 => ⟨S_, .f32⟩
  | 12 => ⟨S100000, .f32⟩
  | 13 => ⟨S3300000x1, .i32⟩
  | 14 => ⟨S100000, .f32⟩
  | 15 => ⟨S_, .f32⟩
  | 16 => ⟨S100000, .f32⟩
  | 17 => ⟨S100000, .i1⟩
  | 18 => ⟨S100000, .f32⟩
  | 19 => ⟨S_, .f32⟩
  | 20 => ⟨S_, .f32⟩
  | 21 => ⟨S100000, .f32⟩
  | 22 => ⟨S100000, .f32⟩
  | 23 => ⟨S_, .i32⟩
  | 24 => ⟨S3300000, .i32⟩
  | 25 => ⟨S3300000, .i1⟩
  | 26 => ⟨S_, .i32⟩
  | 27 => ⟨S3300000, .i32⟩
  | 28 => ⟨S3300000, .i32⟩
  | 29 => ⟨S3300000, .i32⟩
  | 30 => ⟨S3300000x1, .i32⟩
  | 31 => ⟨S3300000, .f32⟩
  | 32 => ⟨S_, .i32⟩
  | 33 => ⟨S3300000, .i32⟩
  | 34 => ⟨S3300000, .i1⟩
  | 35 => ⟨S_, .i32⟩
  | 36 => ⟨S3300000, .i32⟩
  | 37 => ⟨S3300000, .i32⟩
  | 38 => ⟨S3300000, .i32⟩
  | 39 => ⟨S3300000x1, .i32⟩
  | 40 => ⟨S3300000, .f32⟩
  | 41 => ⟨S3300000, .f32⟩
  | 42 => ⟨S_, .i32⟩
  | 43 => ⟨S3300000, .i32⟩
  | 44 => ⟨S3300000, .i1⟩
  | 45 => ⟨S_, .i32⟩
  | 46 => ⟨S3300000, .i32⟩
  | 47 => ⟨S3300000, .i32⟩
  | 48 => ⟨S3300000, .i32⟩
  | 49 => ⟨S3300000x1, .i32⟩
  | 50 => ⟨S3300000x64, .f32⟩
  | 51 => ⟨S3300000x1, .f32⟩
  | 52 => ⟨S3300000x64, .f32⟩
  | 53 => ⟨S3300000x64, .f32⟩
  | 54 => ⟨S_, .f32⟩
  | 55 => ⟨S100000x64, .f32⟩
  | 56 => ⟨S3300000x1, .i32⟩
  | 57 => ⟨S100000x64, .f32⟩
  | 58 => ⟨S1x64, .f32⟩
  | 59 => ⟨S100000x64, .f32⟩
  | 60 => ⟨S100000x64, .f32⟩
  | 61 => ⟨S_, .f32⟩
  | 62 => ⟨S1024x64, .f32⟩
  | 63 => ⟨S100000x1, .i32⟩
  | 64 => ⟨S1024x64, .f32⟩
  | 65 => ⟨S_, .f32⟩
  | 66 => ⟨S100000, .f32⟩
  | 67 => ⟨S_, .f32⟩
  | 68 => ⟨S1024, .f32⟩
  | 69 => ⟨S100000x1, .i32⟩
  | 70 => ⟨S1024, .f32⟩
  | 71 => ⟨S_, .f32⟩
  | 72 => ⟨S1024, .f32⟩
  | 73 => ⟨S1024, .f32⟩
  | 74 => ⟨S1024x1, .f32⟩
  | 75 => ⟨S1024x64, .f32⟩
  | 76 => ⟨S1024x64, .f32⟩
  | 77 => ⟨S1024x10, .f32⟩
  | 78 => ⟨S1x10, .f32⟩
  | 79 => ⟨S1024x10, .f32⟩
  | 80 => ⟨S1024x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_9 : Ref sig .tc := ⟨.hbm, 78, rfl⟩
abbrev main_v52 : Ref sig .tc := ⟨.hbm, 79, rfl⟩
abbrev main_cst_10 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_11 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_12 : Ref sig .tc := ⟨.hbm, 88, rfl⟩
abbrev main_call2_v0 : Ref sig .tc := ⟨.hbm, 89, rfl⟩
abbrev main_call2_v1 : Ref sig .tc := ⟨.hbm, 90, rfl⟩
abbrev main_v59 : Ref sig .tc := ⟨.hbm, 91, rfl⟩
abbrev main_c_13 : Ref sig .tc := ⟨.hbm, 92, rfl⟩
abbrev main_v60 : Ref sig .tc := ⟨.hbm, 93, rfl⟩
abbrev main_v61 : Ref sig .tc := ⟨.hbm, 94, rfl⟩
abbrev main_c_14 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_c_15 : Ref sig .tc := ⟨.hbm, 101, rfl⟩
abbrev main_v67 : Ref sig .tc := ⟨.hbm, 102, rfl⟩
abbrev main_v68 : Ref sig .tc := ⟨.hbm, 103, rfl⟩
abbrev main_c_16 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_c_17 : Ref sig .tc := ⟨.hbm, 111, rfl⟩
abbrev main_v75 : Ref sig .tc := ⟨.hbm, 112, rfl⟩
abbrev main_v76 : Ref sig .tc := ⟨.hbm, 113, rfl⟩
abbrev main_c_18 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_19 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_call3_cst : Ref sig .tc := ⟨.hbm, 130, rfl⟩
abbrev main_call3_v0 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_cst_20 : Ref sig .tc := ⟨.hbm, 137, rfl⟩
abbrev main_v96 : Ref sig .tc := ⟨.hbm, 138, rfl⟩
abbrev main_cst_21 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_cst_22 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_23 : Ref sig .tc := ⟨.hbm, 147, rfl⟩
abbrev main_call4_v0 : Ref sig .tc := ⟨.hbm, 148, rfl⟩
abbrev main_call4_v1 : Ref sig .tc := ⟨.hbm, 149, rfl⟩
abbrev main_v103 : Ref sig .tc := ⟨.hbm, 150, rfl⟩
abbrev main_c_24 : Ref sig .tc := ⟨.hbm, 151, rfl⟩
abbrev main_v104 : Ref sig .tc := ⟨.hbm, 152, rfl⟩
abbrev main_v105 : Ref sig .tc := ⟨.hbm, 153, rfl⟩
abbrev main_c_25 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_c_26 : Ref sig .tc := ⟨.hbm, 160, rfl⟩
abbrev main_v111 : Ref sig .tc := ⟨.hbm, 161, rfl⟩
abbrev main_v112 : Ref sig .tc := ⟨.hbm, 162, rfl⟩
abbrev main_c_27 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_c_28 : Ref sig .tc := ⟨.hbm, 170, rfl⟩
abbrev main_v119 : Ref sig .tc := ⟨.hbm, 171, rfl⟩
abbrev main_v120 : Ref sig .tc := ⟨.hbm, 172, rfl⟩
abbrev main_c_29 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_cst_30 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_cst_31 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_cst_32 : Ref sig .tc := ⟨.hbm, 193, rfl⟩
abbrev main_v138 : Ref sig .tc := ⟨.hbm, 194, rfl⟩
abbrev main_cst_33 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_cst_34 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1024x64 : S_.BroadcastsInDim S1024x64 (![] : Fin 0 → Fin S1024x64.rank)
  bcast_S100000_S100000x1_0 : S100000.BroadcastsInDim S100000x1 (![0] : Fin 1 → Fin S100000x1.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  bcast_S10_S1x10_1 : S10.BroadcastsInDim S1x10 (![1] : Fin 1 → Fin S1x10.rank)
  bcast_S1x10_S1024x10_0_1 : S1x10.BroadcastsInDim S1024x10 (![0, 1] : Fin 2 → Fin S1024x10.rank)
  dot_S100000x128_S128x64_S100000x64_1_0_0_1_n_n_wf : DotDims.WF S100000x128 S128x64 S100000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  scatter_S1024x64_S100000x1_S100000x64_1_0_0_1_wf : ScatterDims.WF S1024x64 S100000x1 S100000x64 [1] [0] [0] 1
  scatter_S1024_S100000x1_S100000_n_0_0_1_wf : ScatterDims.WF S1024 S100000x1 S100000 [] [0] [0] 1
  dot_S1024x64_S64x10_S1024x10_1_0_0_1_n_n_wf : DotDims.WF S1024x64 S64x10 S1024x10 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S1024x64_S100000x1_S100000x64_1_0_0_1 : ScatterDims S1024x64 S100000x1 S100000x64 where
  updateWindowDims := [1]
  insertedWindowDims := [0]
  scatterDimsToOperandDims := [0]
  indexVectorDim := 1
  wf := scatter_S1024x64_S100000x1_S100000x64_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x64_S64x10_S1024x10_1_0_0_1_n_n : DotDims S1024x64 S64x10 S1024x10 where
  lhsContracting := [1]
  rhsContracting := [0]
  lhsNonContracting := [0]
  rhsNonContracting := [1]
  lhsBatch := []
  rhsBatch := []
  wf := dot_S1024x64_S64x10_S1024x10_1_0_0_1_n_n_wf

class Facts : Prop extends Facts₀ where

variable [Facts]
-- ==== Proof.KRun.lean ====
import proofs.«129700_j38491496907229_2_alg».proof.Proof.Gen.KernelIdeal.Frame

/-!
# The kernel's run, with its result named

The program is five grid regions among stretches of host operations. Its buffers at each boundary are a fold from
the launch memory: a stretch of host operations applies its operations, a region replaces its output array by what
the grid's write-backs leave and keeps every other buffer. Every weakly fair execution terminates without a fault in
a state whose unscoped buffers hold the last boundary's contents; read at the result's buffer this names the result,
and read at an argument's buffer it gives the argument back.
-/

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result's buffer then holds the last boundary's
    contents at it, and every argument array is as launched. -/
theorem run_value : θ_run defs (onTc (τ := τ) (main (F := F))) ⟨m, fun _ => 0, ρ⟩ (fun r => ∀ c : Dev nD,
      r.2.mem ((c.tc : Thread nD τ).loc main_v72) = W14 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v72 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c)⟩)

end Cert.KernelIdeal.RunValue

end
-- ==== Proof.LibIndexOps.lean ====
import Idealize.ShloMosaic.PureOps.Ideal
import Idealize.ShloMosaic.PureOps.Ideal.Laws
import Idealize.ShloMosaic.Lib.ValueIdx

/-!
# Scatter-add and gather along the leading axis, read at an index

A scatter that adds rows (or scalars) of an update array into an operand at integer row positions, and a
gather that takes rows (or scalars) of an operand at integer row positions, are read here element by element.
For the scatter the result element `(g, f)` is the operand's element plus the sum of the update elements
`(n, f)` over the update rows `n` whose position word, read as a signed integer, is exactly `g` (a position
outside the operand contributes nowhere). For the gather the result element `(e, f)` is the operand's
element at the row whose number is the position word of `e`, read signed and clamped into the operand.

Also here: a finite sum of extended reals times a nonnegative real is the sum of the products.
-/

noncomputable section

namespace Cert.LibIndexOps

open Idealize.ShloMosaic Idealize.ShloMosaic.ValueIdx

/-! ## Sums of extended reals and a nonnegative real factor -/

/-- A finite sum of extended reals times a nonnegative real is the sum of the products
    (multiplication by a nonnegative real distributes over every sum of extended reals). -/
theorem sum_mul_coe_nonneg {ι : Type} (s : Finset ι) (f : ι → EReal) (c : ℝ) (hc : 0 ≤ c) :
    (∑ j ∈ s, f j) * (c : EReal) = ∑ j ∈ s, f j * (c : EReal) := by
  classical
  induction s using Finset.induction_on with
  | empty => simp
  | insert a s ha ih =>
    rw [Finset.sum_insert ha, Finset.sum_insert ha,
      EReal.right_distrib_of_nonneg_of_ne_top (EReal.coe_nonneg.2 hc) (EReal.coe_ne_top c), ih]

/-- A sum of two extended reals times a nonnegative real. -/
theorem add_mul_coe_nonneg (x y : EReal) (c : ℝ) (hc : 0 ≤ c) : (x + y) * (c : EReal) = x * (c : EReal) + y * (c : EReal) := by
  exact EReal.right_distrib_of_nonneg_of_ne_top (EReal.coe_nonneg.2 hc) (EReal.coe_ne_top c) x y

/-- `k` copies of an extended real `b`, divided by `k > 0`, are `b`. -/
theorem nsmul_mul_inv (k : ℕ) (hk : 0 < k) (b : EReal) : (k • b) * (((k : ℝ)⁻¹ : ℝ) : EReal) = b := by
  have hk' : (0 : ℝ) < (k : ℝ) := Nat.cast_pos.2 hk
  have hinv : (0 : ℝ) < ((k : ℝ)⁻¹ : ℝ) := inv_pos.2 hk'
  have hkE : (0 : EReal) < (k : EReal) := by exact_mod_cast hk
  induction b using EReal.rec with
  | bot =>
    -- a positive multiple of ⊥ is ⊥, and ⊥ times a positive real is ⊥
    rw [EReal.nsmul_eq_mul, EReal.mul_bot_of_pos hkE, EReal.bot_mul_coe_of_pos hinv]
  | top =>
    -- a positive multiple of ⊤ is ⊤, and ⊤ times a positive real is ⊤
    rw [EReal.nsmul_eq_mul, EReal.mul_top_of_pos hkE, EReal.top_mul_coe_of_pos hinv]
  | coe r =>
    -- for a real it is the real identity k * r * k⁻¹ = r
    rw [← EReal.coe_nsmul, ← EReal.coe_mul]
    congr 1
    rw [nsmul_eq_mul]
    field_simp

/-! ## The dimension numbers -/

/-- Rows of `[B, D]` updates added into an `[A, D]` operand at the positions `[B, 1]`. -/
abbrev rowScatterDims (A B D : Nat)
    (wf : ScatterDims.WF ⟨2, ![A, D]⟩ ⟨2, ![B, 1]⟩ ⟨2, ![B, D]⟩ [1] [0] [0] 1) :
    ScatterDims ⟨2, ![A, D]⟩ ⟨2, ![B, 1]⟩ ⟨2, ![B, D]⟩ where
  updateWindowDims := [1]
  insertedWindowDims := [0]
  scatterDimsToOperandDims := [0]
  indexVectorDim := 1
  wf := wf

/-- Scalars of `[B]` updates added into an `[A]` operand at the positions `[B, 1]`. -/
abbrev vecScatterDims (A B : Nat)
    (wf : ScatterDims.WF ⟨1, ![A]⟩ ⟨2, ![B, 1]⟩ ⟨1, ![B]⟩ [] [0] [0] 1) :
    ScatterDims ⟨1, ![A]⟩ ⟨2, ![B, 1]⟩ ⟨1, ![B]⟩ where
  updateWindowDims := []
  insertedWindowDims := [0]
  scatterDimsToOperandDims := [0]
  indexVectorDim := 1
  wf := wf

/-- Rows of an `[N, D]` operand taken at the positions `[E, 1]`. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Scalars of an `[N]` operand taken at the positions `[E, 1]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The position word of update (or result) row `n`. -/
abbrev pos {B w : Nat} (idx : IVec ⟨2, ![B, 1]⟩ w) (n : Fin B) : BitVec w := idx (ix2 n ⟨0, Nat.one_pos⟩)

/-! ## The scatters read at an index -/

/-- On the operand's row axis the window of update `(n, f')` of a row scatter starts at row `n`'s position. -/
theorem rowScatter_start0 {A B D w : Nat}
    (wf : ScatterDims.WF ⟨2, ![A, D]⟩ ⟨2, ![B, 1]⟩ ⟨2, ![B, D]⟩ [1] [0] [0] 1)
    (idx : IVec ⟨2, ![B, 1]⟩ w) (n : Fin B) (f' : Fin D) (h0 : 0 < 2) :
    (rowScatterDims A B D wf).start (ix2 n f') idx ⟨0, h0⟩ = (pos idx n).toInt := by
  unfold ScatterDims.start
  rw [dif_pos (show (⟨0, h0⟩ : Fin 2) ∈ (rowScatterDims A B D wf).scatterDimsToOperandDims from List.mem_singleton.mpr rfl)]
  have hsi : (rowScatterDims A B D wf).siIdx (ix2 n f') ⟨List.idxOf (⟨0, h0⟩ : Fin 2) (rowScatterDims A B D wf).scatterDimsToOperandDims,
      List.idxOf_lt_length_iff.2 (List.mem_singleton.mpr rfl)⟩ = ix2 n ⟨0, Nat.one_pos⟩ := by
    funext b; refine Fin.ext ?_
    match b with
    | ⟨0, _⟩ => rfl
    | ⟨1, _⟩ => rfl
  rw [hsi]

/-- On the operand's column axis the window of a row scatter's update starts at `0`. -/
theorem rowScatter_start1 {A B D w : Nat}
    (wf : ScatterDims.WF ⟨2, ![A, D]⟩ ⟨2, ![B, 1]⟩ ⟨2, ![B, D]⟩ [1] [0] [0] 1)
    (idx : IVec ⟨2, ![B, 1]⟩ w) (n : Fin B) (f' : Fin D) (h1 : 1 < 2) :
    (rowScatterDims A B D wf).start (ix2 n f') idx ⟨1, h1⟩ = 0 := by
  unfold ScatterDims.start
  rw [dif_neg]
  intro h; have := List.mem_singleton.mp h; exact absurd (congrArg Fin.val this) Nat.one_ne_zero

/-- The row axis is an inserted axis: the window coordinate of a row scatter's update there is `0`. -/
theorem rowScatter_window0 {A B D : Nat}
    (wf : ScatterDims.WF ⟨2, ![A, D]⟩ ⟨2, ![B, 1]⟩ ⟨2, ![B, D]⟩ [1] [0] [0] 1)
    (n : Fin B) (f' : Fin D) (h0 : 0 < 2) :
    (rowScatterDims A B D wf).window (ix2 n f') ⟨0, h0⟩ = 0 := by
  unfold ScatterDims.window
  rw [dif_neg]
  intro h
  simp [ScatterDims.sKept, Shape.kept, List.mem_filter] at h

/-- On the column axis the window coordinate of update `(n, f')` of a row scatter is `f'`. -/
theorem rowScatter_window1 {A B D : Nat}
    (wf : ScatterDims.WF ⟨2, ![A, D]⟩ ⟨2, ![B, 1]⟩ ⟨2, ![B, D]⟩ [1] [0] [0] 1)
    (n : Fin B) (f' : Fin D) (h1 : 1 < 2) :
    (rowScatterDims A B D wf).window (ix2 n f') ⟨1, h1⟩ = f'.val := by
  unfold ScatterDims.window
  rw [dif_pos]
  · rfl
  · simp [ScatterDims.sKept, Shape.kept, List.mem_filter]

/-- The window of update `n` of a scalar scatter starts at `n`'s position. -/
theorem vecScatter_start0 {A B w : Nat}
    (wf : ScatterDims.WF ⟨1, ![A]⟩ ⟨2, ![B, 1]⟩ ⟨1, ![B]⟩ [] [0] [0] 1)
    (idx : IVec ⟨2, ![B, 1]⟩ w) (n : Fin B) (h0 : 0 < 1) :
    (vecScatterDims A B wf).start (ix1 n) idx ⟨0, h0⟩ = (pos idx n).toInt := by
  unfold ScatterDims.start
  rw [dif_pos (show (⟨0, h0⟩ : Fin 1) ∈ (vecScatterDims A B wf).scatterDimsToOperandDims from List.mem_singleton.mpr rfl)]
  have hsi : (vecScatterDims A B wf).siIdx (ix1 n) ⟨List.idxOf (⟨0, h0⟩ : Fin 1) (vecScatterDims A B wf).scatterDimsToOperandDims,
      List.idxOf_lt_length_iff.2 (List.mem_singleton.mpr rfl)⟩ = ix2 n ⟨0, Nat.one_pos⟩ := by
    funext b; refine Fin.ext ?_
    match b with
    | ⟨0, _⟩ => rfl
    | ⟨1, _⟩ => rfl
  rw [hsi]

/-- The operand's one axis is an inserted axis: the window coordinate of a scalar scatter's update is `0`. -/
theorem vecScatter_window0 {A B : Nat}
    (wf : ScatterDims.WF ⟨1, ![A]⟩ ⟨2, ![B, 1]⟩ ⟨1, ![B]⟩ [] [0] [0] 1)
    (n : Fin B) (h0 : 0 < 1) :
    (vecScatterDims A B wf).window (ix1 n) ⟨0, h0⟩ = 0 := by
  unfold ScatterDims.window
  rw [dif_neg]
  intro h
  simp [ScatterDims.sKept, Shape.kept, List.mem_filter] at h

/-- Update `(n, f')` of a row scatter lands on `(g, f)` exactly when row `n`'s position is `g` and `f' = f`. -/
theorem rowScatter_resultIdx?_eq_some {A B D w : Nat}
    (wf : ScatterDims.WF ⟨2, ![A, D]⟩ ⟨2, ![B, 1]⟩ ⟨2, ![B, D]⟩ [1] [0] [0] 1)
    (idx : IVec ⟨2, ![B, 1]⟩ w) (n : Fin B) (f' : Fin D) (g : Fin A) (f : Fin D) :
    (rowScatterDims A B D wf).resultIdx? (ix2 n f') idx = some (ix2 g f) ↔ (pos idx n).toInt = (g.val : Int) ∧ f' = f := by
  have hg := g.isLt
  have hf' := f'.isLt
  unfold ScatterDims.resultIdx?
  constructor
  · intro h
    split at h
    · rename_i hc
      have h' := Option.some.inj h
      have e0 : ((rowScatterDims A B D wf).start (ix2 n f') idx ⟨0, Nat.zero_lt_two⟩
          + ((rowScatterDims A B D wf).window (ix2 n f') ⟨0, Nat.zero_lt_two⟩ : Int)).toNat = g.val :=
        congrArg (fun i : (⟨2, ![A, D]⟩ : Shape).Idx => (i ⟨0, Nat.zero_lt_two⟩).val) h'
      have e1 : ((rowScatterDims A B D wf).start (ix2 n f') idx ⟨1, Nat.one_lt_two⟩
          + ((rowScatterDims A B D wf).window (ix2 n f') ⟨1, Nat.one_lt_two⟩ : Int)).toNat = f.val :=
        congrArg (fun i : (⟨2, ![A, D]⟩ : Shape).Idx => (i ⟨1, Nat.one_lt_two⟩).val) h'
      have c0 := (hc ⟨0, Nat.zero_lt_two⟩).1
      rw [rowScatter_start0, rowScatter_window0] at e0 c0
      rw [rowScatter_start1, rowScatter_window1] at e1
      refine ⟨by omega, Fin.ext (by omega)⟩
    · exact absurd h (by simp)
  · rintro ⟨hp, rfl⟩
    have hc : ∀ a, 0 ≤ (rowScatterDims A B D wf).start (ix2 n f') idx a + ((rowScatterDims A B D wf).window (ix2 n f') a : Int)
        ∧ (rowScatterDims A B D wf).start (ix2 n f') idx a + ((rowScatterDims A B D wf).window (ix2 n f') a : Int)
          < ((⟨2, ![A, D]⟩ : Shape).size a : Int) := by
      intro a
      match a with
      | ⟨0, h0⟩ =>
        rw [rowScatter_start0, rowScatter_window0, hp]
        show (0 : Int) ≤ (g.val : Int) + ((0 : Nat) : Int) ∧ (g.val : Int) + ((0 : Nat) : Int) < (A : Int)
        omega
      | ⟨1, h1⟩ =>
        rw [rowScatter_start1, rowScatter_window1]
        show (0 : Int) ≤ 0 + (f'.val : Int) ∧ 0 + (f'.val : Int) < (D : Int)
        omega
    rw [dif_pos hc]
    congr 1
    funext a
    refine Fin.ext ?_
    match a with
    | ⟨0, h0⟩ =>
      show ((rowScatterDims A B D wf).start (ix2 n f') idx ⟨0, h0⟩
          + ((rowScatterDims A B D wf).window (ix2 n f') ⟨0, h0⟩ : Int)).toNat = g.val
      rw [rowScatter_start0, rowScatter_window0, hp]; omega
    | ⟨1, h1⟩ =>
      show ((rowScatterDims A B D wf).start (ix2 n f') idx ⟨1, h1⟩
          + ((rowScatterDims A B D wf).window (ix2 n f') ⟨1, h1⟩ : Int)).toNat = f'.val
      rw [rowScatter_start1, rowScatter_window1]; omega

/-- Update `n` of a scalar scatter lands on `g` exactly when its position is `g`. -/
theorem vecScatter_resultIdx?_eq_some {A B w : Nat}
    (wf : ScatterDims.WF ⟨1, ![A]⟩ ⟨2, ![B, 1]⟩ ⟨1, ![B]⟩ [] [0] [0] 1)
    (idx : IVec ⟨2, ![B, 1]⟩ w) (n : Fin B) (g : Fin A) :
    (vecScatterDims A B wf).resultIdx? (ix1 n) idx = some (ix1 g) ↔ (pos idx n).toInt = (g.val : Int) := by
  have hg := g.isLt
  unfold ScatterDims.resultIdx?
  constructor
  · intro h
    split at h
    · rename_i hc
      have h' := Option.some.inj h
      have e0 : ((vecScatterDims A B wf).start (ix1 n) idx ⟨0, Nat.one_pos⟩
          + ((vecScatterDims A B wf).window (ix1 n) ⟨0, Nat.one_pos⟩ : Int)).toNat = g.val :=
        congrArg (fun i : (⟨1, ![A]⟩ : Shape).Idx => (i ⟨0, Nat.one_pos⟩).val) h'
      have c0 := (hc ⟨0, Nat.one_pos⟩).1
      rw [vecScatter_start0, vecScatter_window0] at e0 c0
      omega
    · exact absurd h (by simp)
  · intro hp
    have hc : ∀ a, 0 ≤ (vecScatterDims A B wf).start (ix1 n) idx a + ((vecScatterDims A B wf).window (ix1 n) a : Int)
        ∧ (vecScatterDims A B wf).start (ix1 n) idx a + ((vecScatterDims A B wf).window (ix1 n) a : Int)
          < ((⟨1, ![A]⟩ : Shape).size a : Int) := by
      intro a
      match a with
      | ⟨0, h0⟩ =>
        rw [vecScatter_start0, vecScatter_window0, hp]
        show (0 : Int) ≤ (g.val : Int) + ((0 : Nat) : Int) ∧ (g.val : Int) + ((0 : Nat) : Int) < (A : Int)
        omega
    rw [dif_pos hc]
    congr 1
    funext a
    refine Fin.ext ?_
    match a with
    | ⟨0, h0⟩ =>
      show ((vecScatterDims A B wf).start (ix1 n) idx ⟨0, h0⟩
          + ((vecScatterDims A B wf).window (ix1 n) ⟨0, h0⟩ : Int)).toNat = g.val
      rw [vecScatter_start0, vecScatter_window0, hp]; omega

/-- THE ROW SCATTER-ADD READ AT `(g, f)`: the operand's element plus the sum, over the update rows whose
    position is `g`, of the update's element in column `f`. -/
theorem rowScatterAdd_apply {A B D w : Nat}
    (wf : ScatterDims.WF ⟨2, ![A, D]⟩ ⟨2, ![B, 1]⟩ ⟨2, ![B, D]⟩ [1] [0] [0] 1)
    (x : (⟨2, ![A, D]⟩ : Shape).Idx → EReal) (idx : IVec ⟨2, ![B, 1]⟩ w) (upd : (⟨2, ![B, D]⟩ : Shape).Idx → EReal)
    (g : Fin A) (f : Fin D) :
    Ideal.hostScatterAdd (rowScatterDims A B D wf) x idx upd (ix2 g f)
      = x (ix2 g f) + ∑ n ∈ Finset.univ.filter (fun n : Fin B => (pos idx n).toInt = (g.val : Int)), upd (ix2 n f) := by
  unfold Ideal.hostScatterAdd
  congr 1
  have key : ∀ j : (⟨2, ![B, D]⟩ : Shape).Idx, (rowScatterDims A B D wf).resultIdx? j idx = some (ix2 g f) →
      (pos idx (j 0)).toInt = (g.val : Int) ∧ j = ix2 (j 0) f := by
    intro j hj
    rw [eq_ix2 j] at hj
    have h := (rowScatter_resultIdx?_eq_some wf idx (j 0) (j 1) g f).mp hj
    refine ⟨h.1, ?_⟩
    rw [← h.2]; exact eq_ix2 j
  refine Finset.sum_nbij' (fun j => j 0) (fun n => ix2 n f) ?_ ?_ ?_ ?_ ?_
  · intro j hj
    exact Finset.mem_filter.mpr ⟨Finset.mem_univ _, (key j (Finset.mem_filter.mp hj).2).1⟩
  · intro n hn
    exact Finset.mem_filter.mpr ⟨Finset.mem_univ _,
      (rowScatter_resultIdx?_eq_some wf idx n f g f).mpr ⟨(Finset.mem_filter.mp hn).2, rfl⟩⟩
  · intro j hj
    exact (key j (Finset.mem_filter.mp hj).2).2.symm
  · intro n _
    rfl
  · intro j hj
    exact congrArg upd (key j (Finset.mem_filter.mp hj).2).2

/-- THE SCALAR SCATTER-ADD READ AT `g`: the operand's element plus the sum of the updates whose position is `g`. -/
theorem vecScatterAdd_apply {A B w : Nat}
    (wf : ScatterDims.WF ⟨1, ![A]⟩ ⟨2, ![B, 1]⟩ ⟨1, ![B]⟩ [] [0] [0] 1)
    (x : (⟨1, ![A]⟩ : Shape).Idx → EReal) (idx : IVec ⟨2, ![B, 1]⟩ w) (upd : (⟨1, ![B]⟩ : Shape).Idx → EReal)
    (g : Fin A) :
    Ideal.hostScatterAdd (vecScatterDims A B wf) x idx upd (ix1 g)
      = x (ix1 g) + ∑ n ∈ Finset.univ.filter (fun n : Fin B => (pos idx n).toInt = (g.val : Int)), upd (ix1 n) := by
  unfold Ideal.hostScatterAdd
  congr 1
  have key : ∀ j : (⟨1, ![B]⟩ : Shape).Idx, (vecScatterDims A B wf).resultIdx? j idx = some (ix1 g) →
      (pos idx (j 0)).toInt = (g.val : Int) := by
    intro j hj
    rw [eq_ix1 j] at hj
    exact (vecScatter_resultIdx?_eq_some wf idx (j 0) g).mp hj
  refine Finset.sum_nbij' (fun j => j 0) (fun n => ix1 n) ?_ ?_ ?_ ?_ ?_
  · intro j hj
    exact Finset.mem_filter.mpr ⟨Finset.mem_univ _, key j (Finset.mem_filter.mp hj).2⟩
  · intro n hn
    exact Finset.mem_filter.mpr ⟨Finset.mem_univ _,
      (vecScatter_resultIdx?_eq_some wf idx n g).mpr (Finset.mem_filter.mp hn).2⟩
  · intro j _
    exact (eq_ix1 j).symm
  · intro n _
    rfl
  · intro j _
    exact congrArg upd (eq_ix1 j)

/-! ## The gathers read at an index -/

/-- The operand row a position word names: read signed, clamped into `[0, N - 1]`. -/
def clampRow {w : Nat} (N : Nat) (hN : 0 < N) (p : BitVec w) : Fin N := ⟨min p.toInt.toNat (N - 1), by omega⟩

/-- THE ROW GATHER READ AT `(e, f)`: the operand at the clamped position of row `e`, column `f`. -/
theorem rowGather_apply {α : Type} {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (f : Fin D) :
    Host.gather (rowGatherDims N E D wf) x idx (ix2 e f) = x (ix2 (clampRow N hN (pos idx e)) f) := by
  unfold Host.gather
  congr 1
  funext a
  refine Fin.ext ?_
  show (rowGatherDims N E D wf).start (ix2 e f) idx a + (rowGatherDims N E D wf).batchCoord (ix2 e f) a
    + (rowGatherDims N E D wf).offCoord (ix2 e f) a = _
  rw [GatherDims.batchCoord_eq_zero _ _ _ List.not_mem_nil]
  match a with
  | ⟨0, h0⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, h0⟩ : Fin 2) ∈ (rowGatherDims N E D wf).startIndexMap from List.mem_singleton.mpr rfl)]
    have hsi : (rowGatherDims N E D wf).siIdx (ix2 e f) ⟨List.idxOf (⟨0, h0⟩ : Fin 2) (rowGatherDims N E D wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, h1⟩ =>
    have hns : (⟨1, h1⟩ : Fin 2) ∉ (rowGatherDims N E D wf).startIndexMap := by
      intro h; have := List.mem_singleton.mp h; exact absurd (congrArg Fin.val this) Nat.one_ne_zero
    have hk : (⟨1, h1⟩ : Fin 2) ∈ (rowGatherDims N E D wf).sKept :=
      (GatherDims.mem_sKept _ _).mpr ⟨by intro h; have := List.mem_singleton.mp h; exact absurd (congrArg Fin.val this) Nat.one_ne_zero, List.not_mem_nil⟩
    unfold GatherDims.start GatherDims.offCoord
    rw [dif_neg hns, dif_pos hk]
    simp only [Nat.zero_add, Nat.add_zero]
    rfl

/-- THE SCALAR GATHER READ AT `e`: the operand at the clamped position of `e`. -/
theorem vecGather_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN (pos idx e))) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

/-- A position that is a row number of the operand is its own clamp. -/
theorem clampRow_of_toInt_eq {w : Nat} (N : Nat) (hN : 0 < N) (p : BitVec w) (g : Fin N) (h : p.toInt = (g.val : Int)) :
    clampRow N hN p = g := by
  refine Fin.ext ?_
  show min p.toInt.toNat (N - 1) = g.val
  have := g.isLt
  rw [h]
  omega

end Cert.LibIndexOps

end
-- ==== Proof.LibSegmentSum.lean ====
import proofs.«129700_j38491496907229_2_alg».proof.Proof.LibIndexOps

/-!
# Sums over the rows that share a position: scaling, a constant added to every row, and the mean

Three facts about a scatter that adds update rows into the rows their positions name, each for arbitrary sizes.

* **A row factor moves across the sum.** If row `n` of the result is to be multiplied by a nonnegative real `c n`,
  the factor may instead be put on every update row that lands on `n`: multiplication by a nonnegative real
  distributes over any sum of extended reals, and an update row lands on `n` only if its position is `n`, so the
  factor `c` read at the (clamped) position of that row is `c n`.
* **The degree factor is a nonnegative real.** A count of positions is a natural number, and the reciprocal square
  root of a positive real is a positive real; where the count is zero the factor is zero.
* **The mean of rows plus a constant.** Adding `b` to every update row adds `k • b` to the sum of the `k` rows that
  land on a position; dividing by `max k 1` gives the mean plus `b` when `k > 0`, and `0` when no row lands there.
-/

noncomputable section

namespace Cert.LibSegmentSum

open Idealize.ShloMosaic Idealize.ShloMosaic.ValueIdx Cert.LibIndexOps

/-- The word of `1.0` is the real number one. -/
theorem ofBits_one_f32 : Ideal.ofBits .f32 0x3F800000#32 = 1 := by
  rw [show (1 : EReal) = ((1 : ℝ) : EReal) by norm_cast]
  simp [Ideal.ofBits, Ideal.ieee, -EReal.coe_mul]; norm_num

/-- A finite sum of terms that are all one is the number of terms, as a real. -/
theorem sum_ones {ι : Type} (s : Finset ι) (u : ι → EReal) (hu : ∀ i ∈ s, u i = 1) :
    ∑ i ∈ s, u i = ((s.card : ℝ) : EReal) := by
  rw [Finset.sum_congr rfl hu, Finset.sum_const, EReal.nsmul_eq_mul, mul_one]
  rfl

/-- A positive count compares greater than zero: the comparison's bit is `1`. -/
theorem cmp_ogt_zero_pos (k : ℕ) (hk : 0 < k) : Ideal.cmp .ogt (((k : ℝ)) : EReal) 0 = 1#1 := by
  show BitVec.ofBool (decide ((0 : EReal) < ((k : ℝ) : EReal))) = 1#1
  rw [decide_eq_true (by exact_mod_cast hk)]
  rfl

/-- A zero count does not compare greater than zero: the comparison's bit is `0`. -/
theorem cmp_ogt_zero_zero : Ideal.cmp .ogt (((0 : ℕ) : ℝ) : EReal) 0 = 0#1 := by
  show BitVec.ofBool (decide ((0 : EReal) < (((0 : ℕ) : ℝ) : EReal))) = 0#1
  rw [decide_eq_false (by simp)]
  rfl

/-- THE ROW FACTOR ACROSS THE SUM. `hs` is `h` with row `m` multiplied by `c m`; rows of `hs` gathered at the
    positions `ps` and added at the positions `pd`, then row `n` multiplied by `c n`, is: rows of `h` gathered at
    `ps`, each multiplied by `c` at its own (clamped) source position times `c` at its (clamped) wrapped target
    position `pdw`, added at `pd`. The wrapped target position agrees with the target position wherever that is
    nonnegative (`hwrap`). -/
theorem scaled_rows {N E D w : Nat} (hN : 0 < N)
    (wfS : ScatterDims.WF ⟨2, ![N, D]⟩ ⟨2, ![E, 1]⟩ ⟨2, ![E, D]⟩ [1] [0] [0] 1)
    (wfR : GatherDims.WF ⟨2, ![N, D]⟩ ⟨2, ![E, 1]⟩ ⟨2, ![E, D]⟩ [1] [0] [] [0] [] 1 ![1, D])
    (wfV : GatherDims.WF ⟨1, ![N]⟩ ⟨2, ![E, 1]⟩ ⟨1, ![E]⟩ [] [0] [] [0] [] 1 ![1])
    (z : (⟨2, ![N, D]⟩ : Shape).Idx → EReal) (hz : ∀ i, z i = Ideal.ofBits .f32 0x00000000#32)
    (h hs : (⟨2, ![N, D]⟩ : Shape).Idx → EReal) (c : (⟨1, ![N]⟩ : Shape).Idx → EReal)
    (ps pdw pd : IVec ⟨2, ![E, 1]⟩ w)
    (hc : ∀ m : Fin N, ∃ r : ℝ, 0 ≤ r ∧ c (ix1 m) = (r : EReal))
    (hhs : ∀ (m : Fin N) (f : Fin D), hs (ix2 m f) = h (ix2 m f) * c (ix1 m))
    (hwrap : ∀ e : Fin E, 0 ≤ (pos pd e).toInt → pos pdw e = pos pd e)
    (n : Fin N) (f : Fin D) :
    Ideal.hostScatterAdd (rowScatterDims N E D wfS) z pd (Host.gather (rowGatherDims N E D wfR) hs ps) (ix2 n f) * c (ix1 n)
      = Ideal.hostScatterAdd (rowScatterDims N E D wfS) z pd
          (fun j => Host.gather (rowGatherDims N E D wfR) h ps j
            * (Host.gather (vecGatherDims N E wfV) c ps (ix1 (j 0)) * Host.gather (vecGatherDims N E wfV) c pdw (ix1 (j 0))))
          (ix2 n f) := by
  obtain ⟨r, hr0, hr⟩ := hc n
  rw [rowScatterAdd_apply, rowScatterAdd_apply, hz, Ideal.ofBits_zero_f32, zero_add, zero_add, hr,
    sum_mul_coe_nonneg _ _ r hr0]
  refine Finset.sum_congr rfl fun e he => ?_
  have hpe : (pos pd e).toInt = (n.val : Int) := (Finset.mem_filter.mp he).2
  have hw : pos pdw e = pos pd e := hwrap e (by rw [hpe]; exact Int.natCast_nonneg _)
  have hcl : clampRow N hN (pos pdw e) = n := clampRow_of_toInt_eq N hN _ n (by rw [hw]; exact hpe)
  show Host.gather (rowGatherDims N E D wfR) hs ps (ix2 e f) * (r : EReal)
    = Host.gather (rowGatherDims N E D wfR) h ps (ix2 e f)
      * (Host.gather (vecGatherDims N E wfV) c ps (ix1 e) * Host.gather (vecGatherDims N E wfV) c pdw (ix1 e))
  rw [rowGather_apply hN, rowGather_apply hN, vecGather_apply hN, vecGather_apply hN, hcl, hhs, hr, mul_assoc]

/-- THE DEGREE FACTOR IS A NONNEGATIVE REAL: ones added at the positions `pd` count the rows landing on `n`; where the
    count is positive its reciprocal square root, elsewhere zero. -/
theorem degree_factor_real {N E w : Nat}
    (wfV : ScatterDims.WF ⟨1, ![N]⟩ ⟨2, ![E, 1]⟩ ⟨1, ![E]⟩ [] [0] [0] 1)
    (z : (⟨1, ![N]⟩ : Shape).Idx → EReal) (hz : ∀ i, z i = Ideal.ofBits .f32 0x00000000#32)
    (ones : (⟨1, ![E]⟩ : Shape).Idx → EReal) (hones : ∀ i, ones i = Ideal.ofBits .f32 0x3F800000#32)
    (pd : IVec ⟨2, ![E, 1]⟩ w) (n : Fin N) :
    ∃ r : ℝ, 0 ≤ r ∧
      Scalar.select (Ideal.cmp .ogt (Ideal.hostScatterAdd (vecScatterDims N E wfV) z pd ones (ix1 n)) (Ideal.ofBits .f32 0x00000000#32))
        (Ideal.rsqrt (Ideal.hostScatterAdd (vecScatterDims N E wfV) z pd ones (ix1 n))) (Ideal.ofBits .f32 0x00000000#32) = (r : EReal) := by
  rw [vecScatterAdd_apply, hz, Ideal.ofBits_zero_f32, zero_add,
    sum_ones _ (fun e => ones (ix1 e)) (fun e _ => (hones _).trans ofBits_one_f32)]
  generalize (Finset.univ.filter (fun e : Fin E => (pos pd e).toInt = (n.val : Int))).card = k
  rcases Nat.eq_zero_or_pos k with hk | hk
  · subst hk
    refine ⟨0, le_refl _, ?_⟩
    rw [cmp_ogt_zero_zero, select_zero]
    rfl
  · refine ⟨(Real.sqrt (k : ℝ))⁻¹, inv_nonneg.2 (Real.sqrt_nonneg _), ?_⟩
    have hk' : (0 : ℝ) < (k : ℝ) := Nat.cast_pos.2 hk
    rw [cmp_ogt_zero_pos k hk, select_one, Ideal.rsqrt_coe, if_neg (not_lt.2 hk'.le), if_neg hk'.ne']

/-- THE MEAN OF ROWS PLUS A CONSTANT. `S'` sums the rows `o + b` landing on `g`, `S` the rows `o`, `C` counts them
    (ones added at the same positions). Then `S' / max C 1` is `S / max C 1 + b` where `C > 0` and `0` where `C = 0`. -/
theorem mean_add_const {G N D w : Nat}
    (wfS : ScatterDims.WF ⟨2, ![G, D]⟩ ⟨2, ![N, 1]⟩ ⟨2, ![N, D]⟩ [1] [0] [0] 1)
    (wfV : ScatterDims.WF ⟨1, ![G]⟩ ⟨2, ![N, 1]⟩ ⟨1, ![N]⟩ [] [0] [0] 1)
    (z2 : (⟨2, ![G, D]⟩ : Shape).Idx → EReal) (hz2 : ∀ i, z2 i = Ideal.ofBits .f32 0x00000000#32)
    (z1 : (⟨1, ![G]⟩ : Shape).Idx → EReal) (hz1 : ∀ i, z1 i = Ideal.ofBits .f32 0x00000000#32)
    (ones : (⟨1, ![N]⟩ : Shape).Idx → EReal) (hones : ∀ i, ones i = Ideal.ofBits .f32 0x3F800000#32)
    (o ob : (⟨2, ![N, D]⟩ : Shape).Idx → EReal) (b : Fin D → EReal)
    (hob : ∀ (m : Fin N) (f : Fin D), ob (ix2 m f) = o (ix2 m f) + b f)
    (p : IVec ⟨2, ![N, 1]⟩ w) (g : Fin G) (f : Fin D) :
    Ideal.div (Ideal.hostScatterAdd (rowScatterDims G N D wfS) z2 p ob (ix2 g f))
        (max (Ideal.hostScatterAdd (vecScatterDims G N wfV) z1 p ones (ix1 g)) (Ideal.ofBits .f32 0x3F800000#32))
      = Scalar.select (Ideal.cmp .ogt (Ideal.hostScatterAdd (vecScatterDims G N wfV) z1 p ones (ix1 g)) (Ideal.ofBits .f32 0x00000000#32))
          (Ideal.div (Ideal.hostScatterAdd (rowScatterDims G N D wfS) z2 p o (ix2 g f))
              (max (Ideal.hostScatterAdd (vecScatterDims G N wfV) z1 p ones (ix1 g)) (Ideal.ofBits .f32 0x3F800000#32))
            + b f)
          (Ideal.ofBits .f32 0x00000000#32) := by
  rw [rowScatterAdd_apply, rowScatterAdd_apply, vecScatterAdd_apply, hz2, hz1, Ideal.ofBits_zero_f32, ofBits_one_f32,
    zero_add, zero_add, zero_add,
    sum_ones _ (fun m => ones (ix1 m)) (fun m _ => (hones _).trans ofBits_one_f32),
    Finset.sum_congr rfl (fun m _ => hob m f), Finset.sum_add_distrib, Finset.sum_const]
  generalize hF : Finset.univ.filter (fun m : Fin N => (pos p m).toInt = (g.val : Int)) = F
  rcases Nat.eq_zero_or_pos F.card with hk | hk
  · -- no row lands on g: both sums are empty and the count is zero
    have hF0 : F = ∅ := Finset.card_eq_zero.mp hk
    subst hF0
    rw [Finset.card_empty, cmp_ogt_zero_zero, select_zero, Finset.sum_empty, zero_smul, add_zero]
    unfold Ideal.div
    rw [if_neg, zero_mul]
    rw [Nat.cast_zero, EReal.coe_zero, max_eq_right (zero_le_one' EReal)]
    exact one_ne_zero
  · have hk' : (0 : ℝ) < (F.card : ℝ) := Nat.cast_pos.2 hk
    have h1k : (1 : EReal) ≤ ((F.card : ℝ) : EReal) := by
      rw [← EReal.coe_one]; exact EReal.coe_le_coe_iff.2 (by exact_mod_cast hk)
    rw [cmp_ogt_zero_pos _ hk, select_one, max_eq_left h1k, Ideal.div_coe hk'.ne', Ideal.div_coe hk'.ne',
      add_mul_coe_nonneg _ _ _ (by positivity), one_div, nsmul_mul_inv _ hk]

end Cert.LibSegmentSum

end
-- ==== Proof.GcnLayer.lean ====
import proofs.«129700_j38491496907229_2_alg».proof.Proof.Gen.ReferenceIdeal
import proofs.«129700_j38491496907229_2_alg».proof.Proof.LibSegmentSum
import Idealize.ShloMosaic.Lib.Pipeline.Value
import Idealize.ShloMosaic.Lib.ValueIdx
import Idealize.ShloMosaic.Lib.ValueLayout

/-!
# One graph-convolution step and the pooled mean, in the two arrangements

A graph-convolution step sends a node matrix `h` to `D^(-1/2) (A + I) D^(-1/2) h`: every edge `e` from `s e` to
`d e` adds row `s e` of `h`, weighted by `c (s e) · c (d e)`, into row `d e` (`c` the degree factor).

* `aggRef` is that sum with the weight put on every edge's row before it is added.
* `aggKer` adds the rows of an already scaled matrix `hs` (row `m` of `h` times `c m`) unweighted; the target row's
  factor `c n` is applied afterwards. `agg_eq` says the two agree, because `c n` is a nonnegative real.

The pooled mean of `o + b` over the rows of a group is the pooled mean of `o`, plus `b`, for a group that is not
empty, and `0` for an empty one: `poolRef`, `poolKer`, `pool_eq`.

Source and target rows are read through positions that may be negative (wrapped by the row count when negative)
and are clamped into the matrix when read; a row lands on target `n` only if its raw target position is `n`.
-/

noncomputable section

namespace Cert.Gcn

open Cert.ReferenceIdeal Cert.ReferenceIdeal.Gen Idealize.ShloMosaic Idealize.ShloMosaic.ValueIdx
open Cert.LibIndexOps Cert.LibSegmentSum

/-- The positions as the gathers read them: a negative one wrapped by the row count, as a column. -/
def wrapCol (p : IVec S3300000 32) : IVec S3300000x1 32 :=
  broadcastInDim S3300000x1 ![0] bcast_S3300000_S3300000x1_0
    (select (cmpi .slt p (broadcastInDim S3300000 ![] bcast_S_S3300000 (constantI S_ 32 0#32)))
      (addi p (broadcastInDim S3300000 ![] bcast_S_S3300000 (constantI S_ 32 100000#32))) p)

/-- The positions as the scatters read them: as they are, as a column. -/
def rawCol (p : IVec S3300000 32) : IVec S3300000x1 32 :=
  broadcastInDim S3300000x1 ![0] bcast_S3300000_S3300000x1_0 p

/-- The zero matrix the rows are added into. -/
def zeroND : FVec Ideal S100000x64 .f32 :=
  broadcastInDim S100000x64 ![] bcast_S_S100000x64 (constant (F := Ideal) S_ .f32 0x00000000#32)

/-- The degree factor: ones added at the target positions count each node's incoming edges; the reciprocal square
    root of a positive count, zero for a count of zero. -/
def degFactor (d : IVec S3300000 32) : FVec Ideal S100000 .f32 :=
  select
    (cmpf (F := Ideal) .ogt
      (Host.scatterAdd scatter_S100000_S3300000x1_S3300000_n_0_0_1
        (broadcastInDim S100000 ![] bcast_S_S100000 (constant (F := Ideal) S_ .f32 0x00000000#32)) (rawCol d)
        (broadcastInDim S3300000 ![] bcast_S_S3300000 (constant (F := Ideal) S_ .f32 0x3F800000#32)))
      (broadcastInDim S100000 ![] bcast_S_S100000 (constant (F := Ideal) S_ .f32 0x00000000#32)))
    (Host.rsqrt
      (Host.scatterAdd scatter_S100000_S3300000x1_S3300000_n_0_0_1
        (broadcastInDim S100000 ![] bcast_S_S100000 (constant (F := Ideal) S_ .f32 0x00000000#32)) (rawCol d)
        (broadcastInDim S3300000 ![] bcast_S_S3300000 (constant (F := Ideal) S_ .f32 0x3F800000#32))))
    (broadcastInDim S100000 ![] bcast_S_S100000 (id (constant (F := Ideal) S_ .f32 0x00000000#32)))

/-- Rows of the scaled matrix `hs` taken at the source positions and added at the target positions. -/
def aggKer (hs : FVec Ideal S100000x64 .f32) (s d : IVec S3300000 32) : FVec Ideal S100000x64 .f32 :=
  Host.scatterAdd scatter_S100000x64_S3300000x1_S3300000x64_1_0_0_1 zeroND (rawCol d)
    (Host.gather gather_S100000x64_S3300000x1_S3300000x64_1_0_n_n_0_1_164 hs (wrapCol s))

/-- Rows of `h` taken at the source positions, each weighted by the factor at its source times the factor at its
    target, and added at the target positions. -/
def aggRef (h : FVec Ideal S100000x64 .f32) (c : FVec Ideal S100000 .f32) (s d : IVec S3300000 32) : FVec Ideal S100000x64 .f32 :=
  Host.scatterAdd scatter_S100000x64_S3300000x1_S3300000x64_1_0_0_1 zeroND (rawCol d)
    (mulf (Host.gather gather_S100000x64_S3300000x1_S3300000x64_1_0_n_n_0_1_164 h (wrapCol s))
      (broadcastInDim S3300000x64 ![0, 1] bcast_S3300000x1_S3300000x64_0_1
        (broadcastInDim S3300000x1 ![0] bcast_S3300000_S3300000x1_0
          (mulf (Host.gather gather_S100000_S3300000x1_S3300000_n_0_n_n_0_1_1 c (wrapCol s))
            (Host.gather gather_S100000_S3300000x1_S3300000_n_0_n_n_0_1_1 c (wrapCol d))))))

/-- The pooled count of each group: ones added at the rows' group positions. -/
def cntOf (batch : IVec S100000 32) : FVec Ideal S1024 .f32 :=
  Host.scatterAdd scatter_S1024_S100000x1_S100000_n_0_0_1
    (broadcastInDim S1024 ![] bcast_S_S1024 (constant (F := Ideal) S_ .f32 0x00000000#32))
    (broadcastInDim S100000x1 ![0] bcast_S100000_S100000x1_0 batch)
    (broadcastInDim S100000 ![] bcast_S_S100000 (constant (F := Ideal) S_ .f32 0x3F800000#32))

/-- The pooled sum of each group: the rows added at their group positions. -/
def sumOf (o : FVec Ideal S100000x64 .f32) (batch : IVec S100000 32) : FVec Ideal S1024x64 .f32 :=
  Host.scatterAdd scatter_S1024x64_S100000x1_S100000x64_1_0_0_1
    (broadcastInDim S1024x64 ![] bcast_S_S1024x64 (constant (F := Ideal) S_ .f32 0x00000000#32))
    (broadcastInDim S100000x1 ![0] bcast_S100000_S100000x1_0 batch) o

/-- The pooled mean of the rows `o + b3`: their pooled sum over `max count 1`. -/
def poolRef (o : FVec Ideal S100000x64 .f32) (b3 : FVec Ideal S64 .f32) (batch : IVec S100000 32) : FVec Ideal S1024x64 .f32 :=
  Host.divf
    (sumOf (addf o (broadcastInDim S100000x64 ![0, 1] bcast_S1x64_S100000x64_0_1 (broadcastInDim S1x64 ![1] bcast_S64_S1x64_1 b3))) batch)
    (broadcastInDim S1024x64 ![0, 1] bcast_S1024x1_S1024x64_0_1
      (broadcastInDim S1024x1 ![0] bcast_S1024_S1024x1_0
        (maximumf (cntOf batch) (broadcastInDim S1024 ![] bcast_S_S1024 (constant (F := Ideal) S_ .f32 0x3F800000#32)))))

/-! ## Broadcasts read at an index -/

/-- A vector as a one-column matrix, read at `(e, 0)`, is the vector at `e`. -/
theorem bcast_col_apply {α : Type} {N : Nat}
    (hb : (⟨1, ![N]⟩ : Shape).BroadcastsInDim ⟨2, ![N, 1]⟩ (![0] : Fin 1 → Fin (⟨2, ![N, 1]⟩ : Shape).rank))
    (x : (⟨1, ![N]⟩ : Shape).Idx → α) (e : Fin N) (z : Fin 1) :
    broadcastInDim ⟨2, ![N, 1]⟩ ![0] hb x (ix2 e z) = x (ix1 e) :=
  broadcastInDim_apply _ hb x (ix2 e z) (ix1 e) (fun a => match a with
    | ⟨0, _⟩ => by
      show e.val = if N = 1 then 0 else e.val
      have := e.isLt
      split <;> omega)

/-- A one-column matrix repeated along the columns, read at `j`, is the column at the row of `j`. -/
theorem bcast_rows_apply {α : Type} {N D : Nat}
    (hb : (⟨2, ![N, 1]⟩ : Shape).BroadcastsInDim ⟨2, ![N, D]⟩ (![0, 1] : Fin 2 → Fin (⟨2, ![N, D]⟩ : Shape).rank))
    (x : (⟨2, ![N, 1]⟩ : Shape).Idx → α) (j : (⟨2, ![N, D]⟩ : Shape).Idx) :
    broadcastInDim ⟨2, ![N, D]⟩ ![0, 1] hb x j = x (ix2 (j 0) ⟨0, Nat.one_pos⟩) :=
  broadcastInDim_apply _ hb x j (ix2 (j 0) ⟨0, Nat.one_pos⟩) (fun a => match a with
    | ⟨0, _⟩ => by
      show (j 0).val = if N = 1 then 0 else (j 0).val
      have := idx2_lt0 j
      split <;> omega
    | ⟨1, _⟩ => by
      show 0 = if (1 : Nat) = 1 then 0 else (j 1).val
      rw [if_pos rfl])

/-- A vector as a one-row matrix, read at `j`, is the vector at the column of `j`. -/
theorem bcast_row_apply {α : Type} {D : Nat}
    (hb : (⟨1, ![D]⟩ : Shape).BroadcastsInDim ⟨2, ![1, D]⟩ (![1] : Fin 1 → Fin (⟨2, ![1, D]⟩ : Shape).rank))
    (x : (⟨1, ![D]⟩ : Shape).Idx → α) (j : (⟨2, ![1, D]⟩ : Shape).Idx) :
    broadcastInDim ⟨2, ![1, D]⟩ ![1] hb x j = x (ix1 (j 1)) :=
  broadcastInDim_apply _ hb x j (ix1 (j 1)) (fun a => match a with
    | ⟨0, _⟩ => by
      show (j 1).val = if D = 1 then 0 else (j 1).val
      have := idx2_lt1 j
      split <;> omega)

/-- A one-row matrix repeated along the rows, read at `j`, is the row at the column of `j`. -/
theorem bcast_cols_apply {α : Type} {N D : Nat}
    (hb : (⟨2, ![1, D]⟩ : Shape).BroadcastsInDim ⟨2, ![N, D]⟩ (![0, 1] : Fin 2 → Fin (⟨2, ![N, D]⟩ : Shape).rank))
    (x : (⟨2, ![1, D]⟩ : Shape).Idx → α) (j : (⟨2, ![N, D]⟩ : Shape).Idx) :
    broadcastInDim ⟨2, ![N, D]⟩ ![0, 1] hb x j = x (ix2 ⟨0, Nat.one_pos⟩ (j 1)) :=
  broadcastInDim_apply _ hb x j (ix2 ⟨0, Nat.one_pos⟩ (j 1)) (fun a => match a with
    | ⟨0, _⟩ => by
      show 0 = if (1 : Nat) = 1 then 0 else (j 0).val
      rw [if_pos rfl]
    | ⟨1, _⟩ => by
      show (j 1).val = if D = 1 then 0 else (j 1).val
      have := idx2_lt1 j
      split <;> omega)

/-- A vector as a column, repeated along the columns, read at `j`, is the vector at the row of `j`. -/
theorem bcast_rows_col_apply {α : Type} {N D : Nat}
    (hb2 : (⟨2, ![N, 1]⟩ : Shape).BroadcastsInDim ⟨2, ![N, D]⟩ (![0, 1] : Fin 2 → Fin (⟨2, ![N, D]⟩ : Shape).rank))
    (hb1 : (⟨1, ![N]⟩ : Shape).BroadcastsInDim ⟨2, ![N, 1]⟩ (![0] : Fin 1 → Fin (⟨2, ![N, 1]⟩ : Shape).rank))
    (x : (⟨1, ![N]⟩ : Shape).Idx → α) (j : (⟨2, ![N, D]⟩ : Shape).Idx) :
    broadcastInDim ⟨2, ![N, D]⟩ ![0, 1] hb2 (broadcastInDim ⟨2, ![N, 1]⟩ ![0] hb1 x) j = x (ix1 (j 0)) := by
  rw [bcast_rows_apply]
  exact bcast_col_apply hb1 x (j 0) _

/-- A vector as a row, repeated along the rows, read at `j`, is the vector at the column of `j`. -/
theorem bcast_cols_row_apply {α : Type} {N D : Nat}
    (hb2 : (⟨2, ![1, D]⟩ : Shape).BroadcastsInDim ⟨2, ![N, D]⟩ (![0, 1] : Fin 2 → Fin (⟨2, ![N, D]⟩ : Shape).rank))
    (hb1 : (⟨1, ![D]⟩ : Shape).BroadcastsInDim ⟨2, ![1, D]⟩ (![1] : Fin 1 → Fin (⟨2, ![1, D]⟩ : Shape).rank))
    (x : (⟨1, ![D]⟩ : Shape).Idx → α) (j : (⟨2, ![N, D]⟩ : Shape).Idx) :
    broadcastInDim ⟨2, ![N, D]⟩ ![0, 1] hb2 (broadcastInDim ⟨2, ![1, D]⟩ ![1] hb1 x) j = x (ix1 (j 1)) := by
  rw [bcast_cols_apply]
  exact bcast_row_apply hb1 x _

/-- The raw position of `e` is the position word of `e`. -/
theorem rawCol_pos (p : IVec S3300000 32) (e : Fin 3300000) : pos (rawCol p) e = p (ix1 e) :=
  bcast_col_apply bcast_S3300000_S3300000x1_0 p e _

/-- The wrapped position of `e`: the position word plus the row count where the word is negative, else the word. -/
theorem wrapCol_pos (p : IVec S3300000 32) (e : Fin 3300000) :
    pos (wrapCol p) e
      = Scalar.select (IntOp.cmpi .slt (p (ix1 e)) 0#32) (p (ix1 e) + 100000#32) (p (ix1 e)) :=
  bcast_col_apply bcast_S3300000_S3300000x1_0 _ e _

/-! ## The printed dimension numbers are the leading-axis ones -/

/-- The scalar scatter into the nodes. -/
theorem vecScatter_nodes_eq : scatter_S100000_S3300000x1_S3300000_n_0_0_1
    = vecScatterDims 100000 3300000 scatter_S100000_S3300000x1_S3300000_n_0_0_1_wf := rfl
/-- The row scatter into the nodes. -/
theorem rowScatter_nodes_eq : scatter_S100000x64_S3300000x1_S3300000x64_1_0_0_1
    = rowScatterDims 100000 3300000 64 scatter_S100000x64_S3300000x1_S3300000x64_1_0_0_1_wf := rfl
/-- The scalar scatter into the groups. -/
theorem vecScatter_groups_eq : scatter_S1024_S100000x1_S100000_n_0_0_1
    = vecScatterDims 1024 100000 scatter_S1024_S100000x1_S100000_n_0_0_1_wf := rfl
/-- The row scatter into the groups. -/
theorem rowScatter_groups_eq : scatter_S1024x64_S100000x1_S100000x64_1_0_0_1
    = rowScatterDims 1024 100000 64 scatter_S1024x64_S100000x1_S100000x64_1_0_0_1_wf := rfl
/-- The row gather from the nodes. -/
theorem rowGather_nodes_eq : gather_S100000x64_S3300000x1_S3300000x64_1_0_n_n_0_1_164
    = rowGatherDims 100000 3300000 64 gather_S100000x64_S3300000x1_S3300000x64_1_0_n_n_0_1_164_wf := rfl
/-- The scalar gather from the nodes. -/
theorem vecGather_nodes_eq : gather_S100000_S3300000x1_S3300000_n_0_n_n_0_1_1
    = vecGatherDims 100000 3300000 gather_S100000_S3300000x1_S3300000_n_0_n_n_0_1_1_wf := rfl

/-- The zero vector over the nodes reads zero. -/
theorem zeroN_apply (i : S100000.Idx) :
    broadcastInDim S100000 ![] bcast_S_S100000 (constant (F := Ideal) S_ .f32 0x00000000#32) i = Ideal.ofBits .f32 0x00000000#32 := rfl
/-- The same through an identity. -/
theorem zeroN_id_apply (i : S100000.Idx) :
    broadcastInDim S100000 ![] bcast_S_S100000 (id (constant (F := Ideal) S_ .f32 0x00000000#32)) i = Ideal.ofBits .f32 0x00000000#32 := rfl
/-- The ones vector over the edges reads one. -/
theorem oneE_apply (i : S3300000.Idx) :
    broadcastInDim S3300000 ![] bcast_S_S3300000 (constant (F := Ideal) S_ .f32 0x3F800000#32) i = Ideal.ofBits .f32 0x3F800000#32 := rfl
/-- The ones vector over the groups reads one. -/
theorem oneG_apply (i : S1024.Idx) :
    broadcastInDim S1024 ![] bcast_S_S1024 (constant (F := Ideal) S_ .f32 0x3F800000#32) i = Ideal.ofBits .f32 0x3F800000#32 := rfl
/-- The zero vector over the groups reads zero. -/
theorem zeroG_apply (i : S1024.Idx) :
    broadcastInDim S1024 ![] bcast_S_S1024 (constant (F := Ideal) S_ .f32 0x00000000#32) i = Ideal.ofBits .f32 0x00000000#32 := rfl
/-- The zero matrix over the groups reads zero. -/
theorem zeroG64_apply (i : S1024x64.Idx) :
    broadcastInDim S1024x64 ![] bcast_S_S1024x64 (constant (F := Ideal) S_ .f32 0x00000000#32) i = Ideal.ofBits .f32 0x00000000#32 := rfl
/-- The ones vector over the nodes reads one. -/
theorem oneN_apply (i : S100000.Idx) :
    broadcastInDim S100000 ![] bcast_S_S100000 (constant (F := Ideal) S_ .f32 0x3F800000#32) i = Ideal.ofBits .f32 0x3F800000#32 := rfl
/-- The zero matrix over the nodes reads zero. -/
theorem zeroND_apply (i : S100000x64.Idx) : zeroND i = Ideal.ofBits .f32 0x00000000#32 := rfl

/-! ## The host operations read at an index, at the ideal values -/

/-- The accumulating scatter read at an index is the exact sum's. -/
theorem hostScatterAdd_apply {s si u : Shape} {φ : FTy} {w : Nat} (D : ScatterDims s si u) (x : FVec Ideal s φ) (idx : IVec si w)
    (upd : FVec Ideal u φ) (i : s.Idx) : Host.scatterAdd D x idx upd i = Ideal.hostScatterAdd D x idx upd i := rfl
/-- The reciprocal square root read at an index. -/
theorem hostRsqrt_apply {s : Shape} {φ : FTy} (x : FVec Ideal s φ) (i : s.Idx) : Host.rsqrt x i = Ideal.rsqrt (x i) := rfl
/-- The quotient read at an index. -/
theorem hostDivf_apply {s : Shape} {φ : FTy} (x y : FVec Ideal s φ) (i : s.Idx) : Host.divf x y i = Ideal.div (x i) (y i) := rfl
/-- The comparison read at an index. -/
theorem cmpf_ideal_apply {s : Shape} {φ : FTy} (p : CmpFPredicate) (a b : FVec Ideal s φ) (i : s.Idx) :
    cmpf p a b i = Ideal.cmp p (a i) (b i) := rfl
/-- The first coordinate of an index given by its coordinates. -/
theorem ix2_zero {n0 n1 : Nat} (a : Fin n0) (b : Fin n1) : (ix2 a b) 0 = a := rfl
/-- The second coordinate of an index given by its coordinates. -/
theorem ix2_one {n0 n1 : Nat} (a : Fin n0) (b : Fin n1) : (ix2 a b) 1 = b := rfl

/-! ## The facts -/

/-- A wrapped position that was nonnegative to begin with is the position itself. -/
theorem wrap_of_nonneg (p : IVec S3300000 32) (e : Fin 3300000) (h : 0 ≤ (pos (rawCol p) e).toInt) :
    pos (wrapCol p) e = pos (rawCol p) e := by
  rw [rawCol_pos] at h ⊢
  rw [wrapCol_pos]
  have hs : (p (ix1 e)).slt 0#32 = false := by
    rw [BitVec.slt_eq_decide, BitVec.toInt_zero]
    exact decide_eq_false (not_lt.2 h)
  have hc : IntOp.cmpi .slt (p (ix1 e)) 0#32 = 0#1 := by
    show BitVec.ofBool ((p (ix1 e)).slt 0#32) = 0#1
    rw [hs]; rfl
  rw [hc, select_zero]

/-- The degree factor of every node is a nonnegative real. -/
theorem degFactor_real (d : IVec S3300000 32) (n : Fin 100000) :
    ∃ r : ℝ, 0 ≤ r ∧ degFactor d (ix1 n) = (r : EReal) := by
  rw [degFactor, select_apply, cmpf_ideal_apply, hostRsqrt_apply, hostScatterAdd_apply, zeroN_apply, zeroN_id_apply,
    vecScatter_nodes_eq]
  exact degree_factor_real scatter_S100000_S3300000x1_S3300000_n_0_0_1_wf _ zeroN_apply _ oneE_apply (rawCol d) n

/-- `aggRef` read at `(n, f)`: the sum, over the edges whose target position is `n`, of the source row's entry times
    the factor at the source times the factor at the (wrapped) target. -/
theorem aggRef_apply (h : FVec Ideal S100000x64 .f32) (c : FVec Ideal S100000 .f32) (s d : IVec S3300000 32)
    (n : Fin 100000) (f : Fin 64) :
    aggRef h c s d (ix2 n f)
      = Ideal.hostScatterAdd (rowScatterDims 100000 3300000 64 scatter_S100000x64_S3300000x1_S3300000x64_1_0_0_1_wf) zeroND (rawCol d)
          (fun j => Host.gather (rowGatherDims 100000 3300000 64 gather_S100000x64_S3300000x1_S3300000x64_1_0_n_n_0_1_164_wf) h (wrapCol s) j
            * (Host.gather (vecGatherDims 100000 3300000 gather_S100000_S3300000x1_S3300000_n_0_n_n_0_1_1_wf) c (wrapCol s) (ix1 (j 0))
              * Host.gather (vecGatherDims 100000 3300000 gather_S100000_S3300000x1_S3300000_n_0_n_n_0_1_1_wf) c (wrapCol d) (ix1 (j 0))))
          (ix2 n f) := by
  have hupd : mulf (Host.gather gather_S100000x64_S3300000x1_S3300000x64_1_0_n_n_0_1_164 h (wrapCol s))
      (broadcastInDim S3300000x64 ![0, 1] bcast_S3300000x1_S3300000x64_0_1
        (broadcastInDim S3300000x1 ![0] bcast_S3300000_S3300000x1_0
          (mulf (Host.gather gather_S100000_S3300000x1_S3300000_n_0_n_n_0_1_1 c (wrapCol s))
            (Host.gather gather_S100000_S3300000x1_S3300000_n_0_n_n_0_1_1 c (wrapCol d)))))
      = fun j => Host.gather (rowGatherDims 100000 3300000 64 gather_S100000x64_S3300000x1_S3300000x64_1_0_n_n_0_1_164_wf) h (wrapCol s) j
          * (Host.gather (vecGatherDims 100000 3300000 gather_S100000_S3300000x1_S3300000_n_0_n_n_0_1_1_wf) c (wrapCol s) (ix1 (j 0))
            * Host.gather (vecGatherDims 100000 3300000 gather_S100000_S3300000x1_S3300000_n_0_n_n_0_1_1_wf) c (wrapCol d) (ix1 (j 0))) := by
    funext j
    rw [mulf_apply, bcast_rows_col_apply, mulf_apply, rowGather_nodes_eq, vecGather_nodes_eq]
  rw [aggRef, hostScatterAdd_apply, rowScatter_nodes_eq, hupd]

/-- THE TWO ARRANGEMENTS AGREE: rows of the scaled matrix added unweighted, then row `n` times its factor, is the
    weighted sum of the rows of `h`. -/
theorem agg_eq (h hs : FVec Ideal S100000x64 .f32) (s d : IVec S3300000 32)
    (hhs : ∀ (m : Fin 100000) (f : Fin 64), hs (ix2 m f) = h (ix2 m f) * degFactor d (ix1 m)) (n : Fin 100000) (f : Fin 64) :
    aggKer hs s d (ix2 n f) * degFactor d (ix1 n) = aggRef h (degFactor d) s d (ix2 n f) := by
  rw [aggRef_apply, aggKer, hostScatterAdd_apply, rowScatter_nodes_eq, rowGather_nodes_eq]
  exact scaled_rows (by decide : 0 < 100000) scatter_S100000x64_S3300000x1_S3300000x64_1_0_0_1_wf
    gather_S100000x64_S3300000x1_S3300000x64_1_0_n_n_0_1_164_wf gather_S100000_S3300000x1_S3300000_n_0_n_n_0_1_1_wf
    zeroND zeroND_apply h hs (degFactor d) (wrapCol s) (wrapCol d) (rawCol d) (degFactor_real d) hhs (wrap_of_nonneg d) n f

/-- `poolRef` read at `(g, f)`: the sum of the rows `o + b3` of group `g` over `max (count of g) 1`. -/
theorem poolRef_apply (o : FVec Ideal S100000x64 .f32) (b3 : FVec Ideal S64 .f32) (batch : IVec S100000 32) (g : Fin 1024) (f : Fin 64) :
    poolRef o b3 batch (ix2 g f)
      = Ideal.div
          (Ideal.hostScatterAdd (rowScatterDims 1024 100000 64 scatter_S1024x64_S100000x1_S100000x64_1_0_0_1_wf)
            (broadcastInDim S1024x64 ![] bcast_S_S1024x64 (constant (F := Ideal) S_ .f32 0x00000000#32))
            (broadcastInDim S100000x1 ![0] bcast_S100000_S100000x1_0 batch)
            (fun j => o j + b3 (ix1 (j 1))) (ix2 g f))
          (max (Ideal.hostScatterAdd (vecScatterDims 1024 100000 scatter_S1024_S100000x1_S100000_n_0_0_1_wf)
              (broadcastInDim S1024 ![] bcast_S_S1024 (constant (F := Ideal) S_ .f32 0x00000000#32))
              (broadcastInDim S100000x1 ![0] bcast_S100000_S100000x1_0 batch)
              (broadcastInDim S100000 ![] bcast_S_S100000 (constant (F := Ideal) S_ .f32 0x3F800000#32)) (ix1 g))
            (Ideal.ofBits .f32 0x3F800000#32)) := by
  have hupd : addf o (broadcastInDim S100000x64 ![0, 1] bcast_S1x64_S100000x64_0_1 (broadcastInDim S1x64 ![1] bcast_S64_S1x64_1 b3))
      = fun j => o j + b3 (ix1 (j 1)) := by
    funext j
    rw [addf_apply, bcast_cols_row_apply]
  rw [poolRef, hostDivf_apply, sumOf, hupd, hostScatterAdd_apply, bcast_rows_col_apply, maximumf_apply, cntOf,
    hostScatterAdd_apply, oneG_apply, rowScatter_groups_eq, vecScatter_groups_eq, ix2_zero]

end Cert.Gcn

end
-- ==== Proof.Spec.lean ====
import Idealize.ShloMosaic.PureOps.Ideal
import Idealize.ShloMosaic.PureOps.Ideal.Laws
import Idealize.ShloMosaic.Lib.ValueIdx

/-!
# The arithmetic of the dense stages, row by row

Every dense stage of the network acts on a tall matrix one row at a time: row `n` of the result depends on row `n`
of the tall operands and on the small weight matrices only. Each stage is written here as one function of whole
matrices over the extended reals, element by element:

* `matScale x w s`    — `(x · w)` with row `n` multiplied by `s n`;
* `fusedLayer a s b w` — `(max (a ∘ s + b) 0 · w)` with row `n` multiplied by `s n`, where `a ∘ s` multiplies row `n`
                          of `a` by `s n` and `b` is added to every row;
* `rowScale a s`       — row `n` of `a` multiplied by `s n`;
* `affine g w b`       — `g · w` with `b` added to every row.

The zero of the rectifier is kept as the all-zero word it is written as.
-/

noncomputable section

namespace Cert.Spec

open Idealize.ShloMosaic Idealize.ShloMosaic.ValueIdx

/-- An `r × c` matrix of extended reals. -/
abbrev Mat (r c : Nat) := (⟨2, ![r, c]⟩ : Shape).Idx → EReal

/-- The rectifier's zero, as written. -/
abbrev z32 : EReal := Ideal.ofBits .f32 0x00000000#32

/-- `(x · w)`, row `n` times `s n`. -/
def matScale {N K D : Nat} (x : Mat N K) (w : Mat K D) (s : Mat N 1) : Mat N D :=
  fun i => (∑ k : Fin K, x (ix2 (i 0) k) * w (ix2 k (i 1))) * s (ix2 (i 0) ⟨0, Nat.one_pos⟩)

/-- `(max (a ∘ s + b) 0 · w)`, row `n` times `s n`. -/
def fusedLayer {N K D : Nat} (a : Mat N K) (s : Mat N 1) (b : Mat 1 K) (w : Mat K D) : Mat N D :=
  fun i => (∑ k : Fin K, max (a (ix2 (i 0) k) * s (ix2 (i 0) ⟨0, Nat.one_pos⟩) + b (ix2 ⟨0, Nat.one_pos⟩ k)) z32 * w (ix2 k (i 1)))
    * s (ix2 (i 0) ⟨0, Nat.one_pos⟩)

/-- Row `n` of `a` times `s n`. -/
def rowScale {N D : Nat} (a : Mat N D) (s : Mat N 1) : Mat N D :=
  fun i => a i * s (ix2 (i 0) ⟨0, Nat.one_pos⟩)

/-- `g · w` plus `b` on every row. -/
def affine {N K D : Nat} (g : Mat N K) (w : Mat K D) (b : Mat 1 D) : Mat N D :=
  fun i => (∑ k : Fin K, g (ix2 (i 0) k) * w (ix2 k (i 1))) + b (ix2 ⟨0, Nat.one_pos⟩ (i 1))

end Cert.Spec

end
-- ==== Proof.GcnModel.lean ====
import proofs.«129700_j38491496907229_2_alg».proof.Proof.GcnLayer
import proofs.«129700_j38491496907229_2_alg».proof.Proof.Spec

/-!
# The kernel's arrangement of the whole network, as one function of the arguments

The kernel computes the degree factor once, as a column; scales each dense stage's rows by it before the rows are
sent along the edges (`aggKer`), and scales the received sums by it again inside the next dense stage. After the third
step the scaled sums are pooled; the last bias, the same for every row, is added after the pooled mean, and an empty
group is left at zero. The head is one more dense stage on the pooled means.
-/

noncomputable section

namespace Cert.Gcn

open Cert.ReferenceIdeal Cert.ReferenceIdeal.Gen Idealize.ShloMosaic Idealize.ShloMosaic.ValueIdx
open Cert.LibIndexOps Cert.LibSegmentSum

/-- The edges' source positions: the first row of the edge table, then every node once (its self loop). -/
def srcIdx (x1 : IVec S2x3200000 32) : IVec S3300000 32 :=
  concatenate S3300000 0
    [⟨S3200000, shapeCast _ (extractStridedSlice S1x3200000 ![0, 0] x1 slices_S2x3200000_S1x3200000_0_0) shapeCasts_S1x3200000_S3200000⟩,
     ⟨S100000, iotaInDim S100000 32 0⟩] concatenates_S3200000_S100000_S3300000_d0

/-- The edges' target positions: the second row of the edge table, then every node once. -/
def dstIdx (x1 : IVec S2x3200000 32) : IVec S3300000 32 :=
  concatenate S3300000 0
    [⟨S3200000, shapeCast _ (extractStridedSlice S1x3200000 ![1, 0] x1 slices_S2x3200000_S1x3200000_1_0) shapeCasts_S1x3200000_S3200000⟩,
     ⟨S100000, iotaInDim S100000 32 0⟩] concatenates_S3200000_S100000_S3300000_d0

/-- The degree factor as a column. -/
def dcol (x1 : IVec S2x3200000 32) : Cert.Spec.Mat 100000 1 := fun i => degFactor (dstIdx x1) (ix1 (i 0))

/-- A bias vector as a one-row matrix. -/
def brow {D : Nat} (b : (⟨1, ![D]⟩ : Shape).Idx → EReal) : Cert.Spec.Mat 1 D := fun i => b (ix1 (i 1))

variable (x0 : FVec Ideal S100000x128 .f32) (x1 : IVec S2x3200000 32) (x2 : IVec S100000 32)
  (x3 : FVec Ideal S128x64 .f32) (x4 : FVec Ideal S64 .f32) (x5 : FVec Ideal S64x64 .f32) (x6 : FVec Ideal S64 .f32)
  (x7 : FVec Ideal S64x64 .f32) (x8 : FVec Ideal S64 .f32) (x9 : FVec Ideal S64x10 .f32) (x10 : FVec Ideal S10 .f32)

/-- First dense stage: `(x · W₁)`, rows scaled. -/
def kH1 : FVec Ideal S100000x64 .f32 := Cert.Spec.matScale x0 x3 (dcol x1)
/-- Its rows sent along the edges. -/
def kA1 : FVec Ideal S100000x64 .f32 := aggKer (kH1 x0 x1 x3) (srcIdx x1) (dstIdx x1)
/-- Second dense stage. -/
def kH2 : FVec Ideal S100000x64 .f32 := Cert.Spec.fusedLayer (kA1 x0 x1 x3) (dcol x1) (brow x4) x5
def kA2 : FVec Ideal S100000x64 .f32 := aggKer (kH2 x0 x1 x3 x4 x5) (srcIdx x1) (dstIdx x1)
/-- Third dense stage. -/
def kH3 : FVec Ideal S100000x64 .f32 := Cert.Spec.fusedLayer (kA2 x0 x1 x3 x4 x5) (dcol x1) (brow x6) x7
def kA3 : FVec Ideal S100000x64 .f32 := aggKer (kH3 x0 x1 x3 x4 x5 x6 x7) (srcIdx x1) (dstIdx x1)
/-- The third step's sums, rows scaled. -/
def kO3 : FVec Ideal S100000x64 .f32 := Cert.Spec.rowScale (kA3 x0 x1 x3 x4 x5 x6 x7) (dcol x1)

/-- The pooled mean plus the last bias for a group that is not empty, zero for an empty one. -/
def kPool (o : FVec Ideal S100000x64 .f32) (x2 : IVec S100000 32) (x8 : FVec Ideal S64 .f32) : FVec Ideal S1024x64 .f32 :=
  fun i => Scalar.select (Ideal.cmp .ogt (cntOf x2 (ix1 (i 0))) (Ideal.ofBits .f32 0x00000000#32))
    (Ideal.div (sumOf o x2 i) (max (cntOf x2 (ix1 (i 0))) (Ideal.ofBits .f32 0x3F800000#32)) + x8 (ix1 (i 1)))
    (Ideal.ofBits .f32 0x00000000#32)

/-- The kernel's result. -/
def kOut : FVec Ideal S1024x10 .f32 :=
  Cert.Spec.affine (kPool (kO3 x0 x1 x3 x4 x5 x6 x7) x2 x8) x9 (brow x10)

end Cert.Gcn

end
-- ==== Proof.KRegionsAPay.lean ====
import proofs.«129700_j38491496907229_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

/-!
# The bodies' arithmetic, entry by entry

Each dense stage's body computes one block of rows of its result from the matching block of rows of the tall
operands and from the whole small operands. Here each body's result is read at one entry `(r, f)` of the block:
a sum of products over the contraction index for the matrix products, the row's scale factor read from the
one-column operand, the bias read from the one-row operand.
-/

noncomputable section

namespace Cert.KernelIdeal.RegionValue

open Cert.KernelIdeal Cert.KernelIdeal.Gen Idealize.ShloMosaic Idealize.ShloMosaic.ValueIdx
open Idealize.ShloMosaic.TcCoe Idealize.SL.Sem
open Idealize.ShloMosaic.Pipeline (Dat)

/-- The zero offsets of a whole-buffer access, however spelt. -/
theorem off_zero : (![0, 0] : Fin 2 → Nat) = fun _ => 0 := funext fun a => by fin_cases a <;> rfl

/-- A one-column array `[a, 1]` broadcast to `[a, b]` reads, at `(r, f)`, the column's entry of row `r`. -/
theorem broadcastTo_a1_ab_apply {α : Type} {a b : ℕ} (v : (⟨2, ![a, 1]⟩ : Shape).Idx → α)
    (h : (⟨2, ![a, 1]⟩ : Shape).Broadcasts ⟨2, ![a, b]⟩) (r : Fin a) (f : Fin b) :
    broadcastTo ⟨2, ![a, b]⟩ v h (ix2 r f) = v (ix2 r (⟨0, Nat.one_pos⟩ : Fin 1)) := by
  refine broadcastTo_apply v h (ix2 r f) (ix2 r (⟨0, Nat.one_pos⟩ : Fin 1)) fun ax => ?_
  match ax with
  | ⟨0, _⟩ =>
    show r.val = if a = 1 then 0 else r.val
    split
    · have := r.isLt; omega
    · rfl
  | ⟨1, _⟩ => rfl

/-- Region 3's body at entry `(r, f)`: the block's entry times the scale of row `r`. -/
theorem k3_pay1_apply (x0 : Vec Ideal S4000x64 .f32) (x1 : Vec Ideal S4000x1 .f32) (r : Fin 4000) (f : Fin 64) :
    k3_pay1 x0 x1 (ix2 r f) = x0 (ix2 r f) * x1 (ix2 r (⟨0, Nat.one_pos⟩ : Fin 1)) := by
  unfold k3_pay1
  rw [mulf_apply, shapeCast_self, shapeCast_self]
  rw [broadcastTo_a1_ab_apply x1 broadcasts_S4000x1_S4000x64 r f]

theorem matmul_4000x128x64_apply_lhs0 (j : S4000x64.Idx) (q : dot_S4000x128_S128x64_S4000x64_1_0_0_1_n_n.contr.Idx) : (dot_S4000x128_S128x64_S4000x64_1_0_0_1_n_n.lhsIdx j q 0).val = (j 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
theorem matmul_4000x128x64_apply_lhs1 (j : S4000x64.Idx) (q : dot_S4000x128_S128x64_S4000x64_1_0_0_1_n_n.contr.Idx) : (dot_S4000x128_S128x64_S4000x64_1_0_0_1_n_n.lhsIdx j q 1).val = (q ⟨0, by decide⟩).val :=
  dot_S4000x128_S128x64_S4000x64_1_0_0_1_n_n.lhsIdx_val_of_single rfl j q
theorem matmul_4000x128x64_apply_rhs0 (j : S4000x64.Idx) (q : dot_S4000x128_S128x64_S4000x64_1_0_0_1_n_n.contr.Idx) : (dot_S4000x128_S128x64_S4000x64_1_0_0_1_n_n.rhsIdx j q 0).val = (q ⟨0, by decide⟩).val :=
  dot_S4000x128_S128x64_S4000x64_1_0_0_1_n_n.rhsIdx_val_of_single rfl j q
theorem matmul_4000x128x64_apply_rhs1 (j : S4000x64.Idx) (q : dot_S4000x128_S128x64_S4000x64_1_0_0_1_n_n.contr.Idx) : (dot_S4000x128_S128x64_S4000x64_1_0_0_1_n_n.rhsIdx j q 1).val = (j 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-- The contraction `[4000, 128] · [128, 64]` into a zero accumulator, at entry `(r, f)`: the sum over the
    contraction index `k` of the left operand's `(r, k)` times the right operand's `(k, f)`. -/
theorem matmul_4000x128x64_apply {φ₁ φ₂ : FTy} (A : FVec Ideal S4000x128 φ₁) (B : FVec Ideal S128x64 φ₂) (r : Fin 4000) (f : Fin 64) :
    matmul dot_S4000x128_S128x64_S4000x64_1_0_0_1_n_n none A B (constant (F := Ideal) S4000x64 .f32 0x00000000#32) (ix2 r f)
      = ∑ k : Fin 128, A (ix2 r k) * B (ix2 k f) := by
  simp only [matmul]
  rw [Ideal.matmul_constant_zero_apply, ← Equiv.sum_comp (contrEquiv1 dot_S4000x128_S128x64_S4000x64_1_0_0_1_n_n 128 rfl rfl).symm]
  refine Finset.sum_congr rfl fun k _ => ?_
  have hk := contrEquiv1_symm_val dot_S4000x128_S128x64_S4000x64_1_0_0_1_n_n 128 rfl rfl k
  have el : dot_S4000x128_S128x64_S4000x64_1_0_0_1_n_n.lhsIdx (ix2 r f) ((contrEquiv1 dot_S4000x128_S128x64_S4000x64_1_0_0_1_n_n 128 rfl rfl).symm k) = ix2 r k := funext fun a => Fin.ext (by
    match a with
    | ⟨0, _⟩ => exact matmul_4000x128x64_apply_lhs0 _ _
    | ⟨1, _⟩ => exact (matmul_4000x128x64_apply_lhs1 _ _).trans hk)
  have er : dot_S4000x128_S128x64_S4000x64_1_0_0_1_n_n.rhsIdx (ix2 r f) ((contrEquiv1 dot_S4000x128_S128x64_S4000x64_1_0_0_1_n_n 128 rfl rfl).symm k) = ix2 k f := funext fun a => Fin.ext (by
    match a with
    | ⟨0, _⟩ => exact (matmul_4000x128x64_apply_rhs0 _ _).trans hk
    | ⟨1, _⟩ => exact matmul_4000x128x64_apply_rhs1 _ _)
  rw [el, er]

theorem matmul_1024x64x10_apply_lhs0 (j : S1024x10.Idx) (q : dot_S1024x64_S64x10_S1024x10_1_0_0_1_n_n.contr.Idx) : (dot_S1024x64_S64x10_S1024x10_1_0_0_1_n_n.lhsIdx j q 0).val = (j 0).val := by
  unfold DotDims.lhsIdx
  rw [dif_neg (show ¬(0 : Fin S1024x64.rank) ∈ dot_S1024x64_S64x10_S1024x10_1_0_0_1_n_n.lhsBatch by decide), dif_pos (show (0 : Fin S1024x64.rank) ∈ dot_S1024x64_S64x10_S1024x10_1_0_0_1_n_n.lhsNonContracting by decide)]
  rfl
theorem matmul_1024x64x10_apply_lhs1 (j : S1024x10.Idx) (q : dot_S1024x64_S64x10_S1024x10_1_0_0_1_n_n.contr.Idx) : (dot_S1024x64_S64x10_S1024x10_1_0_0_1_n_n.lhsIdx j q 1).val = (q ⟨0, by decide⟩).val :=
  dot_S1024x64_S64x10_S1024x10_1_0_0_1_n_n.lhsIdx_val_of_single rfl j q
theorem matmul_1024x64x10_apply_rhs0 (j : S1024x10.Idx) (q : dot_S1024x64_S64x10_S1024x10_1_0_0_1_n_n.contr.Idx) : (dot_S1024x64_S64x10_S1024x10_1_0_0_1_n_n.rhsIdx j q 0).val = (q ⟨0, by decide⟩).val :=
  dot_S1024x64_S64x10_S1024x10_1_0_0_1_n_n.rhsIdx_val_of_single rfl j q
theorem matmul_1024x64x10_apply_rhs1 (j : S1024x10.Idx) (q : dot_S1024x64_S64x10_S1024x10_1_0_0_1_n_n.contr.Idx) : (dot_S1024x64_S64x10_S1024x10_1_0_0_1_n_n.rhsIdx j q 1).val = (j 1).val := by
  unfold DotDims.rhsIdx
  rw [dif_neg (show ¬(1 : Fin S64x10.rank) ∈ dot_S1024x64_S64x10_S1024x10_1_0_0_1_n_n.rhsBatch by decide), dif_pos (show (1 : Fin S64x10.rank) ∈ dot_S1024x64_S64x10_S1024x10_1_0_0_1_n_n.rhsNonContracting by decide)]
  rfl

/-- The contraction `[1024, 64] · [64, 10]` into a zero accumulator, at entry `(r, f)`: the sum over the
    contraction index `k` of the left operand's `(r, k)` times the right operand's `(k, f)`. -/
theorem matmul_1024x64x10_apply {φ₁ φ₂ : FTy} (A : FVec Ideal S1024x64 φ₁) (B : FVec Ideal S64x10 φ₂) (r : Fin 1024) (f : Fin 10) :
    matmul dot_S1024x64_S64x10_S1024x10_1_0_0_1_n_n none A B (constant (F := Ideal) S1024x10 .f32 0x00000000#32) (ix2 r f)
      = ∑ k : Fin 64, A (ix2 r k) * B (ix2 k f) := by
  simp only [matmul]
  rw [Ideal.matmul_constant_zero_apply, ← Equiv.sum_comp (contrEquiv1 dot_S1024x64_S64x10_S1024x10_1_0_0_1_n_n 64 rfl rfl).symm]
  refine Finset.sum_congr rfl fun k _ => ?_
  have hk := contrEquiv1_symm_val dot_S1024x64_S64x10_S1024x10_1_0_0_1_n_n 64 rfl rfl k
  have el : dot_S1024x64_S64x10_S1024x10_1_0_0_1_n_n.lhsIdx (ix2 r f) ((contrEquiv1 dot_S1024x64_S64x10_S1024x10_1_0_0_1_n_n 64 rfl rfl).symm k) = ix2 r k := funext fun a => Fin.ext (by
    match a with
    | ⟨0, _⟩ => exact matmul_1024x64x10_apply_lhs0 _ _
    | ⟨1, _⟩ => exact (matmul_1024x64x10_apply_lhs1 _ _).trans hk)
  have er : dot_S1024x64_S64x10_S1024x10_1_0_0_1_n_n.rhsIdx (ix2 r f) ((contrEquiv1 dot_S1024x64_S64x10_S1024x10_1_0_0_1_n_n 64 rfl rfl).symm k) = ix2 k f := funext fun a => Fin.ext (by
    match a with
    | ⟨0, _⟩ => exact (matmul_1024x64x10_apply_rhs0 _ _).trans hk
    | ⟨1, _⟩ => exact matmul_1024x64x10_apply_rhs1 _ _)
  rw [el, er]

/-- Region 0's body at entry `(r, f)`: row `r` of the left block times column `f` of the weights, times the scale of
    row `r`. The change of float format before the product is the identity on the extended reals. -/
theorem k0_pay1_apply (x0 : Vec Ideal S4000x128 .f32) (x1 : Vec Ideal S128x64 .f32) (x2 : Vec Ideal S4000x1 .f32) (r : Fin 4000) (f : Fin 64) :
    k0_pay1 x0 x1 x2 (ix2 r f) = (∑ k : Fin 128, x0 (ix2 r k) * x1 (ix2 k f)) * x2 (ix2 r (⟨0, Nat.one_pos⟩ : Fin 1)) := by
  unfold k0_pay1
  rw [mulf_apply, matmul_4000x128x64_apply, shapeCast_self, broadcastTo_a1_ab_apply x2 broadcasts_S4000x1_S4000x64 r f]
  rfl

/-- Region 4's body at entry `(r, f)`: row `r` of the left operand times column `f` of the weights, plus the bias of
    column `f`. -/
theorem k4_pay1_apply (x0 : Vec Ideal S1024x64 .f32) (x1 : Vec Ideal S64x10 .f32) (x2 : Vec Ideal S1x10 .f32) (r : Fin 1024) (f : Fin 10) :
    k4_pay1 x0 x1 x2 (ix2 r f) = (∑ k : Fin 64, x0 (ix2 r k) * x1 (ix2 k f)) + x2 (ix2 (⟨0, Nat.one_pos⟩ : Fin 1) f) := by
  unfold k4_pay1
  rw [addf_apply, matmul_1024x64x10_apply, shapeCast_self, shapeCast_self, broadcastTo_1b_ab_apply x2 broadcasts_S1x10_S1024x10 r f]
  rfl

end Cert.KernelIdeal.RegionValue

end
-- ==== Proof.KRegionsA0.lean ====
import proofs.«129700_j38491496907229_2_alg».proof.Proof.Gen.KernelIdeal.Frame
import proofs.«129700_j38491496907229_2_alg».proof.Proof.Spec
import proofs.«129700_j38491496907229_2_alg».proof.Proof.KRegionsAPay
import Idealize.ShloMosaic.Lib.Pipeline.Value
import Idealize.ShloMosaic.Lib.ValueIdx

/-!
# From blocks to the array: the scaled product of region 0

The pipeline visits the grid's points in order; at each point the body computes one block of the result from the
operands' blocks at that point and the block is written back to its place in the result array. Here: each operand's
block at a point is read as entries of the operand's array as the region finds it; what a point writes back is the
matching block of the closed form over whole arrays; the points' blocks cover the result array; so after the whole
grid the result array is the closed form.
-/

noncomputable section

namespace Cert.KernelIdeal.RegionValue

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-! ## Region 0: the tall operand times the weights, each row times its scale

The grid has 25 points; point `t` handles rows `4000 t … 4000 t + 3999`: the tall operand's, the scale column's and
the result's blocks have block index `(t, 0)`; the weights' one block is the whole matrix at every point. -/

/-- The index maps over the grid: the tall operand's and the scale column's blocks sit at the result's block index
    `(q, 0)`, `q ≤ 24`; the weights' block index is `(0, 0)`. -/
theorem idx_facts0 : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = win0_3.index t (0 : Fin 2)
    ∧ win0_2.index t (1 : Fin 2) = 0
    ∧ win0_3.index t (1 : Fin 2) = 0
    ∧ win0_3.index t (0 : Fin 2) ≤ 24 :=
  (by decide +kernel : ∀ t : Fin grid0.N, _)

/-- Every block of rows is some point's. -/
theorem idx_onto0 : ∀ q : Fin 25, ∃ t : Fin cfg0.N, win0_3.index t = ![q.val, 0] :=
  (by decide +kernel : ∀ q : Fin 25, ∃ t : Fin grid0.N, win0_3.index t = ![q.val, 0])

/-- The tall operand's block at point `t`, at `(r, k)`: the array's entry in row `4000 q + r`, `q` the result's block row. -/
theorem iblk0_0_apply (c : Dev nD) (t : Fin cfg0.N) (r : Fin 4000) (k : Fin 128) (j : S100000x128.Idx)
    (hj0 : (j 0).val = win0_3.index t (0 : Fin 2) * 4000 + r.val) (hj1 : (j 1).val = k.val) :
    (iblk0 V c 0 t : Vec Ideal S4000x128 .f32) (ix2 r k) = (V c main_arg0 : S100000x128.Idx → EReal) j := by
  obtain ⟨e0, e1, e2, e3, e4, e5, e6, e7⟩ := idx_facts0 t
  unfold iblk0
  rw [View.read_apply]
  show V c main_arg0 _ = V c main_arg0 _
  congr 1
  funext a
  apply Fin.ext
  match a with
  | ⟨0, _⟩ => show win0_0.index t (0 : Fin 2) * 4000 + 1 * r.val = (j 0).val; omega
  | ⟨1, _⟩ => show win0_0.index t (1 : Fin 2) * 128 + 1 * k.val = (j 1).val; omega

/-- The weights' block at any point is the whole matrix. -/
theorem iblk0_1_apply (c : Dev nD) (t : Fin cfg0.N) (k : Fin 128) (f : Fin 64) (j : S128x64.Idx)
    (hj0 : (j 0).val = k.val) (hj1 : (j 1).val = f.val) :
    (iblk0 V c 1 t : Vec Ideal S128x64 .f32) (ix2 k f) = (V c main_arg3 : S128x64.Idx → EReal) j := by
  obtain ⟨e0, e1, e2, e3, e4, e5, e6, e7⟩ := idx_facts0 t
  unfold iblk0
  rw [View.read_apply]
  show V c main_arg3 _ = V c main_arg3 _
  congr 1
  funext a
  apply Fin.ext
  match a with
  | ⟨0, _⟩ => show win0_1.index t (0 : Fin 2) * 128 + 1 * k.val = (j 0).val; omega
  | ⟨1, _⟩ => show win0_1.index t (1 : Fin 2) * 64 + 1 * f.val = (j 1).val; omega

/-- The scale column's block at point `t`, at row `r`: the column's entry in row `4000 q + r`. -/
theorem iblk0_2_apply (c : Dev nD) (t : Fin cfg0.N) (r : Fin 4000) (j : S100000x1.Idx)
    (hj0 : (j 0).val = win0_3.index t (0 : Fin 2) * 4000 + r.val) :
    (iblk0 V c 2 t : Vec Ideal S4000x1 .f32) (ix2 r (⟨0, Nat.one_pos⟩ : Fin 1)) = (V c main_v15 : S100000x1.Idx → EReal) j := by
  obtain ⟨e0, e1, e2, e3, e4, e5, e6, e7⟩ := idx_facts0 t
  unfold iblk0
  rw [View.read_apply]
  show V c main_v15 _ = V c main_v15 _
  congr 1
  funext a
  apply Fin.ext
  have hj1 : (j 1).val < 1 := (j 1).isLt
  match a with
  | ⟨0, _⟩ => show win0_2.index t (0 : Fin 2) * 4000 + 1 * r.val = (j 0).val; omega
  | ⟨1, _⟩ => show win0_2.index t (1 : Fin 2) * 1 + 1 * 0 = (j 1).val; omega

/-- What point `t` writes back is block `t` of the scaled product. -/
theorem flushed0_eq (c : Dev nD) (t : Fin cfg0.N) :
    (dat0 (F := Ideal) V c).flushed 3 t
      = ((cfg0.win 3).blk t).view.read (Elt Ideal) (Cert.Spec.matScale (V c main_arg0 : Cert.Spec.Mat 100000 128) (V c main_arg3 : Cert.Spec.Mat 128 64) (V c main_v15 : Cert.Spec.Mat 100000 1)) := by
  show (cfg0.win 3).cut (grid0.coords t) ((dat0 V c).after 3 t) = _
  rw [after0_3]
  unfold out0_3
  rw [View.canon_unit_zero off_zero]
  simp only [View.ld_unit_zero (S := S4000x128) off_zero, View.ld_unit_zero (S := S128x64) off_zero, View.ld_unit_zero (S := S4000x1) off_zero]
  refine funext fun (j : S4000x64.Idx) => ?_
  obtain ⟨r, f, rfl⟩ : ∃ (r : Fin 4000) (f : Fin 64), j = ix2 r f := ⟨j 0, j 1, eq_ix2 j⟩
  refine (k0_pay1_apply (iblk0 V c 0 t) (iblk0 V c 1 t) (iblk0 V c 2 t) r f).trans ?_
  rw [View.read_apply]
  unfold Cert.Spec.matScale
  have e6 := (idx_facts0 t).2.2.2.2.2.2.1
  refine congrArg₂ (· * ·) (Finset.sum_congr rfl fun k _ => congrArg₂ (· * ·) (iblk0_0_apply V c t r k _ ?_ rfl) (iblk0_1_apply V c t k f _ rfl ?_)) (iblk0_2_apply V c t r _ ?_)
  · show win0_3.index t (0 : Fin 2) * 4000 + 1 * r.val = win0_3.index t (0 : Fin 2) * 4000 + r.val; omega
  · show win0_3.index t (1 : Fin 2) * 64 + 1 * f.val = f.val; omega
  · show win0_3.index t (0 : Fin 2) * 4000 + 1 * r.val = win0_3.index t (0 : Fin 2) * 4000 + r.val; omega

/-- An index of the result is in point `t`'s block iff each coordinate is in the block's range on its axis. -/
theorem mem_blk0 (t : Fin cfg0.N) (i : S100000x64.Idx) :
    i ∈ ((cfg0.win 3).blk t).view.set ↔ ∀ a : Fin 2, win0_3.index t a * S4000x64.size a ≤ (i a).val ∧ (i a).val < win0_3.index t a * S4000x64.size a + S4000x64.size a := by
  show i ∈ ((View.whole main_v16).slice (win0_3.rect t)).set ↔ _
  rw [View.set_slice_whole, Rect.mem_set_unit]
  exact Iff.rfl

/-- Row `n` of the result is in the block of the point whose block row is `n / 4000`: the blocks tile the array. -/
theorem cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := idx_onto0 ⟨(i 0).val / 4000, by omega⟩
  have q0 : win0_3.index t (0 : Fin 2) = (i 0).val / 4000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 64 ≤ (i 1).val ∧ (i 1).val < win0_3.index t (1 : Fin 2) * 64 + 64; omega

/-- After region 0's whole grid the result array is the product of the tall operand and the weights, each row times
    its scale. -/
theorem final0 (c : Dev nD) :
    (dat0 (F := Ideal) V c).arrAt 3 cfg0.N = Cert.Spec.matScale (V c main_arg0) (V c main_arg3) (V c main_v15) :=
  (dat0 V c).arrAt_eq_of_cover 3 _ (fun t _ => flushed0_eq V c t) cover0

end Cert.KernelIdeal.RegionValue

end
-- ==== Proof.KRegionsA3.lean ====
import proofs.«129700_j38491496907229_2_alg».proof.Proof.Gen.KernelIdeal.Frame
import proofs.«129700_j38491496907229_2_alg».proof.Proof.Spec
import proofs.«129700_j38491496907229_2_alg».proof.Proof.KRegionsAPay
import Idealize.ShloMosaic.Lib.Pipeline.Value
import Idealize.ShloMosaic.Lib.ValueIdx

/-!
# From blocks to the array: the row scaling of region 3

The pipeline visits the grid's points in order; at each point the body computes one block of the result from the
operands' blocks at that point and the block is written back to its place in the result array. Here: each operand's
block at a point is read as entries of the operand's array as the region finds it; what a point writes back is the
matching block of the closed form over whole arrays; the points' blocks cover the result array; so after the whole
grid the result array is the closed form.
-/

noncomputable section

namespace Cert.KernelIdeal.RegionValue

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-! ## Region 3: each row of the tall operand times its scale

The grid has 25 points; point `t` handles rows `4000 t … 4000 t + 3999`: the tall operand's, the scale column's and
the result's blocks all have block index `(t, 0)`. -/

/-- The index maps over the grid: both operands' blocks sit at the result's block index, which is `(q, 0)` with
    `q ≤ 24`. -/
theorem idx_facts3 : ∀ t : Fin cfg3.N, win3_0.index t (0 : Fin 2) = win3_2.index t (0 : Fin 2)
    ∧ win3_0.index t (1 : Fin 2) = 0
    ∧ win3_1.index t (0 : Fin 2) = win3_2.index t (0 : Fin 2)
    ∧ win3_1.index t (1 : Fin 2) = 0
    ∧ win3_2.index t (1 : Fin 2) = 0
    ∧ win3_2.index t (0 : Fin 2) ≤ 24 :=
  (by decide +kernel : ∀ t : Fin grid3.N, _)

/-- Every block of rows is some point's. -/
theorem idx_onto3 : ∀ q : Fin 25, ∃ t : Fin cfg3.N, win3_2.index t = ![q.val, 0] :=
  (by decide +kernel : ∀ q : Fin 25, ∃ t : Fin grid3.N, win3_2.index t = ![q.val, 0])

/-- The tall operand's block at point `t`, at `(r, f)`: the array's entry in row `4000 q + r`, `q` the result's block row. -/
theorem iblk3_0_apply (c : Dev nD) (t : Fin cfg3.N) (r : Fin 4000) (f : Fin 64) (k : S100000x64.Idx)
    (hk0 : (k 0).val = win3_2.index t (0 : Fin 2) * 4000 + r.val) (hk1 : (k 1).val = f.val) :
    (iblk3 V c 0 t : Vec Ideal S4000x64 .f32) (ix2 r f) = (V c main_v50 : S100000x64.Idx → EReal) k := by
  obtain ⟨e0, e1, e2, e3, e4, e5⟩ := idx_facts3 t
  unfold iblk3
  rw [View.read_apply]
  show V c main_v50 _ = V c main_v50 _
  congr 1
  funext a
  apply Fin.ext
  match a with
  | ⟨0, _⟩ => show win3_0.index t (0 : Fin 2) * 4000 + 1 * r.val = (k 0).val; omega
  | ⟨1, _⟩ => show win3_0.index t (1 : Fin 2) * 64 + 1 * f.val = (k 1).val; omega

/-- The scale column's block at point `t`, at row `r`: the column's entry in row `4000 q + r`. -/
theorem iblk3_1_apply (c : Dev nD) (t : Fin cfg3.N) (r : Fin 4000) (k : S100000x1.Idx)
    (hk0 : (k 0).val = win3_2.index t (0 : Fin 2) * 4000 + r.val) :
    (iblk3 V c 1 t : Vec Ideal S4000x1 .f32) (ix2 r (⟨0, Nat.one_pos⟩ : Fin 1)) = (V c main_v15 : S100000x1.Idx → EReal) k := by
  obtain ⟨e0, e1, e2, e3, e4, e5⟩ := idx_facts3 t
  unfold iblk3
  rw [View.read_apply]
  show V c main_v15 _ = V c main_v15 _
  congr 1
  funext a
  apply Fin.ext
  have hk1 : (k 1).val < 1 := (k 1).isLt
  match a with
  | ⟨0, _⟩ => show win3_1.index t (0 : Fin 2) * 4000 + 1 * r.val = (k 0).val; omega
  | ⟨1, _⟩ => show win3_1.index t (1 : Fin 2) * 1 + 1 * 0 = (k 1).val; omega

/-- What point `t` writes back is block `t` of the row-scaled array. -/
theorem flushed3_eq (c : Dev nD) (t : Fin cfg3.N) :
    (dat3 (F := Ideal) V c).flushed 2 t
      = ((cfg3.win 2).blk t).view.read (Elt Ideal) (Cert.Spec.rowScale (V c main_v50 : Cert.Spec.Mat 100000 64) (V c main_v15 : Cert.Spec.Mat 100000 1)) := by
  show (cfg3.win 2).cut (grid3.coords t) ((dat3 V c).after 2 t) = _
  rw [after3_2]
  unfold out3_2
  rw [View.canon_unit_zero off_zero]
  simp only [View.ld_unit_zero (S := S4000x64) off_zero, View.ld_unit_zero (S := S4000x1) off_zero]
  refine funext fun (j : S4000x64.Idx) => ?_
  obtain ⟨r, f, rfl⟩ : ∃ (r : Fin 4000) (f : Fin 64), j = ix2 r f := ⟨j 0, j 1, eq_ix2 j⟩
  refine (k3_pay1_apply (iblk3 V c 0 t) (iblk3 V c 1 t) r f).trans ?_
  rw [View.read_apply]
  unfold Cert.Spec.rowScale
  refine congrArg₂ (· * ·) (iblk3_0_apply V c t r f _ ?_ ?_) (iblk3_1_apply V c t r _ ?_)
  · show win3_2.index t (0 : Fin 2) * 4000 + 1 * r.val = win3_2.index t (0 : Fin 2) * 4000 + r.val; omega
  · show win3_2.index t (1 : Fin 2) * 64 + 1 * f.val = f.val
    have := (idx_facts3 t).2.2.2.2.1; omega
  · show win3_2.index t (0 : Fin 2) * 4000 + 1 * r.val = win3_2.index t (0 : Fin 2) * 4000 + r.val; omega

/-- An index of the result is in point `t`'s block iff each coordinate is in the block's range on its axis. -/
theorem mem_blk3 (t : Fin cfg3.N) (i : S100000x64.Idx) :
    i ∈ ((cfg3.win 2).blk t).view.set ↔ ∀ a : Fin 2, win3_2.index t a * S4000x64.size a ≤ (i a).val ∧ (i a).val < win3_2.index t a * S4000x64.size a + S4000x64.size a := by
  show i ∈ ((View.whole main_v51).slice (win3_2.rect t)).set ↔ _
  rw [View.set_slice_whole, Rect.mem_set_unit]
  exact Iff.rfl

/-- Row `n` of the result is in the block of the point whose block row is `n / 4000`: the blocks tile the array. -/
theorem cover3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := idx_onto3 ⟨(i 0).val / 4000, by omega⟩
  have q0 : win3_2.index t (0 : Fin 2) = (i 0).val / 4000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 4000 ≤ (i 0).val ∧ (i 0).val < win3_2.index t (0 : Fin 2) * 4000 + 4000; omega
  | ⟨1, _⟩ => show win3_2.index t (1 : Fin 2) * 64 ≤ (i 1).val ∧ (i 1).val < win3_2.index t (1 : Fin 2) * 64 + 64; omega

/-- After region 3's whole grid the result array is the tall operand with each row times its scale. -/
theorem final3 (c : Dev nD) :
    (dat3 (F := Ideal) V c).arrAt 2 cfg3.N = Cert.Spec.rowScale (V c main_v50) (V c main_v15) :=
  (dat3 V c).arrAt_eq_of_cover 2 _ (fun t _ => flushed3_eq V c t) cover3

end Cert.KernelIdeal.RegionValue

end
-- ==== Proof.KRegionsA4.lean ====
import proofs.«129700_j38491496907229_2_alg».proof.Proof.Gen.KernelIdeal.Frame
import proofs.«129700_j38491496907229_2_alg».proof.Proof.Spec
import proofs.«129700_j38491496907229_2_alg».proof.Proof.KRegionsAPay
import Idealize.ShloMosaic.Lib.Pipeline.Value
import Idealize.ShloMosaic.Lib.ValueIdx

/-!
# From blocks to the array: the affine map of region 4

The pipeline visits the grid's points in order; at each point the body computes one block of the result from the
operands' blocks at that point and the block is written back to its place in the result array. Here: each operand's
block at a point is read as entries of the operand's array as the region finds it; what a point writes back is the
matching block of the closed form over whole arrays; the points' blocks cover the result array; so after the whole
grid the result array is the closed form.
-/

noncomputable section

namespace Cert.KernelIdeal.RegionValue

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-! ## Region 4: the last product plus the bias

The grid has one point, at which every window's one block is its whole array. -/

/-- The index maps at the grid's one point: every block index is `(0, 0)`. -/
theorem idx_facts4 : ∀ t : Fin cfg4.N, win4_0.index t (0 : Fin 2) = 0
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0 :=
  (by decide +kernel : ∀ t : Fin grid4.N, _)

/-- The grid has a point. -/
theorem point4 : ∃ t : Fin cfg4.N, True := (by decide +kernel : ∃ t : Fin grid4.N, True)

/-- The left operand's block is the whole array. -/
theorem iblk4_0_apply (c : Dev nD) (t : Fin cfg4.N) (r : Fin 1024) (k : Fin 64) (j : S1024x64.Idx)
    (hj0 : (j 0).val = r.val) (hj1 : (j 1).val = k.val) :
    (iblk4 V c 0 t : Vec Ideal S1024x64 .f32) (ix2 r k) = (V c main_v70 : S1024x64.Idx → EReal) j := by
  obtain ⟨e0, e1, e2, e3, e4, e5, e6, e7⟩ := idx_facts4 t
  unfold iblk4
  rw [View.read_apply]
  show V c main_v70 _ = V c main_v70 _
  congr 1
  funext a
  apply Fin.ext
  match a with
  | ⟨0, _⟩ => show win4_0.index t (0 : Fin 2) * 1024 + 1 * r.val = (j 0).val; omega
  | ⟨1, _⟩ => show win4_0.index t (1 : Fin 2) * 64 + 1 * k.val = (j 1).val; omega

/-- The weights' block is the whole matrix. -/
theorem iblk4_1_apply (c : Dev nD) (t : Fin cfg4.N) (k : Fin 64) (f : Fin 10) (j : S64x10.Idx)
    (hj0 : (j 0).val = k.val) (hj1 : (j 1).val = f.val) :
    (iblk4 V c 1 t : Vec Ideal S64x10 .f32) (ix2 k f) = (V c main_arg9 : S64x10.Idx → EReal) j := by
  obtain ⟨e0, e1, e2, e3, e4, e5, e6, e7⟩ := idx_facts4 t
  unfold iblk4
  rw [View.read_apply]
  show V c main_arg9 _ = V c main_arg9 _
  congr 1
  funext a
  apply Fin.ext
  match a with
  | ⟨0, _⟩ => show win4_1.index t (0 : Fin 2) * 64 + 1 * k.val = (j 0).val; omega
  | ⟨1, _⟩ => show win4_1.index t (1 : Fin 2) * 10 + 1 * f.val = (j 1).val; omega

/-- The bias row's block is the whole row. -/
theorem iblk4_2_apply (c : Dev nD) (t : Fin cfg4.N) (f : Fin 10) (j : S1x10.Idx) (hj1 : (j 1).val = f.val) :
    (iblk4 V c 2 t : Vec Ideal S1x10 .f32) (ix2 (⟨0, Nat.one_pos⟩ : Fin 1) f) = (V c main_v71 : S1x10.Idx → EReal) j := by
  obtain ⟨e0, e1, e2, e3, e4, e5, e6, e7⟩ := idx_facts4 t
  unfold iblk4
  rw [View.read_apply]
  show V c main_v71 _ = V c main_v71 _
  congr 1
  funext a
  apply Fin.ext
  have hj0 : (j 0).val < 1 := (j 0).isLt
  match a with
  | ⟨0, _⟩ => show win4_2.index t (0 : Fin 2) * 1 + 1 * 0 = (j 0).val; omega
  | ⟨1, _⟩ => show win4_2.index t (1 : Fin 2) * 10 + 1 * f.val = (j 1).val; omega

/-- What the one point writes back is the whole affine image. -/
theorem flushed4_eq (c : Dev nD) (t : Fin cfg4.N) :
    (dat4 (F := Ideal) V c).flushed 3 t
      = ((cfg4.win 3).blk t).view.read (Elt Ideal) (Cert.Spec.affine (V c main_v70 : Cert.Spec.Mat 1024 64) (V c main_arg9 : Cert.Spec.Mat 64 10) (V c main_v71 : Cert.Spec.Mat 1 10)) := by
  show (cfg4.win 3).cut (grid4.coords t) ((dat4 V c).after 3 t) = _
  rw [after4_3]
  unfold out4_3
  rw [View.canon_unit_zero off_zero]
  simp only [View.ld_unit_zero (S := S1024x64) off_zero, View.ld_unit_zero (S := S64x10) off_zero, View.ld_unit_zero (S := S1x10) off_zero]
  refine funext fun (j : S1024x10.Idx) => ?_
  obtain ⟨r, f, rfl⟩ : ∃ (r : Fin 1024) (f : Fin 10), j = ix2 r f := ⟨j 0, j 1, eq_ix2 j⟩
  refine (k4_pay1_apply (iblk4 V c 0 t) (iblk4 V c 1 t) (iblk4 V c 2 t) r f).trans ?_
  rw [View.read_apply]
  unfold Cert.Spec.affine
  obtain ⟨e0, e1, e2, e3, e4, e5, e6, e7⟩ := idx_facts4 t
  refine congrArg₂ (· + ·) (Finset.sum_congr rfl fun k _ => congrArg₂ (· * ·) (iblk4_0_apply V c t r k _ ?_ rfl) (iblk4_1_apply V c t k f _ rfl ?_)) (iblk4_2_apply V c t f _ ?_)
  · show win4_3.index t (0 : Fin 2) * 1024 + 1 * r.val = r.val; omega
  · show win4_3.index t (1 : Fin 2) * 10 + 1 * f.val = f.val; omega
  · show win4_3.index t (1 : Fin 2) * 10 + 1 * f.val = f.val; omega

/-- An index of the result is in point `t`'s block iff each coordinate is in the block's range on its axis. -/
theorem mem_blk4 (t : Fin cfg4.N) (i : S1024x10.Idx) :
    i ∈ ((cfg4.win 3).blk t).view.set ↔ ∀ a : Fin 2, win4_3.index t a * S1024x10.size a ≤ (i a).val ∧ (i a).val < win4_3.index t a * S1024x10.size a + S1024x10.size a := by
  show i ∈ ((View.whole main_v72).slice (win4_3.rect t)).set ↔ _
  rw [View.set_slice_whole, Rect.mem_set_unit]
  exact Iff.rfl

/-- The one point's block is the whole result. -/
theorem cover4 (i : S1024x10.Idx) :
    ∃ t : Fin cfg4.N, (cfg4.win 3).flush t = true ∧ i ∈ ((cfg4.win 3).blk t).view.set := by
  have hi0 : (i 0).val < 1024 := (i 0).isLt
  have hi1 : (i 1).val < 10 := (i 1).isLt
  obtain ⟨t, -⟩ := point4
  obtain ⟨e0, e1, e2, e3, e4, e5, e6, e7⟩ := idx_facts4 t
  refine ⟨t, flush4_3 t, ?_⟩
  rw [mem_blk4]
  intro a
  match a with
  | ⟨0, _⟩ => show win4_3.index t (0 : Fin 2) * 1024 ≤ (i 0).val ∧ (i 0).val < win4_3.index t (0 : Fin 2) * 1024 + 1024; omega
  | ⟨1, _⟩ => show win4_3.index t (1 : Fin 2) * 10 ≤ (i 1).val ∧ (i 1).val < win4_3.index t (1 : Fin 2) * 10 + 10; omega

/-- After region 4's one point the result array is the left operand times the weights plus the bias on every row. -/
theorem final4 (c : Dev nD) :
    (dat4 (F := Ideal) V c).arrAt 3 cfg4.N = Cert.Spec.affine (V c main_v70) (V c main_arg9) (V c main_v71) :=
  (dat4 V c).arrAt_eq_of_cover 3 _ (fun t _ => flushed4_eq V c t) cover4

end Cert.KernelIdeal.RegionValue

end
-- ==== Proof.KRegionsA.lean ====
import proofs.«129700_j38491496907229_2_alg».proof.Proof.KRegionsA0
import proofs.«129700_j38491496907229_2_alg».proof.Proof.KRegionsA3
import proofs.«129700_j38491496907229_2_alg».proof.Proof.KRegionsA4

/-!
# Regions 0, 3 and 4: the result array after the whole grid

Gathers the three closed forms: region 0's scaled product, region 3's row scaling and region 4's affine map, each the
result array after the region's whole grid as one function of the operand arrays as the region finds them.
-/
-- ==== Proof.KRegionsBPay.lean ====
import proofs.«129700_j38491496907229_2_alg».proof.Proof.Gen.KernelIdeal.Skeleton
import proofs.«129700_j38491496907229_2_alg».proof.Proof.Spec
import Idealize.ShloMosaic.Lib.Pipeline.Value
import Idealize.ShloMosaic.Lib.ValueIdx
import Idealize.ShloMosaic.Lib.ValueLayout
import Idealize.ShloMosaic.PureOps.Ideal.Laws

/-!
# The fused layer's body at one entry of its block

One grid point of a fused layer holds a block of 4000 rows of the tall operands together with the whole bias row and the
whole weight matrix. Entry `(p, f)` of what the body stores depends on row `p` of the block only: the row is scaled by
the row's factor, shifted by the bias, rectified, contracted with column `f` of the weights, and scaled by the row's
factor once more. The change to the narrower float format before the contraction is the identity on the extended reals.
-/

noncomputable section

namespace Cert.KernelIdeal.RegionValue.FusedLayer

open Cert.KernelIdeal Cert.KernelIdeal.Gen Idealize.ShloMosaic Idealize.ShloMosaic.ValueIdx

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem matmul64_lhs0 (i : S4000x64.Idx) (q : (dot_S4000x64_S64x64_S4000x64_1_0_0_1_n_n).contr.Idx) : ((dot_S4000x64_S64x64_S4000x64_1_0_0_1_n_n).lhsIdx i q 0).val = (i 0).val := by
  unfold DotDims.lhsIdx
  rw [dif_neg (show ¬(0 : Fin S4000x64.rank) ∈ (dot_S4000x64_S64x64_S4000x64_1_0_0_1_n_n).lhsBatch by decide), dif_pos (show (0 : Fin S4000x64.rank) ∈ (dot_S4000x64_S64x64_S4000x64_1_0_0_1_n_n).lhsNonContracting by decide)]
  rfl
theorem matmul64_rhs1 (i : S4000x64.Idx) (q : (dot_S4000x64_S64x64_S4000x64_1_0_0_1_n_n).contr.Idx) : ((dot_S4000x64_S64x64_S4000x64_1_0_0_1_n_n).rhsIdx i q 1).val = (i 1).val := by
  unfold DotDims.rhsIdx
  rw [dif_neg (show ¬(1 : Fin S64x64.rank) ∈ (dot_S4000x64_S64x64_S4000x64_1_0_0_1_n_n).rhsBatch by decide), dif_pos (show (1 : Fin S64x64.rank) ∈ (dot_S4000x64_S64x64_S4000x64_1_0_0_1_n_n).rhsNonContracting by decide)]
  rfl

/-- The contraction of a `[4000, 64]` block with the `[64, 64]` weights into a zero accumulator: entry `(p, f)` is the
    sum over `k` of the block's `(p, k)` times the weights' `(k, f)`. -/
theorem matmul64_apply (l : FVec Ideal S4000x64 .bf16) (r : FVec Ideal S64x64 .bf16) (p : Fin 4000) (f : Fin 64) :
    matmul dot_S4000x64_S64x64_S4000x64_1_0_0_1_n_n none l r (constant (F := Ideal) S4000x64 .f32 0x00000000#32) (ix2 p f)
      = ∑ k : Fin 64, l (ix2 p k) * r (ix2 k f) := by
  show FloatOps.matmul dot_S4000x64_S64x64_S4000x64_1_0_0_1_n_n none l r (constant (F := Ideal) S4000x64 .f32 0x00000000#32) (ix2 p f) = _
  rw [Ideal.matmul_constant_zero_apply, ← Equiv.sum_comp (contrEquiv1 dot_S4000x64_S64x64_S4000x64_1_0_0_1_n_n 64 rfl rfl).symm]
  refine Finset.sum_congr rfl fun k _ => ?_
  have hk := contrEquiv1_symm_val dot_S4000x64_S64x64_S4000x64_1_0_0_1_n_n 64 rfl rfl k
  have el : (dot_S4000x64_S64x64_S4000x64_1_0_0_1_n_n).lhsIdx (ix2 p f) ((contrEquiv1 dot_S4000x64_S64x64_S4000x64_1_0_0_1_n_n 64 rfl rfl).symm k) = ix2 p k := funext fun a => Fin.ext (by
    match a with
    | ⟨0, _⟩ => exact matmul64_lhs0 _ _
    | ⟨1, _⟩ => exact ((dot_S4000x64_S64x64_S4000x64_1_0_0_1_n_n).lhsIdx_val_of_single rfl _ _).trans hk)
  have er : (dot_S4000x64_S64x64_S4000x64_1_0_0_1_n_n).rhsIdx (ix2 p f) ((contrEquiv1 dot_S4000x64_S64x64_S4000x64_1_0_0_1_n_n 64 rfl rfl).symm k) = ix2 k f := funext fun a => Fin.ext (by
    match a with
    | ⟨0, _⟩ => exact ((dot_S4000x64_S64x64_S4000x64_1_0_0_1_n_n).rhsIdx_val_of_single rfl _ _).trans hk
    | ⟨1, _⟩ => exact matmul64_rhs1 _ _)
  rw [el, er]

/-- Entry `(p, f)` of the first fused layer's stored block: row `p` scaled, shifted, rectified, contracted with
    column `f` of the weights, and scaled again. -/
theorem k1_pay1_apply (x0 : Vec Ideal S4000x64 .f32) (x1 : Vec Ideal S4000x1 .f32) (x2 : Vec Ideal S1x64 .f32)
    (x3 : Vec Ideal S64x64 .f32) (x4 : Vec Ideal S4000x1 .f32) (p : Fin 4000) (f : Fin 64) :
    k1_pay1 x0 x1 x2 x3 x4 (ix2 p f)
      = (∑ k : Fin 64, max (x0 (ix2 p k) * x1 (ix2 p (0 : Fin 1)) + x2 (ix2 (0 : Fin 1) k)) Cert.Spec.z32 * x3 (ix2 k f))
          * x4 (ix2 p (0 : Fin 1)) := by
  unfold k1_pay1
  simp only [mulf_apply, shapeCast_self, broadcastTo_a1_ab_apply, matmul64_apply, truncf_apply, addf_apply,
    maximumf_apply, broadcast_apply, broadcastTo_1b_ab_apply]
  rfl

/-- Entry `(p, f)` of the second fused layer's stored block: row `p` scaled, shifted, rectified, contracted with
    column `f` of the weights, and scaled again. -/
theorem k2_pay1_apply (x0 : Vec Ideal S4000x64 .f32) (x1 : Vec Ideal S4000x1 .f32) (x2 : Vec Ideal S1x64 .f32)
    (x3 : Vec Ideal S64x64 .f32) (x4 : Vec Ideal S4000x1 .f32) (p : Fin 4000) (f : Fin 64) :
    k2_pay1 x0 x1 x2 x3 x4 (ix2 p f)
      = (∑ k : Fin 64, max (x0 (ix2 p k) * x1 (ix2 p (0 : Fin 1)) + x2 (ix2 (0 : Fin 1) k)) Cert.Spec.z32 * x3 (ix2 k f))
          * x4 (ix2 p (0 : Fin 1)) := by
  unfold k2_pay1
  simp only [mulf_apply, shapeCast_self, broadcastTo_a1_ab_apply, matmul64_apply, truncf_apply, addf_apply,
    maximumf_apply, broadcast_apply, broadcastTo_1b_ab_apply]
  rfl

/-- The layer's entry `i` from one block's entries: when the block's row `r` holds row `i₀` of the tall operands and the
    small operands are whole, the body's entry `(r, f)` is the layer's entry `(i₀, f)`. -/
theorem fusedLayer_of_rows {N : Nat} (A : Cert.Spec.Mat N 64) (S : Cert.Spec.Mat N 1) (B : Cert.Spec.Mat 1 64) (W : Cert.Spec.Mat 64 64)
    (x0 : Vec Ideal S4000x64 .f32) (x1 : Vec Ideal S4000x1 .f32) (x2 : Vec Ideal S1x64 .f32) (x3 : Vec Ideal S64x64 .f32)
    (r : Fin 4000) (f : Fin 64) (i : (⟨2, ![N, 64]⟩ : Shape).Idx)
    (h0 : ∀ k : Fin 64, x0 (ix2 r k) = A (ix2 (i 0) k))
    (h1 : x1 (ix2 r (0 : Fin 1)) = S (ix2 (i 0) ⟨0, Nat.one_pos⟩))
    (h2 : ∀ k : Fin 64, x2 (ix2 (0 : Fin 1) k) = B (ix2 ⟨0, Nat.one_pos⟩ k))
    (h3 : ∀ k : Fin 64, x3 (ix2 k f) = W (ix2 k (i 1))) :
    (∑ k : Fin 64, max (x0 (ix2 r k) * x1 (ix2 r (0 : Fin 1)) + x2 (ix2 (0 : Fin 1) k)) Cert.Spec.z32 * x3 (ix2 k f))
        * x1 (ix2 r (0 : Fin 1))
      = Cert.Spec.fusedLayer A S B W i := by
  unfold Cert.Spec.fusedLayer
  rw [h1]
  congr 1
  refine Finset.sum_congr rfl fun k _ => ?_
  rw [h0 k, h2 k, h3 k]

/-- A block's stores start at the block's origin. -/
theorem origin : (![0, 0] : Fin 2 → Nat) = fun _ => 0 := funext fun a => by fin_cases a <;> rfl

end Cert.KernelIdeal.RegionValue.FusedLayer

end
-- ==== Proof.KRegionsB1.lean ====
import proofs.«129700_j38491496907229_2_alg».proof.Proof.Gen.KernelIdeal.Frame
import proofs.«129700_j38491496907229_2_alg».proof.Proof.Gen.KernelIdeal.Points
import proofs.«129700_j38491496907229_2_alg».proof.Proof.Spec
import proofs.«129700_j38491496907229_2_alg».proof.Proof.KRegionsBPay
import Idealize.ShloMosaic.Lib.Pipeline.Value
import Idealize.ShloMosaic.Lib.ValueIdx
import Idealize.ShloMosaic.Lib.ValueLayout
import Idealize.ShloMosaic.PureOps.Ideal.Laws

/-!
# The first fused layer over its whole grid

The layer's grid has 25 points; point `t` works on rows `4000 t … 4000 t + 3999` of the tall operands (the layer's input
and the column of row factors) together with the whole bias row and the whole weight matrix, and writes back the same rows
of the result. Since entry `(n, f)` of the layer depends on row `n` of the tall operands only, what point `t` writes back
is block `t` of the layer's closed form over the whole arrays; the 25 blocks tile the result, so after the grid the result
array IS the closed form.
-/

noncomputable section

open Cert.KernelIdeal Cert.KernelIdeal.Gen Idealize.ShloMosaic Idealize.ShloMosaic.ValueIdx
open Idealize.ShloMosaic.TcCoe Idealize.SL.Sem
open Idealize.ShloMosaic.Pipeline (Dat)

namespace Cert.KernelIdeal.RegionValue.FusedLayer

variable (V : (c : Dev nD) → (b : Ref sig .tc) → Buf (Elt Ideal) ((c : Thread nD τ).loc b))

/-! ## The first fused layer (region 1) -/

/-- The printed index maps over the grid: the tall windows move with the output, one block of 4000 rows per point;
    the bias row and the weights stay on their one block. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Entry `(y₀, y₁)` of the tall operand's block at point `t` is the operand's entry `(4000 t + y₀, y₁)`. -/
theorem iblk1_0_apply (c : Dev nD) (t : Fin cfg1.N) (y : S4000x64.Idx) (k : S100000x64.Idx)
    (hk0 : (k 0).val = 4000 * t.val + (y 0).val) (hk1 : (k 1).val = (y 1).val) :
    (iblk1 V c 0 t : Vec Ideal S4000x64 .f32) y = (V c main_v26 : S100000x64.Idx → EReal) k := by
  obtain ⟨e00, e01, -⟩ := idx_facts1 t
  unfold iblk1
  rw [View.read_apply]
  show V c main_v26 _ = V c main_v26 _
  congr 1
  funext a
  apply Fin.ext
  match a with
  | ⟨0, _⟩ => show win1_0.index t 0 * 4000 + 1 * (y 0).val = (k 0).val; omega
  | ⟨1, _⟩ => show win1_0.index t 1 * 64 + 1 * (y 1).val = (k 1).val; omega

/-- Entry `y₀` of the row factors' block at point `t` is the factor of row `4000 t + y₀`. -/
theorem iblk1_1_apply (c : Dev nD) (t : Fin cfg1.N) (y : S4000x1.Idx) (k : S100000x1.Idx)
    (hk0 : (k 0).val = 4000 * t.val + (y 0).val) (hk1 : (k 1).val = (y 1).val) :
    (iblk1 V c 1 t : Vec Ideal S4000x1 .f32) y = (V c main_v15 : S100000x1.Idx → EReal) k := by
  obtain ⟨-, -, e10, e11, -⟩ := idx_facts1 t
  unfold iblk1
  rw [View.read_apply]
  show V c main_v15 _ = V c main_v15 _
  congr 1
  funext a
  apply Fin.ext
  match a with
  | ⟨0, _⟩ => show win1_1.index t 0 * 4000 + 1 * (y 0).val = (k 0).val; omega
  | ⟨1, _⟩ => show win1_1.index t 1 * 1 + 1 * (y 1).val = (k 1).val; omega

/-- The bias row's block at every point is the whole row. -/
theorem iblk1_2_apply (c : Dev nD) (t : Fin cfg1.N) (y : S1x64.Idx) (k : S1x64.Idx)
    (hk0 : (k 0).val = (y 0).val) (hk1 : (k 1).val = (y 1).val) :
    (iblk1 V c 2 t : Vec Ideal S1x64 .f32) y = (V c main_v27 : S1x64.Idx → EReal) k := by
  obtain ⟨-, -, -, -, e20, e21, -⟩ := idx_facts1 t
  unfold iblk1
  rw [View.read_apply]
  show V c main_v27 _ = V c main_v27 _
  congr 1
  funext a
  apply Fin.ext
  match a with
  | ⟨0, _⟩ => show win1_2.index t 0 * 1 + 1 * (y 0).val = (k 0).val; omega
  | ⟨1, _⟩ => show win1_2.index t 1 * 64 + 1 * (y 1).val = (k 1).val; omega

/-- The weights' block at every point is the whole matrix. -/
theorem iblk1_3_apply (c : Dev nD) (t : Fin cfg1.N) (y : S64x64.Idx) (k : S64x64.Idx)
    (hk0 : (k 0).val = (y 0).val) (hk1 : (k 1).val = (y 1).val) :
    (iblk1 V c 3 t : Vec Ideal S64x64 .f32) y = (V c main_arg5 : S64x64.Idx → EReal) k := by
  obtain ⟨-, -, -, -, -, -, e30, e31, -⟩ := idx_facts1 t
  unfold iblk1
  rw [View.read_apply]
  show V c main_arg5 _ = V c main_arg5 _
  congr 1
  funext a
  apply Fin.ext
  match a with
  | ⟨0, _⟩ => show win1_3.index t 0 * 64 + 1 * (y 0).val = (k 0).val; omega
  | ⟨1, _⟩ => show win1_3.index t 1 * 64 + 1 * (y 1).val = (k 1).val; omega

/-- WHAT POINT `t` WRITES BACK is block `t` of the layer's closed form over the arrays as the region finds them. -/
theorem flushed1_eq (c : Dev nD) (t : Fin cfg1.N) :
    (dat1 (F := Ideal) V c).flushed 4 t = ((cfg1.win 4).blk t).view.read (Elt Ideal)
      (Cert.Spec.fusedLayer (V c main_v26) (V c main_v15) (V c main_v27) (V c main_arg5)) := by
  show (cfg1.win 4).cut (grid1.coords t) ((dat1 (F := Ideal) V c).after 4 t) = _
  rw [after1_4]
  unfold out1_4
  rw [View.canon_unit_zero origin]
  simp only [View.ld_unit_zero (S := S4000x64) origin, View.ld_unit_zero (S := S4000x1) origin, View.ld_unit_zero (S := S1x64) origin,
    View.ld_unit_zero (S := S64x64) origin]
  obtain ⟨-, -, -, -, -, -, -, -, e40, e41⟩ := idx_facts1 t
  funext j
  obtain ⟨r, f, rfl⟩ : ∃ (r : Fin 4000) (f : Fin 64), j = ix2 r f := ⟨j 0, j 1, eq_ix2 j⟩
  refine (k1_pay1_apply (iblk1 V c 0 t) (iblk1 V c 1 t) (iblk1 V c 2 t) (iblk1 V c 3 t) (iblk1 V c 1 t) r f).trans ?_
  refine fusedLayer_of_rows (V c main_v26) (V c main_v15) (V c main_v27) (V c main_arg5) (iblk1 V c 0 t) (iblk1 V c 1 t) (iblk1 V c 2 t) (iblk1 V c 3 t) r f
    (((cfg1.win 4).blk t).view.emb (ix2 r f))
    (fun k => iblk1_0_apply V c t _ _ ?_ rfl) (iblk1_1_apply V c t _ _ ?_ rfl)
    (fun k => iblk1_2_apply V c t _ _ rfl rfl) (fun k => iblk1_3_apply V c t _ _ rfl ?_)
  · show win1_4.index t 0 * 4000 + 1 * r.val = 4000 * t.val + r.val; omega
  · show win1_4.index t 0 * 4000 + 1 * r.val = 4000 * t.val + r.val; omega
  · show win1_4.index t 1 * 64 + 1 * f.val = f.val; omega

/-- An index of the array is in point `t`'s block iff each coordinate is in the block's range on its axis. -/
theorem mem_blk1 (t : Fin cfg1.N) (i : S100000x64.Idx) :
    i ∈ ((cfg1.win 4).blk t).view.set ↔ ∀ a : Fin 2, win1_4.index t a * S4000x64.size a ≤ (i a).val ∧ (i a).val < win1_4.index t a * S4000x64.size a + S4000x64.size a := by
  show i ∈ ((View.whole main_v28).slice (win1_4.rect t)).set ↔ _
  rw [View.set_slice_whole, Rect.mem_set_unit]
  exact Iff.rfl

/-- Every row is in some point's block: row `n` is in the block of point `n / 4000`. -/
theorem cover1 (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 25 := rfl
  have ht : (i 0).val / 4000 < cfg1.N := by rw [hN]; omega
  obtain ⟨-, -, -, -, -, -, -, -, e40, e41⟩ := idx_facts1 ⟨(i 0).val / 4000, ht⟩
  refine ⟨⟨(i 0).val / 4000, ht⟩, flush1_4 _, ?_⟩
  rw [mem_blk1]
  intro a
  match a with
  | ⟨0, _⟩ =>
    show win1_4.index ⟨(i 0).val / 4000, ht⟩ 0 * 4000 ≤ (i 0).val ∧ (i 0).val < win1_4.index ⟨(i 0).val / 4000, ht⟩ 0 * 4000 + 4000
    rw [e40]; show (i 0).val / 4000 * 4000 ≤ (i 0).val ∧ (i 0).val < (i 0).val / 4000 * 4000 + 4000; omega
  | ⟨1, _⟩ =>
    show win1_4.index ⟨(i 0).val / 4000, ht⟩ 1 * 64 ≤ (i 1).val ∧ (i 1).val < win1_4.index ⟨(i 0).val / 4000, ht⟩ 1 * 64 + 64
    rw [e41]; omega

end Cert.KernelIdeal.RegionValue.FusedLayer

namespace Cert.KernelIdeal.RegionValue

variable (V : (c : Dev nD) → (b : Ref sig .tc) → Buf (Elt Ideal) ((c : Thread nD τ).loc b))

/-- THE ARRAY after the region's whole grid: the layer's closed form of the arrays as the region finds them. -/
theorem final1 (c : Dev nD) : (dat1 (F := Ideal) V c).arrAt 4 cfg1.N
    = Cert.Spec.fusedLayer (V c main_v26) (V c main_v15) (V c main_v27) (V c main_arg5) :=
  (dat1 (F := Ideal) V c).arrAt_eq_of_cover 4 _ (fun t _ => FusedLayer.flushed1_eq V c t) FusedLayer.cover1

end Cert.KernelIdeal.RegionValue

end
-- ==== Proof.KRegionsB2.lean ====
import proofs.«129700_j38491496907229_2_alg».proof.Proof.Gen.KernelIdeal.Frame
import proofs.«129700_j38491496907229_2_alg».proof.Proof.Gen.KernelIdeal.Points
import proofs.«129700_j38491496907229_2_alg».proof.Proof.Spec
import proofs.«129700_j38491496907229_2_alg».proof.Proof.KRegionsBPay
import Idealize.ShloMosaic.Lib.Pipeline.Value
import Idealize.ShloMosaic.Lib.ValueIdx
import Idealize.ShloMosaic.Lib.ValueLayout
import Idealize.ShloMosaic.PureOps.Ideal.Laws

/-!
# The second fused layer over its whole grid

The layer's grid has 25 points; point `t` works on rows `4000 t … 4000 t + 3999` of the tall operands (the layer's input
and the column of row factors) together with the whole bias row and the whole weight matrix, and writes back the same rows
of the result. Since entry `(n, f)` of the layer depends on row `n` of the tall operands only, what point `t` writes back
is block `t` of the layer's closed form over the whole arrays; the 25 blocks tile the result, so after the grid the result
array IS the closed form.
-/

noncomputable section

open Cert.KernelIdeal Cert.KernelIdeal.Gen Idealize.ShloMosaic Idealize.ShloMosaic.ValueIdx
open Idealize.ShloMosaic.TcCoe Idealize.SL.Sem
open Idealize.ShloMosaic.Pipeline (Dat)

namespace Cert.KernelIdeal.RegionValue.FusedLayer

variable (V : (c : Dev nD) → (b : Ref sig .tc) → Buf (Elt Ideal) ((c : Thread nD τ).loc b))

/-! ## The second fused layer (region 2) -/

/-- The printed index maps over the grid: the tall windows move with the output, one block of 4000 rows per point;
    the bias row and the weights stay on their one block. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Entry `(y₀, y₁)` of the tall operand's block at point `t` is the operand's entry `(4000 t + y₀, y₁)`. -/
theorem iblk2_0_apply (c : Dev nD) (t : Fin cfg2.N) (y : S4000x64.Idx) (k : S100000x64.Idx)
    (hk0 : (k 0).val = 4000 * t.val + (y 0).val) (hk1 : (k 1).val = (y 1).val) :
    (iblk2 V c 0 t : Vec Ideal S4000x64 .f32) y = (V c main_v38 : S100000x64.Idx → EReal) k := by
  obtain ⟨e00, e01, -⟩ := idx_facts2 t
  unfold iblk2
  rw [View.read_apply]
  show V c main_v38 _ = V c main_v38 _
  congr 1
  funext a
  apply Fin.ext
  match a with
  | ⟨0, _⟩ => show win2_0.index t 0 * 4000 + 1 * (y 0).val = (k 0).val; omega
  | ⟨1, _⟩ => show win2_0.index t 1 * 64 + 1 * (y 1).val = (k 1).val; omega

/-- Entry `y₀` of the row factors' block at point `t` is the factor of row `4000 t + y₀`. -/
theorem iblk2_1_apply (c : Dev nD) (t : Fin cfg2.N) (y : S4000x1.Idx) (k : S100000x1.Idx)
    (hk0 : (k 0).val = 4000 * t.val + (y 0).val) (hk1 : (k 1).val = (y 1).val) :
    (iblk2 V c 1 t : Vec Ideal S4000x1 .f32) y = (V c main_v15 : S100000x1.Idx → EReal) k := by
  obtain ⟨-, -, e10, e11, -⟩ := idx_facts2 t
  unfold iblk2
  rw [View.read_apply]
  show V c main_v15 _ = V c main_v15 _
  congr 1
  funext a
  apply Fin.ext
  match a with
  | ⟨0, _⟩ => show win2_1.index t 0 * 4000 + 1 * (y 0).val = (k 0).val; omega
  | ⟨1, _⟩ => show win2_1.index t 1 * 1 + 1 * (y 1).val = (k 1).val; omega

/-- The bias row's block at every point is the whole row. -/
theorem iblk2_2_apply (c : Dev nD) (t : Fin cfg2.N) (y : S1x64.Idx) (k : S1x64.Idx)
    (hk0 : (k 0).val = (y 0).val) (hk1 : (k 1).val = (y 1).val) :
    (iblk2 V c 2 t : Vec Ideal S1x64 .f32) y = (V c main_v39 : S1x64.Idx → EReal) k := by
  obtain ⟨-, -, -, -, e20, e21, -⟩ := idx_facts2 t
  unfold iblk2
  rw [View.read_apply]
  show V c main_v39 _ = V c main_v39 _
  congr 1
  funext a
  apply Fin.ext
  match a with
  | ⟨0, _⟩ => show win2_2.index t 0 * 1 + 1 * (y 0).val = (k 0).val; omega
  | ⟨1, _⟩ => show win2_2.index t 1 * 64 + 1 * (y 1).val = (k 1).val; omega

/-- The weights' block at every point is the whole matrix. -/
theorem iblk2_3_apply (c : Dev nD) (t : Fin cfg2.N) (y : S64x64.Idx) (k : S64x64.Idx)
    (hk0 : (k 0).val = (y 0).val) (hk1 : (k 1).val = (y 1).val) :
    (iblk2 V c 3 t : Vec Ideal S64x64 .f32) y = (V c main_arg7 : S64x64.Idx → EReal) k := by
  obtain ⟨-, -, -, -, -, -, e30, e31, -⟩ := idx_facts2 t
  unfold iblk2
  rw [View.read_apply]
  show V c main_arg7 _ = V c main_arg7 _
  congr 1
  funext a
  apply Fin.ext
  match a with
  | ⟨0, _⟩ => show win2_3.index t 0 * 64 + 1 * (y 0).val = (k 0).val; omega
  | ⟨1, _⟩ => show win2_3.index t 1 * 64 + 1 * (y 1).val = (k 1).val; omega

/-- WHAT POINT `t` WRITES BACK is block `t` of the layer's closed form over the arrays as the region finds them. -/
theorem flushed2_eq (c : Dev nD) (t : Fin cfg2.N) :
    (dat2 (F := Ideal) V c).flushed 4 t = ((cfg2.win 4).blk t).view.read (Elt Ideal)
      (Cert.Spec.fusedLayer (V c main_v38) (V c main_v15) (V c main_v39) (V c main_arg7)) := by
  show (cfg2.win 4).cut (grid2.coords t) ((dat2 (F := Ideal) V c).after 4 t) = _
  rw [after2_4]
  unfold out2_4
  rw [View.canon_unit_zero origin]
  simp only [View.ld_unit_zero (S := S4000x64) origin, View.ld_unit_zero (S := S4000x1) origin, View.ld_unit_zero (S := S1x64) origin,
    View.ld_unit_zero (S := S64x64) origin]
  obtain ⟨-, -, -, -, -, -, -, -, e40, e41⟩ := idx_facts2 t
  funext j
  obtain ⟨r, f, rfl⟩ : ∃ (r : Fin 4000) (f : Fin 64), j = ix2 r f := ⟨j 0, j 1, eq_ix2 j⟩
  refine (k2_pay1_apply (iblk2 V c 0 t) (iblk2 V c 1 t) (iblk2 V c 2 t) (iblk2 V c 3 t) (iblk2 V c 1 t) r f).trans ?_
  refine fusedLayer_of_rows (V c main_v38) (V c main_v15) (V c main_v39) (V c main_arg7) (iblk2 V c 0 t) (iblk2 V c 1 t) (iblk2 V c 2 t) (iblk2 V c 3 t) r f
    (((cfg2.win 4).blk t).view.emb (ix2 r f))
    (fun k => iblk2_0_apply V c t _ _ ?_ rfl) (iblk2_1_apply V c t _ _ ?_ rfl)
    (fun k => iblk2_2_apply V c t _ _ rfl rfl) (fun k => iblk2_3_apply V c t _ _ rfl ?_)
  · show win2_4.index t 0 * 4000 + 1 * r.val = 4000 * t.val + r.val; omega
  · show win2_4.index t 0 * 4000 + 1 * r.val = 4000 * t.val + r.val; omega
  · show win2_4.index t 1 * 64 + 1 * f.val = f.val; omega

/-- An index of the array is in point `t`'s block iff each coordinate is in the block's range on its axis. -/
theorem mem_blk2 (t : Fin cfg2.N) (i : S100000x64.Idx) :
    i ∈ ((cfg2.win 4).blk t).view.set ↔ ∀ a : Fin 2, win2_4.index t a * S4000x64.size a ≤ (i a).val ∧ (i a).val < win2_4.index t a * S4000x64.size a + S4000x64.size a := by
  show i ∈ ((View.whole main_v40).slice (win2_4.rect t)).set ↔ _
  rw [View.set_slice_whole, Rect.mem_set_unit]
  exact Iff.rfl

/-- Every row is in some point's block: row `n` is in the block of point `n / 4000`. -/
theorem cover2 (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  have hN : cfg2.N = 25 := rfl
  have ht : (i 0).val / 4000 < cfg2.N := by rw [hN]; omega
  obtain ⟨-, -, -, -, -, -, -, -, e40, e41⟩ := idx_facts2 ⟨(i 0).val / 4000, ht⟩
  refine ⟨⟨(i 0).val / 4000, ht⟩, flush2_4 _, ?_⟩
  rw [mem_blk2]
  intro a
  match a with
  | ⟨0, _⟩ =>
    show win2_4.index ⟨(i 0).val / 4000, ht⟩ 0 * 4000 ≤ (i 0).val ∧ (i 0).val < win2_4.index ⟨(i 0).val / 4000, ht⟩ 0 * 4000 + 4000
    rw [e40]; show (i 0).val / 4000 * 4000 ≤ (i 0).val ∧ (i 0).val < (i 0).val / 4000 * 4000 + 4000; omega
  | ⟨1, _⟩ =>
    show win2_4.index ⟨(i 0).val / 4000, ht⟩ 1 * 64 ≤ (i 1).val ∧ (i 1).val < win2_4.index ⟨(i 0).val / 4000, ht⟩ 1 * 64 + 64
    rw [e41]; omega

end Cert.KernelIdeal.RegionValue.FusedLayer

namespace Cert.KernelIdeal.RegionValue

variable (V : (c : Dev nD) → (b : Ref sig .tc) → Buf (Elt Ideal) ((c : Thread nD τ).loc b))

/-- THE ARRAY after the region's whole grid: the layer's closed form of the arrays as the region finds them. -/
theorem final2 (c : Dev nD) : (dat2 (F := Ideal) V c).arrAt 4 cfg2.N
    = Cert.Spec.fusedLayer (V c main_v38) (V c main_v15) (V c main_v39) (V c main_arg7) :=
  (dat2 (F := Ideal) V c).arrAt_eq_of_cover 4 _ (fun t _ => FusedLayer.flushed2_eq V c t) FusedLayer.cover2

end Cert.KernelIdeal.RegionValue

end
-- ==== Proof.KRegionsB.lean ====
import proofs.«129700_j38491496907229_2_alg».proof.Proof.KRegionsB1
import proofs.«129700_j38491496907229_2_alg».proof.Proof.KRegionsB2

/-!
# The two fused layers, over their whole grids

Both fused layers have the same body; each result array after its grid is the layer's row-wise closed form of the arrays the
region finds: `Cert.KernelIdeal.RegionValue.final1` and `Cert.KernelIdeal.RegionValue.final2`.
-/
-- ==== Proof.KHost1.lean ====
import proofs.«129700_j38491496907229_2_alg».proof.Proof.Gen.KernelIdeal.Frame
import Idealize.ShloMosaic.Lib.StableHlo.Run
import Idealize.ShloMosaic.Lib.ValueIdx
import Idealize.ShloMosaic.Lib.Pipeline.Value

/-!
# What each stretch of the program leaves unchanged

The program alternates stretches of whole-array operations with the five pipelined regions. A stretch changes only the
buffers its operations write; a region changes only its result array. So a buffer's contents travel unchanged from
where they are written to where they are read.
-/

noncomputable section

namespace Cert.KernelIdeal.HostValue

open Cert.KernelIdeal Cert.KernelIdeal.Gen Idealize.ShloMosaic Idealize.ShloMosaic.ValueIdx
open Idealize.ShloMosaic.TcCoe Idealize.SL.Sem
open Idealize.ShloMosaic.Pipeline (Dat)

variable (m : (ℓ : Loc nD τ sig) → Buf (Elt Ideal) ℓ) (ρ : Dev nD → PrngReg)

/-- The buffers the operations of `hostOps0` write. -/
abbrev hostOps0_W : List (Ref sig .tc) := [main_v0, main_v1, main_v2, main_v3, main_v4, main_v5, main_v6, main_cst, main_v7, main_cst_0, main_v8, main_v9, main_v10, main_cst_1, main_v11, main_v12, main_v13, main_cst_2]
theorem hostOps0_writes : (hostOps0 : List (HloOp τ sig (Elt Ideal))).Forall fun op => op.writes ⊆ (hostOps0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer they do not write keeps its contents. -/
theorem hostOps0_keep (X : Valuation τ sig (Elt Ideal)) (r : Ref sig .tc) (h : r ∉ hostOps0_W) :
    StableHlo.after hostOps0 X (Proc.devRef .tc r) = X (Proc.devRef .tc r) :=
  StableHlo.after_of_writes_sub hostOps0 X hostOps0_writes h

/-- The buffers the operations of `hostOps0_1` write. -/
abbrev hostOps0_1_W : List (Ref sig .tc) := [main_call0_v0, main_call0_v1, main_v14]
theorem hostOps0_1_writes : (hostOps0_1 : List (HloOp τ sig (Elt Ideal))).Forall fun op => op.writes ⊆ (hostOps0_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer they do not write keeps its contents. -/
theorem hostOps0_1_keep (X : Valuation τ sig (Elt Ideal)) (r : Ref sig .tc) (h : r ∉ hostOps0_1_W) :
    StableHlo.after hostOps0_1 X (Proc.devRef .tc r) = X (Proc.devRef .tc r) :=
  StableHlo.after_of_writes_sub hostOps0_1 X hostOps0_1_writes h

/-- The buffers the operations of `hostOps0_2` write. -/
abbrev hostOps0_2_W : List (Ref sig .tc) := [main_v15]
theorem hostOps0_2_writes : (hostOps0_2 : List (HloOp τ sig (Elt Ideal))).Forall fun op => op.writes ⊆ (hostOps0_2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer they do not write keeps its contents. -/
theorem hostOps0_2_keep (X : Valuation τ sig (Elt Ideal)) (r : Ref sig .tc) (h : r ∉ hostOps0_2_W) :
    StableHlo.after hostOps0_2 X (Proc.devRef .tc r) = X (Proc.devRef .tc r) :=
  StableHlo.after_of_writes_sub hostOps0_2 X hostOps0_2_writes h

/-- The buffers the operations of `hostOps1` write. -/
abbrev hostOps1_W : List (Ref sig .tc) := [main_c, main_v17, main_v18, main_c_3, main_v19, main_v20, main_v21, main_v22, main_v23, main_cst_4, main_v24, main_v25, main_v26, main_v27]
theorem hostOps1_writes : (hostOps1 : List (HloOp τ sig (Elt Ideal))).Forall fun op => op.writes ⊆ (hostOps1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer they do not write keeps its contents. -/
theorem hostOps1_keep (X : Valuation τ sig (Elt Ideal)) (r : Ref sig .tc) (h : r ∉ hostOps1_W) :
    StableHlo.after hostOps1 X (Proc.devRef .tc r) = X (Proc.devRef .tc r) :=
  StableHlo.after_of_writes_sub hostOps1 X hostOps1_writes h

/-- The buffers the operations of `hostOps2` write. -/
abbrev hostOps2_W : List (Ref sig .tc) := [main_c_5, main_v29, main_v30, main_c_6, main_v31, main_v32, main_v33, main_v34, main_v35, main_cst_7, main_v36, main_v37, main_v38, main_v39]
theorem hostOps2_writes : (hostOps2 : List (HloOp τ sig (Elt Ideal))).Forall fun op => op.writes ⊆ (hostOps2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer they do not write keeps its contents. -/
theorem hostOps2_keep (X : Valuation τ sig (Elt Ideal)) (r : Ref sig .tc) (h : r ∉ hostOps2_W) :
    StableHlo.after hostOps2 X (Proc.devRef .tc r) = X (Proc.devRef .tc r) :=
  StableHlo.after_of_writes_sub hostOps2 X hostOps2_writes h

/-- The buffers the operations of `hostOps3` write. -/
abbrev hostOps3_W : List (Ref sig .tc) := [main_c_8, main_v41, main_v42, main_c_9, main_v43, main_v44, main_v45, main_v46, main_v47, main_cst_10, main_v48, main_v49, main_v50]
theorem hostOps3_writes : (hostOps3 : List (HloOp τ sig (Elt Ideal))).Forall fun op => op.writes ⊆ (hostOps3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer they do not write keeps its contents. -/
theorem hostOps3_keep (X : Valuation τ sig (Elt Ideal)) (r : Ref sig .tc) (h : r ∉ hostOps3_W) :
    StableHlo.after hostOps3 X (Proc.devRef .tc r) = X (Proc.devRef .tc r) :=
  StableHlo.after_of_writes_sub hostOps3 X hostOps3_writes h

/-- The buffers the operations of `hostOps4` write. -/
abbrev hostOps4_W : List (Ref sig .tc) := [main_cst_11, main_v52, main_v53, main_v54, main_cst_12, main_v55, main_cst_13, main_v56, main_v57, main_v58, main_v59, main_cst_14, main_v60, main_v61, main_cst_15, main_v62, main_v63, main_v64, main_v65, main_v66, main_v67, main_v68, main_v69, main_cst_16]
theorem hostOps4_writes : (hostOps4 : List (HloOp τ sig (Elt Ideal))).Forall fun op => op.writes ⊆ (hostOps4_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer they do not write keeps its contents. -/
theorem hostOps4_keep (X : Valuation τ sig (Elt Ideal)) (r : Ref sig .tc) (h : r ∉ hostOps4_W) :
    StableHlo.after hostOps4 X (Proc.devRef .tc r) = X (Proc.devRef .tc r) :=
  StableHlo.after_of_writes_sub hostOps4 X hostOps4_writes h

/-- The buffers the operations of `hostOps4_1` write. -/
abbrev hostOps4_1_W : List (Ref sig .tc) := [main_call1_v0, main_call1_v1, main_call1_v2, main_v70]
theorem hostOps4_1_writes : (hostOps4_1 : List (HloOp τ sig (Elt Ideal))).Forall fun op => op.writes ⊆ (hostOps4_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer they do not write keeps its contents. -/
theorem hostOps4_1_keep (X : Valuation τ sig (Elt Ideal)) (r : Ref sig .tc) (h : r ∉ hostOps4_1_W) :
    StableHlo.after hostOps4_1 X (Proc.devRef .tc r) = X (Proc.devRef .tc r) :=
  StableHlo.after_of_writes_sub hostOps4_1 X hostOps4_1_writes h

/-- The buffers the operations of `hostOps4_2` write. -/
abbrev hostOps4_2_W : List (Ref sig .tc) := [main_v71]
theorem hostOps4_2_writes : (hostOps4_2 : List (HloOp τ sig (Elt Ideal))).Forall fun op => op.writes ⊆ (hostOps4_2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer they do not write keeps its contents. -/
theorem hostOps4_2_keep (X : Valuation τ sig (Elt Ideal)) (r : Ref sig .tc) (h : r ∉ hostOps4_2_W) :
    StableHlo.after hostOps4_2 X (Proc.devRef .tc r) = X (Proc.devRef .tc r) :=
  StableHlo.after_of_writes_sub hostOps4_2 X hostOps4_2_writes h

/-- Region 0 changes its result array only: each operand's array is read through its window and left as it was,
    every other buffer is not touched. -/
theorem W4_keep (c : Dev nD) (r : Ref sig .tc) (h : r ≠ main_v16) :
    W4 m ρ c (Proc.devRef .tc r) = W3 m ρ c (Proc.devRef .tc r) := by
  by_cases h0 : r = main_arg0
  · subst h0; exact (W4_arr m ρ c 0).trans (((dat0 (V3 m ρ) c).arrAt_in 0 rfl _).trans (A_eq0 (V3 m ρ) c 0))
  by_cases h1 : r = main_arg3
  · subst h1; exact (W4_arr m ρ c 1).trans (((dat0 (V3 m ρ) c).arrAt_in 1 rfl _).trans (A_eq0 (V3 m ρ) c 1))
  by_cases h2 : r = main_v15
  · subst h2; exact (W4_arr m ρ c 2).trans (((dat0 (V3 m ρ) c).arrAt_in 2 rfl _).trans (A_eq0 (V3 m ρ) c 2))
  refine W4_of_ne m ρ c r fun w => ?_
  match w with
    | ⟨0, _⟩ => exact fun e => h0 e.symm
    | ⟨1, _⟩ => exact fun e => h1 e.symm
    | ⟨2, _⟩ => exact fun e => h2 e.symm
    | ⟨3, _⟩ => exact fun e => h e.symm

/-- Region 1 changes its result array only: each operand's array is read through its window and left as it was,
    every other buffer is not touched. -/
theorem W6_keep (c : Dev nD) (r : Ref sig .tc) (h : r ≠ main_v28) :
    W6 m ρ c (Proc.devRef .tc r) = W5 m ρ c (Proc.devRef .tc r) := by
  by_cases h0 : r = main_v26
  · subst h0; exact (W6_arr m ρ c 0).trans (((dat1 (V5 m ρ) c).arrAt_in 0 rfl _).trans (A_eq1 (V5 m ρ) c 0))
  by_cases h1 : r = main_v15
  · subst h1; exact (W6_arr m ρ c 1).trans (((dat1 (V5 m ρ) c).arrAt_in 1 rfl _).trans (A_eq1 (V5 m ρ) c 1))
  by_cases h2 : r = main_v27
  · subst h2; exact (W6_arr m ρ c 2).trans (((dat1 (V5 m ρ) c).arrAt_in 2 rfl _).trans (A_eq1 (V5 m ρ) c 2))
  by_cases h3 : r = main_arg5
  · subst h3; exact (W6_arr m ρ c 3).trans (((dat1 (V5 m ρ) c).arrAt_in 3 rfl _).trans (A_eq1 (V5 m ρ) c 3))
  refine W6_of_ne m ρ c r fun w => ?_
  match w with
    | ⟨0, _⟩ => exact fun e => h0 e.symm
    | ⟨1, _⟩ => exact fun e => h1 e.symm
    | ⟨2, _⟩ => exact fun e => h2 e.symm
    | ⟨3, _⟩ => exact fun e => h3 e.symm
    | ⟨4, _⟩ => exact fun e => h e.symm

/-- Region 2 changes its result array only: each operand's array is read through its window and left as it was,
    every other buffer is not touched. -/
theorem W8_keep (c : Dev nD) (r : Ref sig .tc) (h : r ≠ main_v40) :
    W8 m ρ c (Proc.devRef .tc r) = W7 m ρ c (Proc.devRef .tc r) := by
  by_cases h0 : r = main_v38
  · subst h0; exact (W8_arr m ρ c 0).trans (((dat2 (V7 m ρ) c).arrAt_in 0 rfl _).trans (A_eq2 (V7 m ρ) c 0))
  by_cases h1 : r = main_v15
  · subst h1; exact (W8_arr m ρ c 1).trans (((dat2 (V7 m ρ) c).arrAt_in 1 rfl _).trans (A_eq2 (V7 m ρ) c 1))
  by_cases h2 : r = main_v39
  · subst h2; exact (W8_arr m ρ c 2).trans (((dat2 (V7 m ρ) c).arrAt_in 2 rfl _).trans (A_eq2 (V7 m ρ) c 2))
  by_cases h3 : r = main_arg7
  · subst h3; exact (W8_arr m ρ c 3).trans (((dat2 (V7 m ρ) c).arrAt_in 3 rfl _).trans (A_eq2 (V7 m ρ) c 3))
  refine W8_of_ne m ρ c r fun w => ?_
  match w with
    | ⟨0, _⟩ => exact fun e => h0 e.symm
    | ⟨1, _⟩ => exact fun e => h1 e.symm
    | ⟨2, _⟩ => exact fun e => h2 e.symm
    | ⟨3, _⟩ => exact fun e => h3 e.symm
    | ⟨4, _⟩ => exact fun e => h e.symm

/-- Region 3 changes its result array only: each operand's array is read through its window and left as it was,
    every other buffer is not touched. -/
theorem W10_keep (c : Dev nD) (r : Ref sig .tc) (h : r ≠ main_v51) :
    W10 m ρ c (Proc.devRef .tc r) = W9 m ρ c (Proc.devRef .tc r) := by
  by_cases h0 : r = main_v50
  · subst h0; exact (W10_arr m ρ c 0).trans (((dat3 (V9 m ρ) c).arrAt_in 0 rfl _).trans (A_eq3 (V9 m ρ) c 0))
  by_cases h1 : r = main_v15
  · subst h1; exact (W10_arr m ρ c 1).trans (((dat3 (V9 m ρ) c).arrAt_in 1 rfl _).trans (A_eq3 (V9 m ρ) c 1))
  refine W10_of_ne m ρ c r fun w => ?_
  match w with
    | ⟨0, _⟩ => exact fun e => h0 e.symm
    | ⟨1, _⟩ => exact fun e => h1 e.symm
    | ⟨2, _⟩ => exact fun e => h e.symm

/-- Region 4 changes its result array only: each operand's array is read through its window and left as it was,
    every other buffer is not touched. -/
theorem W14_keep (c : Dev nD) (r : Ref sig .tc) (h : r ≠ main_v72) :
    W14 m ρ c (Proc.devRef .tc r) = W13 m ρ c (Proc.devRef .tc r) := by
  by_cases h0 : r = main_v70
  · subst h0; exact (W14_arr m ρ c 0).trans (((dat4 (V13 m ρ) c).arrAt_in 0 rfl _).trans (A_eq4 (V13 m ρ) c 0))
  by_cases h1 : r = main_arg9
  · subst h1; exact (W14_arr m ρ c 1).trans (((dat4 (V13 m ρ) c).arrAt_in 1 rfl _).trans (A_eq4 (V13 m ρ) c 1))
  by_cases h2 : r = main_v71
  · subst h2; exact (W14_arr m ρ c 2).trans (((dat4 (V13 m ρ) c).arrAt_in 2 rfl _).trans (A_eq4 (V13 m ρ) c 2))
  refine W14_of_ne m ρ c r fun w => ?_
  match w with
    | ⟨0, _⟩ => exact fun e => h0 e.symm
    | ⟨1, _⟩ => exact fun e => h1 e.symm
    | ⟨2, _⟩ => exact fun e => h2 e.symm
    | ⟨3, _⟩ => exact fun e => h e.symm

end Cert.KernelIdeal.HostValue

end
-- ==== Proof.KHost2.lean ====
import proofs.«129700_j38491496907229_2_alg».proof.Proof.Gen.KernelIdeal.Frame
import proofs.«129700_j38491496907229_2_alg».proof.Proof.GcnModel
import Idealize.ShloMosaic.Lib.StableHlo.Run
import Idealize.ShloMosaic.Lib.Pipeline.Value
import Idealize.ShloMosaic.Lib.ValueIdx

/-!
# The whole-array operations between the regions: before the first region

Each stretch of whole-array operations is read here as a function of an arbitrary contents `X` of the buffers at its
start: the buffer a later region or stretch reads, as one term over the buffers the stretch itself reads.
-/

noncomputable section

namespace Cert.KernelIdeal.HostValue

open Cert.KernelIdeal Cert.KernelIdeal.Gen Idealize.ShloMosaic Idealize.ShloMosaic.ValueIdx
open Idealize.ShloMosaic.TcCoe Idealize.SL.Sem
open Idealize.ShloMosaic.Pipeline (Dat)

variable (m : (ℓ : Loc nD τ sig) → Buf (Elt Ideal) ℓ) (ρ : Dev nD → PrngReg)

section Stretches
open Idealize.ShloMosaic.StableHlo
variable (X : Valuation τ sig (Elt Ideal))

/-! ## The first stretch: the edge positions and the degree count -/

/-- The edges' source positions. -/
theorem h0_v5 : StableHlo.after hostOps0 X (Proc.devRef .tc main_v5) = Cert.Gcn.srcIdx (X (Proc.devRef .tc main_arg1)) := by
  after_results
  rfl

/-- The edges' target positions. -/
theorem h0_v6 : StableHlo.after hostOps0 X (Proc.devRef .tc main_v6) = Cert.Gcn.dstIdx (X (Proc.devRef .tc main_arg1)) := by
  after_results
  rfl

/-- The count of incoming edges of each node: ones added at the target positions. -/
abbrev degCount (d : IVec S3300000 32) : FVec Ideal S100000 .f32 :=
  Host.scatterAdd scatter_S100000_S3300000x1_S3300000_n_0_0_1
    (broadcastInDim S100000 ![] bcast_S_S100000 (constant (F := Ideal) S_ .f32 0x00000000#32))
    (Cert.Gcn.rawCol d)
    (broadcastInDim S3300000 ![] bcast_S_S3300000 (constant (F := Ideal) S_ .f32 0x3F800000#32))

set_option maxHeartbeats 1000000 in
/-- Which nodes have a positive count. -/
theorem h0_v12 : StableHlo.after hostOps0 X (Proc.devRef .tc main_v12)
    = cmpf (F := Ideal) .ogt (degCount (Cert.Gcn.dstIdx (X (Proc.devRef .tc main_arg1))))
        (broadcastInDim S100000 ![] bcast_S_S100000 (constant (F := Ideal) S_ .f32 0x00000000#32)) := by
  after_results
  rfl

set_option maxHeartbeats 1000000 in
/-- The reciprocal square roots of the counts. -/
theorem h0_v13 : StableHlo.after hostOps0 X (Proc.devRef .tc main_v13)
    = Host.rsqrt (degCount (Cert.Gcn.dstIdx (X (Proc.devRef .tc main_arg1)))) := by
  after_results
  rfl

/-- The zero the factor takes at a node without incoming edges. -/
theorem h0_cst2 : StableHlo.after hostOps0 X (Proc.devRef .tc main_cst_2) = constant (F := Ideal) S_ .f32 0x00000000#32 := by
  after_results

/-- The selection between the two. -/
theorem h01_v14 : StableHlo.after hostOps0_1 X (Proc.devRef .tc main_v14)
    = select (X (Proc.devRef .tc main_v12)) (X (Proc.devRef .tc main_v13)) (broadcastInDim S100000 ![] bcast_S_S100000 (id (X (Proc.devRef .tc main_cst_2)))) := by
  after_results
  rfl

/-- The factor laid out as a column. -/
theorem h02_v15 : StableHlo.after hostOps0_2 X (Proc.devRef .tc main_v15)
    = shapeCast S100000x1 (X (Proc.devRef .tc main_v14)) shapeCasts_S100000_S100000x1 := by
  after_results
  rfl

end Stretches

end Cert.KernelIdeal.HostValue

end
-- ==== Proof.KHost3.lean ====
import proofs.«129700_j38491496907229_2_alg».proof.Proof.Gen.KernelIdeal.Frame
import proofs.«129700_j38491496907229_2_alg».proof.Proof.GcnModel
import Idealize.ShloMosaic.Lib.StableHlo.Run
import Idealize.ShloMosaic.Lib.Pipeline.Value
import Idealize.ShloMosaic.Lib.ValueIdx

/-!
# The whole-array operations between the regions: between the regions

Each stretch of whole-array operations is read here as a function of an arbitrary contents `X` of the buffers at its
start: the buffer a later region or stretch reads, as one term over the buffers the stretch itself reads.
-/

noncomputable section

namespace Cert.KernelIdeal.HostValue

open Cert.KernelIdeal Cert.KernelIdeal.Gen Idealize.ShloMosaic Idealize.ShloMosaic.ValueIdx
open Idealize.ShloMosaic.TcCoe Idealize.SL.Sem
open Idealize.ShloMosaic.Pipeline (Dat)

variable (m : (ℓ : Loc nD τ sig) → Buf (Elt Ideal) ℓ) (ρ : Dev nD → PrngReg)

section Stretches
open Idealize.ShloMosaic.StableHlo
variable (X : Valuation τ sig (Elt Ideal))

/-! ## Between the regions: rows sent along the edges, a bias laid out as a row -/

set_option maxHeartbeats 2000000 in
/-- The first dense stage's rows sent along the edges. -/
theorem h1_v26 : StableHlo.after hostOps1 X (Proc.devRef .tc main_v26) = Cert.Gcn.aggKer (X (Proc.devRef .tc main_v16)) (X (Proc.devRef .tc main_v5)) (X (Proc.devRef .tc main_v6)) := by
  after_results
  rfl

/-- The first bias as a row. -/
theorem h1_v27 : StableHlo.after hostOps1 X (Proc.devRef .tc main_v27) = shapeCast S1x64 (X (Proc.devRef .tc main_arg4)) shapeCasts_S64_S1x64 := by
  after_results
  rfl

set_option maxHeartbeats 2000000 in
/-- The second dense stage's rows sent along the edges. -/
theorem h2_v38 : StableHlo.after hostOps2 X (Proc.devRef .tc main_v38) = Cert.Gcn.aggKer (X (Proc.devRef .tc main_v28)) (X (Proc.devRef .tc main_v5)) (X (Proc.devRef .tc main_v6)) := by
  after_results
  rfl

/-- The second bias as a row. -/
theorem h2_v39 : StableHlo.after hostOps2 X (Proc.devRef .tc main_v39) = shapeCast S1x64 (X (Proc.devRef .tc main_arg6)) shapeCasts_S64_S1x64 := by
  after_results
  rfl

set_option maxHeartbeats 2000000 in
/-- The third dense stage's rows sent along the edges. -/
theorem h3_v50 : StableHlo.after hostOps3 X (Proc.devRef .tc main_v50) = Cert.Gcn.aggKer (X (Proc.devRef .tc main_v40)) (X (Proc.devRef .tc main_v5)) (X (Proc.devRef .tc main_v6)) := by
  after_results
  rfl

end Stretches

end Cert.KernelIdeal.HostValue

end
-- ==== Proof.KHost4.lean ====
import proofs.«129700_j38491496907229_2_alg».proof.Proof.Gen.KernelIdeal.Frame
import proofs.«129700_j38491496907229_2_alg».proof.Proof.GcnModel
import Idealize.ShloMosaic.Lib.StableHlo.Run
import Idealize.ShloMosaic.Lib.Pipeline.Value
import Idealize.ShloMosaic.Lib.ValueIdx

/-!
# The whole-array operations between the regions: the pooled mean and the head's bias

Each stretch of whole-array operations is read here as a function of an arbitrary contents `X` of the buffers at its
start: the buffer a later region or stretch reads, as one term over the buffers the stretch itself reads.
-/

noncomputable section

namespace Cert.KernelIdeal.HostValue

open Cert.KernelIdeal Cert.KernelIdeal.Gen Idealize.ShloMosaic Idealize.ShloMosaic.ValueIdx
open Idealize.ShloMosaic.TcCoe Idealize.SL.Sem
open Idealize.ShloMosaic.Pipeline (Dat)

variable (m : (ℓ : Loc nD τ sig) → Buf (Elt Ideal) ℓ) (ρ : Dev nD → PrngReg)

section Stretches
open Idealize.ShloMosaic.StableHlo
variable (X : Valuation τ sig (Elt Ideal))

/-! ## After the third step: the pooled mean -/

set_option maxHeartbeats 2000000 in
/-- Which groups are not empty, as a column. -/
theorem h4_v61 : StableHlo.after hostOps4 X (Proc.devRef .tc main_v61)
    = cmpf (F := Ideal) .ogt (broadcastInDim S1024x1 ![0] bcast_S1024_S1024x1_0 (Cert.Gcn.cntOf (X (Proc.devRef .tc main_arg2))))
        (broadcastInDim S1024x1 ![] bcast_S_S1024x1 (constant (F := Ideal) S_ .f32 0x00000000#32)) := by
  after_results
  rfl

set_option maxHeartbeats 4000000 in
/-- The pooled sums over the clamped counts, plus the last bias on every row. -/
theorem h4_v69 : StableHlo.after hostOps4 X (Proc.devRef .tc main_v69)
    = addf (Host.divf (Cert.Gcn.sumOf (X (Proc.devRef .tc main_v51)) (X (Proc.devRef .tc main_arg2)))
        (broadcastInDim S1024x64 ![0, 1] bcast_S1024x1_S1024x64_0_1
          (broadcastInDim S1024x1 ![0] bcast_S1024_S1024x1_0
            (maximumf (Cert.Gcn.cntOf (X (Proc.devRef .tc main_arg2))) (broadcastInDim S1024 ![] bcast_S_S1024 (constant (F := Ideal) S_ .f32 0x3F800000#32))))))
      (broadcastInDim S1024x64 ![0, 1] bcast_S1x64_S1024x64_0_1 (broadcastInDim S1x64 ![1] bcast_S64_S1x64_1 (X (Proc.devRef .tc main_arg8)))) := by
  after_results
  rfl

/-- The zero an empty group is left at. -/
theorem h4_cst16 : StableHlo.after hostOps4 X (Proc.devRef .tc main_cst_16) = constant (F := Ideal) S_ .f32 0x00000000#32 := by
  after_results

/-- The selection between the mean and zero. -/
theorem h41_v70 : StableHlo.after hostOps4_1 X (Proc.devRef .tc main_v70)
    = select (broadcastInDim S1024x64 ![0, 1] bcast_S1024x1_S1024x64_0_1 (X (Proc.devRef .tc main_v61))) (X (Proc.devRef .tc main_v69))
        (broadcastInDim S1024x64 ![] bcast_S_S1024x64 (id (X (Proc.devRef .tc main_cst_16)))) := by
  after_results
  rfl

/-- The head's bias as a row. -/
theorem h42_v71 : StableHlo.after hostOps4_2 X (Proc.devRef .tc main_v71) = shapeCast S1x10 (X (Proc.devRef .tc main_arg10)) shapeCasts_S10_S1x10 := by
  after_results
  rfl

end Stretches

end Cert.KernelIdeal.HostValue

end
-- ==== Proof.KHost.lean ====
import proofs.«129700_j38491496907229_2_alg».proof.Proof.Gen.KernelIdeal.Frame
import proofs.«129700_j38491496907229_2_alg».proof.Proof.KRegionsA
import proofs.«129700_j38491496907229_2_alg».proof.Proof.KRegionsB
import proofs.«129700_j38491496907229_2_alg».proof.Proof.GcnModel
import proofs.«129700_j38491496907229_2_alg».proof.Proof.KHost1
import proofs.«129700_j38491496907229_2_alg».proof.Proof.KHost2
import proofs.«129700_j38491496907229_2_alg».proof.Proof.KHost3
import proofs.«129700_j38491496907229_2_alg».proof.Proof.KHost4
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost

/-!
# The kernel's result as one function of the arguments

The program is followed from the launch to the return, boundary by boundary: a buffer written by a stretch of
whole-array operations is that stretch's term over the buffers it reads; a region's result array is the region's
closed form of its operand arrays; everything else travels unchanged. Each buffer a later step reads is thereby one
closed term of the arguments as launched, and the last region's result is the whole network in the kernel's
arrangement.
-/

noncomputable section

namespace Cert.KernelIdeal.HostValue

open Cert.KernelIdeal Cert.KernelIdeal.Gen Idealize.ShloMosaic Idealize.ShloMosaic.ValueIdx
open Idealize.ShloMosaic.TcCoe Idealize.SL.Sem
open Idealize.ShloMosaic.Pipeline (Dat)

variable (m : (ℓ : Loc nD τ sig) → Buf (Elt Ideal) ℓ) (ρ : Dev nD → PrngReg)

/-! ## Small facts about the closed forms -/

theorem matScale_congr {N K D : Nat} {a a' : Cert.Spec.Mat N K} {w w' : Cert.Spec.Mat K D} {s s' : Cert.Spec.Mat N 1}
    (h1 : a = a') (h2 : w = w') (h3 : s = s') : Cert.Spec.matScale a w s = Cert.Spec.matScale a' w' s' := by
  subst h1 h2 h3; rfl

theorem fusedLayer_congr {N K D : Nat} {a a' : Cert.Spec.Mat N K} {s s' : Cert.Spec.Mat N 1} {b b' : Cert.Spec.Mat 1 K} {w w' : Cert.Spec.Mat K D}
    (h1 : a = a') (h2 : s = s') (h3 : b = b') (h4 : w = w') : Cert.Spec.fusedLayer a s b w = Cert.Spec.fusedLayer a' s' b' w' := by
  subst h1 h2 h3 h4; rfl

theorem rowScale_congr {N D : Nat} {a a' : Cert.Spec.Mat N D} {s s' : Cert.Spec.Mat N 1}
    (h1 : a = a') (h2 : s = s') : Cert.Spec.rowScale a s = Cert.Spec.rowScale a' s' := by
  subst h1 h2; rfl

theorem affine_congr {N K D : Nat} {g g' : Cert.Spec.Mat N K} {w w' : Cert.Spec.Mat K D} {b b' : Cert.Spec.Mat 1 D}
    (h1 : g = g') (h2 : w = w') (h3 : b = b') : Cert.Spec.affine g w b = Cert.Spec.affine g' w' b' := by
  subst h1 h2 h3; rfl

theorem aggKer_congr {h h' : FVec Ideal S100000x64 .f32} {s s' d d' : IVec S3300000 32}
    (h1 : h = h') (h2 : s = s') (h3 : d = d') : Cert.Gcn.aggKer h s d = Cert.Gcn.aggKer h' s' d' := by
  subst h1 h2 h3; rfl

theorem select_congr {s : Shape} {α : Type} {p p' : IVec s 1} {a a' b b' : s.Idx → α}
    (h1 : p = p') (h2 : a = a') (h3 : b = b') : select p a b = select p' a' b' := by
  subst h1 h2 h3; rfl

/-- A vector laid out as a one-row matrix. -/
theorem brow_eq (D : Nat) (b : (⟨1, ![D]⟩ : Shape).Idx → EReal) (h : (⟨1, ![D]⟩ : Shape).ShapeCasts ⟨2, ![1, D]⟩) :
    shapeCast ⟨2, ![1, D]⟩ b h = Cert.Gcn.brow b := by
  funext i
  unfold Cert.Gcn.brow
  refine shapeCast_apply b h i (ix1 (i 1)) ?_
  rw [Shape.rowMajor_val_one, Shape.rowMajor_val_two]
  have h0 : (i 0).val < 1 := (i 0).isLt
  have e0 : (i 0).val = 0 := by omega
  show (i 1).val = (i 0).val * D + (i 1).val
  rw [e0, Nat.zero_mul, Nat.zero_add]

/-! ## The arguments where they are read: nothing writes an argument -/

theorem W3_arg0 (c : Dev nD) : W3 m ρ c (Proc.devRef .tc main_arg0) = (m ((c : Thread nD τ).loc main_arg0)) :=
  ((hostOps0_2_keep (W2 m ρ c) main_arg0 (by decide)).trans ((hostOps0_1_keep (W1 m ρ c) main_arg0 (by decide)).trans (hostOps0_keep (W0 m ρ c) main_arg0 (by decide))))

theorem W3_arg3 (c : Dev nD) : W3 m ρ c (Proc.devRef .tc main_arg3) = (m ((c : Thread nD τ).loc main_arg3)) :=
  ((hostOps0_2_keep (W2 m ρ c) main_arg3 (by decide)).trans ((hostOps0_1_keep (W1 m ρ c) main_arg3 (by decide)).trans (hostOps0_keep (W0 m ρ c) main_arg3 (by decide))))

theorem W4_arg4 (c : Dev nD) : W4 m ρ c (Proc.devRef .tc main_arg4) = (m ((c : Thread nD τ).loc main_arg4)) :=
  ((W4_keep m ρ c main_arg4 (by decide)).trans ((hostOps0_2_keep (W2 m ρ c) main_arg4 (by decide)).trans ((hostOps0_1_keep (W1 m ρ c) main_arg4 (by decide)).trans (hostOps0_keep (W0 m ρ c) main_arg4 (by decide)))))

theorem W5_arg5 (c : Dev nD) : W5 m ρ c (Proc.devRef .tc main_arg5) = (m ((c : Thread nD τ).loc main_arg5)) :=
  ((hostOps1_keep (W4 m ρ c) main_arg5 (by decide)).trans ((W4_keep m ρ c main_arg5 (by decide)).trans ((hostOps0_2_keep (W2 m ρ c) main_arg5 (by decide)).trans ((hostOps0_1_keep (W1 m ρ c) main_arg5 (by decide)).trans (hostOps0_keep (W0 m ρ c) main_arg5 (by decide))))))

theorem W6_arg6 (c : Dev nD) : W6 m ρ c (Proc.devRef .tc main_arg6) = (m ((c : Thread nD τ).loc main_arg6)) :=
  ((W6_keep m ρ c main_arg6 (by decide)).trans ((hostOps1_keep (W4 m ρ c) main_arg6 (by decide)).trans ((W4_keep m ρ c main_arg6 (by decide)).trans ((hostOps0_2_keep (W2 m ρ c) main_arg6 (by decide)).trans ((hostOps0_1_keep (W1 m ρ c) main_arg6 (by decide)).trans (hostOps0_keep (W0 m ρ c) main_arg6 (by decide)))))))

theorem W7_arg7 (c : Dev nD) : W7 m ρ c (Proc.devRef .tc main_arg7) = (m ((c : Thread nD τ).loc main_arg7)) :=
  ((hostOps2_keep (W6 m ρ c) main_arg7 (by decide)).trans ((W6_keep m ρ c main_arg7 (by decide)).trans ((hostOps1_keep (W4 m ρ c) main_arg7 (by decide)).trans ((W4_keep m ρ c main_arg7 (by decide)).trans ((hostOps0_2_keep (W2 m ρ c) main_arg7 (by decide)).trans ((hostOps0_1_keep (W1 m ρ c) main_arg7 (by decide)).trans (hostOps0_keep (W0 m ρ c) main_arg7 (by decide))))))))

theorem W10_arg2 (c : Dev nD) : W10 m ρ c (Proc.devRef .tc main_arg2) = (m ((c : Thread nD τ).loc main_arg2)) :=
  ((W10_keep m ρ c main_arg2 (by decide)).trans ((hostOps3_keep (W8 m ρ c) main_arg2 (by decide)).trans ((W8_keep m ρ c main_arg2 (by decide)).trans ((hostOps2_keep (W6 m ρ c) main_arg2 (by decide)).trans ((W6_keep m ρ c main_arg2 (by decide)).trans ((hostOps1_keep (W4 m ρ c) main_arg2 (by decide)).trans ((W4_keep m ρ c main_arg2 (by decide)).trans ((hostOps0_2_keep (W2 m ρ c) main_arg2 (by decide)).trans ((hostOps0_1_keep (W1 m ρ c) main_arg2 (by decide)).trans (hostOps0_keep (W0 m ρ c) main_arg2 (by decide)))))))))))

theorem W10_arg8 (c : Dev nD) : W10 m ρ c (Proc.devRef .tc main_arg8) = (m ((c : Thread nD τ).loc main_arg8)) :=
  ((W10_keep m ρ c main_arg8 (by decide)).trans ((hostOps3_keep (W8 m ρ c) main_arg8 (by decide)).trans ((W8_keep m ρ c main_arg8 (by decide)).trans ((hostOps2_keep (W6 m ρ c) main_arg8 (by decide)).trans ((W6_keep m ρ c main_arg8 (by decide)).trans ((hostOps1_keep (W4 m ρ c) main_arg8 (by decide)).trans ((W4_keep m ρ c main_arg8 (by decide)).trans ((hostOps0_2_keep (W2 m ρ c) main_arg8 (by decide)).trans ((hostOps0_1_keep (W1 m ρ c) main_arg8 (by decide)).trans (hostOps0_keep (W0 m ρ c) main_arg8 (by decide)))))))))))

theorem W12_arg10 (c : Dev nD) : W12 m ρ c (Proc.devRef .tc main_arg10) = (m ((c : Thread nD τ).loc main_arg10)) :=
  ((hostOps4_1_keep (W11 m ρ c) main_arg10 (by decide)).trans ((hostOps4_keep (W10 m ρ c) main_arg10 (by decide)).trans ((W10_keep m ρ c main_arg10 (by decide)).trans ((hostOps3_keep (W8 m ρ c) main_arg10 (by decide)).trans ((W8_keep m ρ c main_arg10 (by decide)).trans ((hostOps2_keep (W6 m ρ c) main_arg10 (by decide)).trans ((W6_keep m ρ c main_arg10 (by decide)).trans ((hostOps1_keep (W4 m ρ c) main_arg10 (by decide)).trans ((W4_keep m ρ c main_arg10 (by decide)).trans ((hostOps0_2_keep (W2 m ρ c) main_arg10 (by decide)).trans ((hostOps0_1_keep (W1 m ρ c) main_arg10 (by decide)).trans (hostOps0_keep (W0 m ρ c) main_arg10 (by decide)))))))))))))

theorem W13_arg9 (c : Dev nD) : W13 m ρ c (Proc.devRef .tc main_arg9) = (m ((c : Thread nD τ).loc main_arg9)) :=
  ((hostOps4_2_keep (W12 m ρ c) main_arg9 (by decide)).trans ((hostOps4_1_keep (W11 m ρ c) main_arg9 (by decide)).trans ((hostOps4_keep (W10 m ρ c) main_arg9 (by decide)).trans ((W10_keep m ρ c main_arg9 (by decide)).trans ((hostOps3_keep (W8 m ρ c) main_arg9 (by decide)).trans ((W8_keep m ρ c main_arg9 (by decide)).trans ((hostOps2_keep (W6 m ρ c) main_arg9 (by decide)).trans ((W6_keep m ρ c main_arg9 (by decide)).trans ((hostOps1_keep (W4 m ρ c) main_arg9 (by decide)).trans ((W4_keep m ρ c main_arg9 (by decide)).trans ((hostOps0_2_keep (W2 m ρ c) main_arg9 (by decide)).trans ((hostOps0_1_keep (W1 m ρ c) main_arg9 (by decide)).trans (hostOps0_keep (W0 m ρ c) main_arg9 (by decide))))))))))))))

/-! ## The edge positions: written in the first stretch, read before each later region -/

theorem W1_v5 (c : Dev nD) : W1 m ρ c (Proc.devRef .tc main_v5) = Cert.Gcn.srcIdx (m ((c : Thread nD τ).loc main_arg1)) := h0_v5 (W0 m ρ c)
theorem W1_v6 (c : Dev nD) : W1 m ρ c (Proc.devRef .tc main_v6) = Cert.Gcn.dstIdx (m ((c : Thread nD τ).loc main_arg1)) := h0_v6 (W0 m ρ c)
theorem W4_v5 (c : Dev nD) : W4 m ρ c (Proc.devRef .tc main_v5) = Cert.Gcn.srcIdx (m ((c : Thread nD τ).loc main_arg1)) :=
  ((W4_keep m ρ c main_v5 (by decide)).trans ((hostOps0_2_keep (W2 m ρ c) main_v5 (by decide)).trans (hostOps0_1_keep (W1 m ρ c) main_v5 (by decide)))).trans (W1_v5 m ρ c)
theorem W4_v6 (c : Dev nD) : W4 m ρ c (Proc.devRef .tc main_v6) = Cert.Gcn.dstIdx (m ((c : Thread nD τ).loc main_arg1)) :=
  ((W4_keep m ρ c main_v6 (by decide)).trans ((hostOps0_2_keep (W2 m ρ c) main_v6 (by decide)).trans (hostOps0_1_keep (W1 m ρ c) main_v6 (by decide)))).trans (W1_v6 m ρ c)
theorem W6_v5 (c : Dev nD) : W6 m ρ c (Proc.devRef .tc main_v5) = Cert.Gcn.srcIdx (m ((c : Thread nD τ).loc main_arg1)) :=
  ((W6_keep m ρ c main_v5 (by decide)).trans ((hostOps1_keep (W4 m ρ c) main_v5 (by decide)).trans ((W4_keep m ρ c main_v5 (by decide)).trans ((hostOps0_2_keep (W2 m ρ c) main_v5 (by decide)).trans (hostOps0_1_keep (W1 m ρ c) main_v5 (by decide)))))).trans (W1_v5 m ρ c)
theorem W6_v6 (c : Dev nD) : W6 m ρ c (Proc.devRef .tc main_v6) = Cert.Gcn.dstIdx (m ((c : Thread nD τ).loc main_arg1)) :=
  ((W6_keep m ρ c main_v6 (by decide)).trans ((hostOps1_keep (W4 m ρ c) main_v6 (by decide)).trans ((W4_keep m ρ c main_v6 (by decide)).trans ((hostOps0_2_keep (W2 m ρ c) main_v6 (by decide)).trans (hostOps0_1_keep (W1 m ρ c) main_v6 (by decide)))))).trans (W1_v6 m ρ c)
theorem W8_v5 (c : Dev nD) : W8 m ρ c (Proc.devRef .tc main_v5) = Cert.Gcn.srcIdx (m ((c : Thread nD τ).loc main_arg1)) :=
  ((W8_keep m ρ c main_v5 (by decide)).trans ((hostOps2_keep (W6 m ρ c) main_v5 (by decide)).trans ((W6_keep m ρ c main_v5 (by decide)).trans ((hostOps1_keep (W4 m ρ c) main_v5 (by decide)).trans ((W4_keep m ρ c main_v5 (by decide)).trans ((hostOps0_2_keep (W2 m ρ c) main_v5 (by decide)).trans (hostOps0_1_keep (W1 m ρ c) main_v5 (by decide)))))))).trans (W1_v5 m ρ c)
theorem W8_v6 (c : Dev nD) : W8 m ρ c (Proc.devRef .tc main_v6) = Cert.Gcn.dstIdx (m ((c : Thread nD τ).loc main_arg1)) :=
  ((W8_keep m ρ c main_v6 (by decide)).trans ((hostOps2_keep (W6 m ρ c) main_v6 (by decide)).trans ((W6_keep m ρ c main_v6 (by decide)).trans ((hostOps1_keep (W4 m ρ c) main_v6 (by decide)).trans ((W4_keep m ρ c main_v6 (by decide)).trans ((hostOps0_2_keep (W2 m ρ c) main_v6 (by decide)).trans (hostOps0_1_keep (W1 m ρ c) main_v6 (by decide)))))))).trans (W1_v6 m ρ c)

/-! ## The degree factor: a column written before region 0, an operand of regions 0 to 3 -/

theorem W3_v15_raw (c : Dev nD) : W3 m ρ c (Proc.devRef .tc main_v15)
    = shapeCast S100000x1 (Cert.Gcn.degFactor (Cert.Gcn.dstIdx (m ((c : Thread nD τ).loc main_arg1)))) shapeCasts_S100000_S100000x1 :=
  (h02_v15 (W2 m ρ c)).trans (congrArg (fun z => shapeCast S100000x1 z shapeCasts_S100000_S100000x1)
    ((h01_v14 (W1 m ρ c)).trans ((select_congr (h0_v12 (W0 m ρ c)) (h0_v13 (W0 m ρ c))
      (congrArg (fun z => broadcastInDim S100000 ![] bcast_S_S100000 (id z)) (h0_cst2 (W0 m ρ c)))).trans rfl)))

theorem W3_v15 (c : Dev nD) : (W3 m ρ c (Proc.devRef .tc main_v15) : Cert.Spec.Mat 100000 1) = Cert.Gcn.dcol (m ((c : Thread nD τ).loc main_arg1)) := by
  refine (W3_v15_raw m ρ c).trans ?_
  funext i
  unfold Cert.Gcn.dcol
  refine shapeCast_apply _ shapeCasts_S100000_S100000x1 i (ix1 (i 0)) ?_
  rw [Shape.rowMajor_val_one, Shape.rowMajor_val_two]
  have h1 : (i 1).val < 1 := (i 1).isLt
  show (i 0).val = (i 0).val * 1 + (i 1).val
  omega
theorem W5_v15 (c : Dev nD) : (W5 m ρ c (Proc.devRef .tc main_v15) : Cert.Spec.Mat 100000 1) = Cert.Gcn.dcol (m ((c : Thread nD τ).loc main_arg1)) :=
  ((hostOps1_keep (W4 m ρ c) main_v15 (by decide)).trans (W4_keep m ρ c main_v15 (by decide))).trans (W3_v15 m ρ c)
theorem W7_v15 (c : Dev nD) : (W7 m ρ c (Proc.devRef .tc main_v15) : Cert.Spec.Mat 100000 1) = Cert.Gcn.dcol (m ((c : Thread nD τ).loc main_arg1)) :=
  ((hostOps2_keep (W6 m ρ c) main_v15 (by decide)).trans ((W6_keep m ρ c main_v15 (by decide)).trans ((hostOps1_keep (W4 m ρ c) main_v15 (by decide)).trans (W4_keep m ρ c main_v15 (by decide))))).trans (W3_v15 m ρ c)
theorem W9_v15 (c : Dev nD) : (W9 m ρ c (Proc.devRef .tc main_v15) : Cert.Spec.Mat 100000 1) = Cert.Gcn.dcol (m ((c : Thread nD τ).loc main_arg1)) :=
  ((hostOps3_keep (W8 m ρ c) main_v15 (by decide)).trans ((W8_keep m ρ c main_v15 (by decide)).trans ((hostOps2_keep (W6 m ρ c) main_v15 (by decide)).trans ((W6_keep m ρ c main_v15 (by decide)).trans ((hostOps1_keep (W4 m ρ c) main_v15 (by decide)).trans (W4_keep m ρ c main_v15 (by decide))))))).trans (W3_v15 m ρ c)

/-! ## The dense stages and the steps along the edges, in order -/

theorem W4_v16 (c : Dev nD) : W4 m ρ c (Proc.devRef .tc main_v16) = Cert.Gcn.kH1 (m ((c : Thread nD τ).loc main_arg0)) (m ((c : Thread nD τ).loc main_arg1)) (m ((c : Thread nD τ).loc main_arg3)) :=
  (W4_arr m ρ c 3).trans ((Cert.KernelIdeal.RegionValue.final0 (V3 m ρ) c).trans
    (matScale_congr (N := 100000) (K := 128) (D := 64) (W3_arg0 m ρ c) (W3_arg3 m ρ c) (W3_v15 m ρ c)))

theorem W5_v26 (c : Dev nD) : W5 m ρ c (Proc.devRef .tc main_v26) = Cert.Gcn.kA1 (m ((c : Thread nD τ).loc main_arg0)) (m ((c : Thread nD τ).loc main_arg1)) (m ((c : Thread nD τ).loc main_arg3)) :=
  (h1_v26 (W4 m ρ c)).trans (aggKer_congr (W4_v16 m ρ c) (W4_v5 m ρ c) (W4_v6 m ρ c))

theorem W5_v27 (c : Dev nD) : (W5 m ρ c (Proc.devRef .tc main_v27) : Cert.Spec.Mat 1 64) = Cert.Gcn.brow (m ((c : Thread nD τ).loc main_arg4)) :=
  (h1_v27 (W4 m ρ c)).trans ((congrArg (fun z => shapeCast S1x64 z shapeCasts_S64_S1x64) (W4_arg4 m ρ c)).trans (brow_eq 64 _ _))

theorem W6_v28 (c : Dev nD) : W6 m ρ c (Proc.devRef .tc main_v28) = Cert.Gcn.kH2 (m ((c : Thread nD τ).loc main_arg0)) (m ((c : Thread nD τ).loc main_arg1)) (m ((c : Thread nD τ).loc main_arg3)) (m ((c : Thread nD τ).loc main_arg4)) (m ((c : Thread nD τ).loc main_arg5)) :=
  (W6_arr m ρ c 4).trans ((Cert.KernelIdeal.RegionValue.final1 (V5 m ρ) c).trans
    (fusedLayer_congr (N := 100000) (K := 64) (D := 64) (W5_v26 m ρ c) (W5_v15 m ρ c) (W5_v27 m ρ c) (W5_arg5 m ρ c)))

theorem W7_v38 (c : Dev nD) : W7 m ρ c (Proc.devRef .tc main_v38) = Cert.Gcn.kA2 (m ((c : Thread nD τ).loc main_arg0)) (m ((c : Thread nD τ).loc main_arg1)) (m ((c : Thread nD τ).loc main_arg3)) (m ((c : Thread nD τ).loc main_arg4)) (m ((c : Thread nD τ).loc main_arg5)) :=
  (h2_v38 (W6 m ρ c)).trans (aggKer_congr (W6_v28 m ρ c) (W6_v5 m ρ c) (W6_v6 m ρ c))

theorem W7_v39 (c : Dev nD) : (W7 m ρ c (Proc.devRef .tc main_v39) : Cert.Spec.Mat 1 64) = Cert.Gcn.brow (m ((c : Thread nD τ).loc main_arg6)) :=
  (h2_v39 (W6 m ρ c)).trans ((congrArg (fun z => shapeCast S1x64 z shapeCasts_S64_S1x64) (W6_arg6 m ρ c)).trans (brow_eq 64 _ _))

theorem W8_v40 (c : Dev nD) : W8 m ρ c (Proc.devRef .tc main_v40) = Cert.Gcn.kH3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) :=
  (W8_arr m ρ c 4).trans ((Cert.KernelIdeal.RegionValue.final2 (V7 m ρ) c).trans
    (fusedLayer_congr (N := 100000) (K := 64) (D := 64) (W7_v38 m ρ c) (W7_v15 m ρ c) (W7_v39 m ρ c) (W7_arg7 m ρ c)))

theorem W9_v50 (c : Dev nD) : W9 m ρ c (Proc.devRef .tc main_v50) = Cert.Gcn.kA3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) :=
  (h3_v50 (W8 m ρ c)).trans (aggKer_congr (W8_v40 m ρ c) (W8_v5 m ρ c) (W8_v6 m ρ c))

theorem W10_v51 (c : Dev nD) : W10 m ρ c (Proc.devRef .tc main_v51) = Cert.Gcn.kO3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) :=
  (W10_arr m ρ c 2).trans ((Cert.KernelIdeal.RegionValue.final3 (V9 m ρ) c).trans
    (rowScale_congr (N := 100000) (D := 64) (W9_v50 m ρ c) (W9_v15 m ρ c)))

/-! ## The pooled mean, read entry by entry -/

section Reading
variable {α : Type}

/-- A scalar broadcast reads the scalar everywhere. -/
theorem bcast_scalar_apply {t : Shape} (h : S_.BroadcastsInDim t (![] : Fin 0 → Fin t.rank)) (v : S_.Idx → α) (j : t.Idx) :
    broadcastInDim t ![] h v j = v ix0 :=
  broadcastInDim_apply _ h v j ix0 (fun a => a.elim0)

/-- A column broadcast along the rows reads the column's entry of the same row. -/
theorem bcast_col_1024x64 (y : S1024x1.Idx → α) (i : S1024x64.Idx) :
    broadcastInDim S1024x64 ![0, 1] bcast_S1024x1_S1024x64_0_1 y i = y (ix2 (i 0) (⟨0, Nat.one_pos⟩ : Fin 1)) :=
  broadcastInDim_apply _ bcast_S1024x1_S1024x64_0_1 y i _ (fun a => match a with
    | ⟨0, _⟩ => by show (i 0).val = if (1024 : Nat) = 1 then 0 else (i 0).val; rw [if_neg (by decide)]
    | ⟨1, _⟩ => by show 0 = if (1 : Nat) = 1 then 0 else (i 1).val; rw [if_pos rfl])

/-- A vector laid out as a column reads the vector's entry of that row. -/
theorem bcast_vec_col_1024 (v : S1024.Idx → α) (j : S1024x1.Idx) :
    broadcastInDim S1024x1 ![0] bcast_S1024_S1024x1_0 v j = v (ix1 (j 0)) :=
  broadcastInDim_apply _ bcast_S1024_S1024x1_0 v j _ (fun a => match a with
    | ⟨0, _⟩ => by show (j 0).val = if (1024 : Nat) = 1 then 0 else (j 0).val; rw [if_neg (by decide)])

/-- A row broadcast along the columns reads the row's entry of the same column. -/
theorem bcast_row_1024x64 (y : S1x64.Idx → α) (i : S1024x64.Idx) :
    broadcastInDim S1024x64 ![0, 1] bcast_S1x64_S1024x64_0_1 y i = y (ix2 (⟨0, Nat.one_pos⟩ : Fin 1) (i 1)) :=
  broadcastInDim_apply _ bcast_S1x64_S1024x64_0_1 y i _ (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

/-- A vector laid out as a row reads the vector's entry of that column. -/
theorem bcast_vec_row_64 (v : S64.Idx → α) (j : S1x64.Idx) :
    broadcastInDim S1x64 ![1] bcast_S64_S1x64_1 v j = v (ix1 (j 1)) :=
  broadcastInDim_apply _ bcast_S64_S1x64_1 v j _ (fun a => match a with
    | ⟨0, _⟩ => by show (j 1).val = if (64 : Nat) = 1 then 0 else (j 1).val; rw [if_neg (by decide)])

end Reading

/-- The whole-array operations after the third step are the pooled mean plus the last bias where the group is not
    empty, zero elsewhere: entry `(g, f)` reads group `g`'s count, its sum in column `f`, and the bias of column `f`. -/
theorem pool_eq (o : FVec Ideal S100000x64 .f32) (x2 : IVec S100000 32) (x8 : FVec Ideal S64 .f32) :
    select (broadcastInDim S1024x64 ![0, 1] bcast_S1024x1_S1024x64_0_1
        (cmpf (F := Ideal) .ogt (broadcastInDim S1024x1 ![0] bcast_S1024_S1024x1_0 (Cert.Gcn.cntOf x2))
          (broadcastInDim S1024x1 ![] bcast_S_S1024x1 (constant (F := Ideal) S_ .f32 0x00000000#32))))
      (addf (Host.divf (Cert.Gcn.sumOf o x2)
          (broadcastInDim S1024x64 ![0, 1] bcast_S1024x1_S1024x64_0_1
            (broadcastInDim S1024x1 ![0] bcast_S1024_S1024x1_0
              (maximumf (Cert.Gcn.cntOf x2) (broadcastInDim S1024 ![] bcast_S_S1024 (constant (F := Ideal) S_ .f32 0x3F800000#32))))))
        (broadcastInDim S1024x64 ![0, 1] bcast_S1x64_S1024x64_0_1 (broadcastInDim S1x64 ![1] bcast_S64_S1x64_1 x8)))
      (broadcastInDim S1024x64 ![] bcast_S_S1024x64 (id (constant (F := Ideal) S_ .f32 0x00000000#32)))
    = Cert.Gcn.kPool o x2 x8 := by
  funext i
  unfold Cert.Gcn.kPool
  rw [select_apply, bcast_col_1024x64, cmpf_apply, bcast_vec_col_1024, bcast_scalar_apply bcast_S_S1024x1, addf_apply,
    bcast_row_1024x64, bcast_vec_row_64, bcast_scalar_apply bcast_S_S1024x64, hostDivf_apply, bcast_col_1024x64,
    bcast_vec_col_1024, maximumf_apply, bcast_scalar_apply bcast_S_S1024]
  rfl

/-! ## The pooled mean and the head -/

theorem W13_v70 (c : Dev nD) : W13 m ρ c (Proc.devRef .tc main_v70)
    = Cert.Gcn.kPool (Cert.Gcn.kO3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg2)) (m ((c : Thread nD τ).loc main_arg8)) := by
  refine (hostOps4_2_keep (W12 m ρ c) main_v70 (by decide)).trans ?_
  refine (h41_v70 (W11 m ρ c)).trans ?_
  rw [show W11 m ρ c (Proc.devRef .tc main_v61) = _ from h4_v61 (W10 m ρ c),
    show W11 m ρ c (Proc.devRef .tc main_v69) = _ from h4_v69 (W10 m ρ c),
    show W11 m ρ c (Proc.devRef .tc main_cst_16) = _ from h4_cst16 (W10 m ρ c)]
  rw [W10_v51, W10_arg2, W10_arg8]
  exact pool_eq _ _ _

theorem W13_v71 (c : Dev nD) : (W13 m ρ c (Proc.devRef .tc main_v71) : Cert.Spec.Mat 1 10) = Cert.Gcn.brow (m ((c : Thread nD τ).loc main_arg10)) :=
  (h42_v71 (W12 m ρ c)).trans ((congrArg (fun z => shapeCast S1x10 z shapeCasts_S10_S1x10) (W12_arg10 m ρ c)).trans (brow_eq 10 _ _))

/-- THE KERNEL'S RESULT: after the last region the result buffer holds the kernel's arrangement of the whole network,
    as one function of the eleven arguments as launched. -/
theorem kernel_value (c : Dev nD) :
    W14 (F := Ideal) m ρ c (Proc.devRef .tc main_v72) = Cert.Gcn.kOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W14_arr m ρ c 3).trans ((Cert.KernelIdeal.RegionValue.final4 (V13 m ρ) c).trans
    (affine_congr (N := 1024) (K := 64) (D := 10) (W13_v70 m ρ c) (W13_arg9 m ρ c) (W13_v71 m ρ c)))

end Cert.KernelIdeal.HostValue

end
-- ==== Proof.RefStages.lean ====
import proofs.«129700_j38491496907229_2_alg».proof.Proof.ReadP
import proofs.«129700_j38491496907229_2_alg».proof.Proof.GcnModel
import Idealize.ShloMosaic.Lib.ValueIdx
import Idealize.ShloMosaic.Lib.Pipeline.Value
import Idealize.ShloMosaic.PureOps.Ideal.Laws

/-!
# The reference network, stage by stage

The reference computes three graph-convolution steps, a pooled mean and a dense head. Each step builds the edge list
(the edge table's two rows, then one self loop per node), the degree factor of every node, and the weighted sum of the
source rows into the target rows; the three steps build equal edge lists and equal degree factors from equal constants.
Here every stage of the reference is identified with the corresponding closed form: the edge lists, the degree factor, the
weighted sums and the pooled mean as whole arrays; the dense products, the rectified sums and the final bias entry by entry.
-/

noncomputable section

namespace Cert.ReferenceIdeal.Stages

open Cert.ReferenceIdeal Cert.ReferenceIdeal.Gen Cert.ReferenceIdeal.ReadP Cert.Gcn Idealize.ShloMosaic Idealize.ShloMosaic.ValueIdx

variable (x0 : FVec Ideal S100000x128 .f32) (x1 : IVec S2x3200000 32) (x2 : IVec S100000 32)
  (x3 : FVec Ideal S128x64 .f32) (x4 : FVec Ideal S64 .f32) (x5 : FVec Ideal S64x64 .f32) (x6 : FVec Ideal S64 .f32)
  (x7 : FVec Ideal S64x64 .f32) (x8 : FVec Ideal S64 .f32) (x9 : FVec Ideal S64x10 .f32) (x10 : FVec Ideal S10 .f32)

/-! ## The edge lists and the degree factor: the same in all three steps -/

/-- The first step's source positions are the edge table's first row followed by every node once. -/
theorem src_eq1 : val_main_v6 (F := Ideal) x1 = srcIdx x1 := rfl
/-- So are the second step's, -/
theorem src_eq2 : val_main_v50 (F := Ideal) x1 = srcIdx x1 := rfl
/-- and the third step's. -/
theorem src_eq3 : val_main_v94 (F := Ideal) x1 = srcIdx x1 := rfl

/-- The first step's target positions are the edge table's second row followed by every node once. -/
theorem dst_eq1 : val_main_v7 (F := Ideal) x1 = dstIdx x1 := rfl
/-- So are the second step's, -/
theorem dst_eq2 : val_main_v51 (F := Ideal) x1 = dstIdx x1 := rfl
/-- and the third step's. -/
theorem dst_eq3 : val_main_v95 (F := Ideal) x1 = dstIdx x1 := rfl

/-- The first step's degree factor: the reciprocal square root of the count of incoming edges, zero for no edge. -/
theorem deg_eq1 : val_main_v15 (F := Ideal) x1 = degFactor (dstIdx x1) := rfl
/-- The second step computes the same factor, -/
theorem deg_eq2 : val_main_v59 (F := Ideal) x1 = degFactor (dstIdx x1) := rfl
/-- and so does the third. -/
theorem deg_eq3 : val_main_v103 (F := Ideal) x1 = degFactor (dstIdx x1) := rfl

/-! ## The weighted sums along the edges -/

/-- The first step sends the rows of the first dense product along the edges, each weighted by the two factors. -/
theorem agg1 : val_main_v43 (F := Ideal) x0 x1 x3 = aggRef (val_main_v4 (F := Ideal) x0 x3) (degFactor (dstIdx x1)) (srcIdx x1) (dstIdx x1) := rfl

/-- The second step does the same with the second dense product. -/
theorem agg2 : val_main_v87 (F := Ideal) x0 x1 x3 x4 x5 = aggRef (val_main_v48 (F := Ideal) x0 x1 x3 x4 x5) (degFactor (dstIdx x1)) (srcIdx x1) (dstIdx x1) := rfl

/-- The third step does the same with the third dense product. -/
theorem agg3 : val_main_v131 (F := Ideal) x0 x1 x3 x4 x5 x6 x7 = aggRef (val_main_v92 (F := Ideal) x0 x1 x3 x4 x5 x6 x7) (degFactor (dstIdx x1)) (srcIdx x1) (dstIdx x1) := rfl

/-! ## The pooled mean -/

/-- The third step's sums plus the last bias, pooled by group: the pooled sum over `max count 1`. -/
theorem pool : val_main_v146 (F := Ideal) x0 x1 x2 x3 x4 x5 x6 x7 x8 = poolRef (val_main_v131 (F := Ideal) x0 x1 x3 x4 x5 x6 x7) x8 x2 := rfl

/-! ## The dense products, entry by entry -/

/-- Entry `(n, f)` of the first dense product: row `n` of the input against column `f` of the first weights. -/
theorem dot1 (n : Fin 100000) (f : Fin 64) :
    val_main_v4 (F := Ideal) x0 x3 (ix2 n f) = ∑ k : Fin 128, x0 (ix2 n k) * x3 (ix2 k f) := by
  refine (val_main_v4_apply x0 x3 (ix2 n f)).trans (Finset.sum_congr rfl fun k _ => ?_)
  have el : lidx_main_v4 (ix2 n f) k = ix2 n k := funext fun a => by match a with | ⟨0, _⟩ => rfl | ⟨1, _⟩ => rfl
  have er : ridx_main_v4 (ix2 n f) k = ix2 k f := funext fun a => by match a with | ⟨0, _⟩ => rfl | ⟨1, _⟩ => rfl
  rw [el, er]

/-- Entry `(n, f)` of the second dense product: row `n` of the first rectified sums against column `f` of the second weights. -/
theorem dot2 (n : Fin 100000) (f : Fin 64) :
    val_main_v48 (F := Ideal) x0 x1 x3 x4 x5 (ix2 n f) = ∑ k : Fin 64, val_main_v47 (F := Ideal) x0 x1 x3 x4 (ix2 n k) * x5 (ix2 k f) := by
  refine (val_main_v48_apply x0 x1 x3 x4 x5 (ix2 n f)).trans (Finset.sum_congr rfl fun k _ => ?_)
  have el : lidx_main_v48 (ix2 n f) k = ix2 n k := funext fun a => by match a with | ⟨0, _⟩ => rfl | ⟨1, _⟩ => rfl
  have er : ridx_main_v48 (ix2 n f) k = ix2 k f := funext fun a => by match a with | ⟨0, _⟩ => rfl | ⟨1, _⟩ => rfl
  rw [el, er]

/-- Entry `(n, f)` of the third dense product: row `n` of the second rectified sums against column `f` of the third weights. -/
theorem dot3 (n : Fin 100000) (f : Fin 64) :
    val_main_v92 (F := Ideal) x0 x1 x3 x4 x5 x6 x7 (ix2 n f) = ∑ k : Fin 64, val_main_v91 (F := Ideal) x0 x1 x3 x4 x5 x6 (ix2 n k) * x7 (ix2 k f) := by
  refine (val_main_v92_apply x0 x1 x3 x4 x5 x6 x7 (ix2 n f)).trans (Finset.sum_congr rfl fun k _ => ?_)
  have el : lidx_main_v92 (ix2 n f) k = ix2 n k := funext fun a => by match a with | ⟨0, _⟩ => rfl | ⟨1, _⟩ => rfl
  have er : ridx_main_v92 (ix2 n f) k = ix2 k f := funext fun a => by match a with | ⟨0, _⟩ => rfl | ⟨1, _⟩ => rfl
  rw [el, er]

/-- Entry `(g, c)` of the head's product: row `g` of the pooled means against column `c` of the head's weights. -/
theorem dot4 (g : Fin 1024) (c : Fin 10) :
    val_main_v147 (F := Ideal) x0 x1 x2 x3 x4 x5 x6 x7 x8 x9 (ix2 g c) = ∑ k : Fin 64, val_main_v146 (F := Ideal) x0 x1 x2 x3 x4 x5 x6 x7 x8 (ix2 g k) * x9 (ix2 k c) := by
  refine (val_main_v147_apply x0 x1 x2 x3 x4 x5 x6 x7 x8 x9 (ix2 g c)).trans (Finset.sum_congr rfl fun k _ => ?_)
  have el : lidx_main_v147 (ix2 g c) k = ix2 g k := funext fun a => by match a with | ⟨0, _⟩ => rfl | ⟨1, _⟩ => rfl
  have er : ridx_main_v147 (ix2 g c) k = ix2 k c := funext fun a => by match a with | ⟨0, _⟩ => rfl | ⟨1, _⟩ => rfl
  rw [el, er]

/-! ## The rectified sums and the biases, entry by entry -/

/-- The first step's sums plus the first bias, rectified. -/
theorem act1 (n : Fin 100000) (k : Fin 64) :
    val_main_v47 (F := Ideal) x0 x1 x3 x4 (ix2 n k) = max (val_main_v43 (F := Ideal) x0 x1 x3 (ix2 n k) + x4 (ix1 k)) (Ideal.ofBits .f32 0x00000000#32) := by
  rw [val_main_v47_apply, val_main_v46_apply, val_main_v45_apply, val_main_v44_apply, val_main_call1_v0_apply, val_main_call1_cst_apply]
  have e : idx_main_v44 (idx_main_v45 (ix2 n k)) = ix1 k := funext fun a => by match a with | ⟨0, _⟩ => rfl
  rw [e]
  rfl

/-- The second step's sums plus the second bias, rectified. -/
theorem act2 (n : Fin 100000) (k : Fin 64) :
    val_main_v91 (F := Ideal) x0 x1 x3 x4 x5 x6 (ix2 n k) = max (val_main_v87 (F := Ideal) x0 x1 x3 x4 x5 (ix2 n k) + x6 (ix1 k)) (Ideal.ofBits .f32 0x00000000#32) := by
  rw [val_main_v91_apply, val_main_v90_apply, val_main_v89_apply, val_main_v88_apply, val_main_call3_v0_apply, val_main_call3_cst_apply]
  have e : idx_main_v88 (idx_main_v89 (ix2 n k)) = ix1 k := funext fun a => by match a with | ⟨0, _⟩ => rfl
  rw [e]
  rfl

/-- The third step's sums plus the last bias: the bias entry of the column is added to every row. -/
theorem bias3 : val_main_v134 (F := Ideal) x0 x1 x3 x4 x5 x6 x7 x8 = fun j => val_main_v131 (F := Ideal) x0 x1 x3 x4 x5 x6 x7 j + x8 (ix1 (j 1)) := by
  funext j
  rw [val_main_v134_apply, val_main_v133_apply, val_main_v132_apply]
  have e : idx_main_v132 (idx_main_v133 j) = ix1 (j 1) := funext fun a => by match a with | ⟨0, _⟩ => rfl
  rw [e]
  rfl

/-- The head's result: the product plus the head's bias. -/
theorem out (g : Fin 1024) (c : Fin 10) :
    val_main_v150 (F := Ideal) x0 x1 x2 x3 x4 x5 x6 x7 x8 x9 x10 (ix2 g c) = val_main_v147 (F := Ideal) x0 x1 x2 x3 x4 x5 x6 x7 x8 x9 (ix2 g c) + x10 (ix1 c) := by
  rw [val_main_v150_apply, val_main_v149_apply, val_main_v148_apply]
  have e : idx_main_v148 (idx_main_v149 (ix2 g c)) = ix1 c := funext fun a => by match a with | ⟨0, _⟩ => rfl
  rw [e]
  rfl

end Cert.ReferenceIdeal.Stages

end
-- ==== Proof.GcnPool.lean ====
import proofs.«129700_j38491496907229_2_alg».proof.Proof.GcnModel

/-!
# The pooled mean in the two arrangements

The pooled mean of the rows `o + b` over a group is the pooled mean of the rows `o`, plus `b`, where the group is
not empty, and zero where it is empty: adding `b` to each of the `k` rows of a group adds `k • b` to their sum, and
the sum is divided by `max k 1`.
-/

noncomputable section

namespace Cert.Gcn

open Cert.ReferenceIdeal Cert.ReferenceIdeal.Gen Idealize.ShloMosaic Idealize.ShloMosaic.ValueIdx
open Cert.LibIndexOps Cert.LibSegmentSum

/-- THE POOLED MEAN IN THE TWO ARRANGEMENTS: the mean of the rows plus the bias where the group is not empty and zero
    where it is, is the pooled mean of the rows `o + x8`. -/
theorem pool_eq (o : FVec Ideal S100000x64 .f32) (x2 : IVec S100000 32) (x8 : FVec Ideal S64 .f32) (g : Fin 1024) (k : Fin 64) :
    kPool o x2 x8 (ix2 g k) = poolRef o x8 x2 (ix2 g k) := by
  have hk : kPool o x2 x8 (ix2 g k)
      = Scalar.select (Ideal.cmp .ogt (cntOf x2 (ix1 g)) (Ideal.ofBits .f32 0x00000000#32))
          (Ideal.div (sumOf o x2 (ix2 g k)) (max (cntOf x2 (ix1 g)) (Ideal.ofBits .f32 0x3F800000#32)) + x8 (ix1 k))
          (Ideal.ofBits .f32 0x00000000#32) := rfl
  rw [hk, poolRef_apply,
    mean_add_const scatter_S1024x64_S100000x1_S100000x64_1_0_0_1_wf scatter_S1024_S100000x1_S100000_n_0_0_1_wf
      _ zeroG64_apply _ zeroG_apply _ oneN_apply o (fun j => o j + x8 (ix1 (j 1))) (fun f => x8 (ix1 f)) (fun _ _ => rfl)
      (broadcastInDim S100000x1 ![0] bcast_S100000_S100000x1_0 x2) g k,
    cntOf, sumOf, hostScatterAdd_apply, hostScatterAdd_apply, rowScatter_groups_eq, vecScatter_groups_eq]

end Cert.Gcn

end
-- ==== Proof.Bridge.lean ====
import proofs.«129700_j38491496907229_2_alg».proof.Proof.RefStages
import proofs.«129700_j38491496907229_2_alg».proof.Proof.GcnModel
import proofs.«129700_j38491496907229_2_alg».proof.Proof.GcnPool

/-!
# The kernel's arrangement computes the reference's result

Stage by stage. Write `c` for the degree factor. The kernel's first dense stage is the reference's `x · W₁` with
row `m` times `c m`; sending such rows along the edges and multiplying the received row `n` by `c n` is the
reference's weighted sum (`agg_eq`); adding the bias and rectifying then gives the reference's activation, so the
kernel's next dense stage is the reference's next product with row `m` times `c m` again — three times over. After
the third step the kernel's scaled sums are the reference's third sum without its bias; pooling the reference's rows
`o + b₃` is pooling `o` and adding `b₃` where the group is not empty, and zero where it is (`mean_add_const`); the
head is the same product and bias on both sides.
-/

noncomputable section

namespace Cert.Gcn

open Cert.ReferenceIdeal Cert.ReferenceIdeal.Gen Cert.ReferenceIdeal.ReadP Cert.ReferenceIdeal.Stages
open Idealize.ShloMosaic Idealize.ShloMosaic.ValueIdx Cert.LibIndexOps Cert.LibSegmentSum

variable (x0 : FVec Ideal S100000x128 .f32) (x1 : IVec S2x3200000 32) (x2 : IVec S100000 32)
  (x3 : FVec Ideal S128x64 .f32) (x4 : FVec Ideal S64 .f32) (x5 : FVec Ideal S64x64 .f32) (x6 : FVec Ideal S64 .f32)
  (x7 : FVec Ideal S64x64 .f32) (x8 : FVec Ideal S64 .f32) (x9 : FVec Ideal S64x10 .f32) (x10 : FVec Ideal S10 .f32)

/-! ## First step -/

/-- The first dense stage is `x · W₁`, row `m` times `c m`. -/
theorem kH1_eq (m : Fin 100000) (f : Fin 64) :
    kH1 x0 x1 x3 (ix2 m f) = val_main_v4 (F := Ideal) x0 x3 (ix2 m f) * degFactor (dstIdx x1) (ix1 m) := by
  rw [dot1]; rfl

/-- Its rows sent along the edges, row `n` times `c n`: the reference's first weighted sum. -/
theorem kA1_eq (n : Fin 100000) (f : Fin 64) :
    kA1 x0 x1 x3 (ix2 n f) * degFactor (dstIdx x1) (ix1 n) = val_main_v43 (F := Ideal) x0 x1 x3 (ix2 n f) := by
  rw [agg1]
  unfold kA1
  exact agg_eq (val_main_v4 (F := Ideal) x0 x3) (kH1 x0 x1 x3) (srcIdx x1) (dstIdx x1) (kH1_eq x0 x1 x3) n f

/-! ## Second step -/

theorem kH2_eq (m : Fin 100000) (f : Fin 64) :
    kH2 x0 x1 x3 x4 x5 (ix2 m f) = val_main_v48 (F := Ideal) x0 x1 x3 x4 x5 (ix2 m f) * degFactor (dstIdx x1) (ix1 m) := by
  rw [dot2]
  unfold kH2 Cert.Spec.fusedLayer
  refine congrArg₂ (· * ·) (Finset.sum_congr rfl fun k _ => ?_) rfl
  rw [act1, ← kA1_eq]
  rfl

theorem kA2_eq (n : Fin 100000) (f : Fin 64) :
    kA2 x0 x1 x3 x4 x5 (ix2 n f) * degFactor (dstIdx x1) (ix1 n) = val_main_v87 (F := Ideal) x0 x1 x3 x4 x5 (ix2 n f) := by
  rw [agg2]
  unfold kA2
  exact agg_eq (val_main_v48 (F := Ideal) x0 x1 x3 x4 x5) (kH2 x0 x1 x3 x4 x5) (srcIdx x1) (dstIdx x1) (kH2_eq x0 x1 x3 x4 x5) n f

/-! ## Third step -/

theorem kH3_eq (m : Fin 100000) (f : Fin 64) :
    kH3 x0 x1 x3 x4 x5 x6 x7 (ix2 m f)
      = val_main_v92 (F := Ideal) x0 x1 x3 x4 x5 x6 x7 (ix2 m f) * degFactor (dstIdx x1) (ix1 m) := by
  rw [dot3]
  unfold kH3 Cert.Spec.fusedLayer
  refine congrArg₂ (· * ·) (Finset.sum_congr rfl fun k _ => ?_) rfl
  rw [act2, ← kA2_eq]
  rfl

/-- The third step's scaled sums are the reference's third weighted sum, before its bias. -/
theorem kO3_eq (n : Fin 100000) (f : Fin 64) :
    kO3 x0 x1 x3 x4 x5 x6 x7 (ix2 n f) = val_main_v131 (F := Ideal) x0 x1 x3 x4 x5 x6 x7 (ix2 n f) := by
  rw [agg3]
  unfold kO3 Cert.Spec.rowScale kA3
  exact agg_eq (val_main_v92 (F := Ideal) x0 x1 x3 x4 x5 x6 x7) (kH3 x0 x1 x3 x4 x5 x6 x7) (srcIdx x1) (dstIdx x1)
    (kH3_eq x0 x1 x3 x4 x5 x6 x7) n f

theorem kO3_fun : kO3 x0 x1 x3 x4 x5 x6 x7 = val_main_v131 (F := Ideal) x0 x1 x3 x4 x5 x6 x7 :=
  funext fun i => by
    obtain ⟨n, f, rfl⟩ : ∃ (n : Fin 100000) (f : Fin 64), i = ix2 n f := ⟨i 0, i 1, eq_ix2 i⟩
    exact kO3_eq x0 x1 x3 x4 x5 x6 x7 n f

/-! ## The pooled mean and the head -/

/-- The kernel's pooled mean plus bias, zero on an empty group, is the reference's pooled mean of the biased rows. -/
theorem kPool_eq (g : Fin 1024) (k : Fin 64) :
    kPool (kO3 x0 x1 x3 x4 x5 x6 x7) x2 x8 (ix2 g k) = val_main_v146 (F := Ideal) x0 x1 x2 x3 x4 x5 x6 x7 x8 (ix2 g k) := by
  rw [pool, kO3_fun]
  exact pool_eq (val_main_v131 (F := Ideal) x0 x1 x3 x4 x5 x6 x7) x2 x8 g k

/-- THE BRIDGE: the kernel's arrangement of the network is the reference's result, entry by entry. -/
theorem kOut_eq :
    kOut x0 x1 x2 x3 x4 x5 x6 x7 x8 x9 x10 = val_main_v150 (F := Ideal) x0 x1 x2 x3 x4 x5 x6 x7 x8 x9 x10 :=
  funext fun i => by
    obtain ⟨g, c, rfl⟩ : ∃ (g : Fin 1024) (c : Fin 10), i = ix2 g c := ⟨i 0, i 1, eq_ix2 i⟩
    rw [out, dot4]
    unfold kOut Cert.Spec.affine
    refine congrArg₂ (· + ·) (Finset.sum_congr rfl fun k _ => ?_) rfl
    rw [← kPool_eq]

end Cert.Gcn

end
-- ==== Proof.lean ====
/-
# The kernel and its reference compute the same network over the extended reals

The program is a three-step graph convolution with a pooled mean and a linear head. Its kernel runs the dense stages
as five grid regions and leaves the sends along the edges, the pooling and the index arithmetic to host operations
between them; the reference is one straight line of host operations.

* Each program runs to the end without a fault and leaves its arguments as launched: for the two kernel programs by the
  launch theorem over their segments, for the reference by composing its operations.
* The idealized kernel is the kernel's own text read over the extended reals: nothing was rewritten, so there is
  nothing to preserve.
* Over the extended reals the two results agree entry by entry. The kernel applies the degree factor to the rows
  before they are sent along the edges and once more to the received sums, where the reference weights every edge by
  the product of the two factors; the two agree because the factor is a nonnegative real, by which a sum of extended
  reals may be multiplied term by term. The kernel adds the last bias after the pooled mean and leaves an empty
  group at zero; the reference pools the biased rows: the mean of `o + b` over a group of `k > 0` rows is the mean
  of `o` plus `b`, and the sum over no rows is zero. No finiteness of the inputs is used.
-/
import proofs.«129700_j38491496907229_2_alg».proof.Defs
import proofs.«129700_j38491496907229_2_alg».proof.Proof.Gen.Kernel
import proofs.«129700_j38491496907229_2_alg».proof.Proof.Gen.Kernel.Skeleton
import proofs.«129700_j38491496907229_2_alg».proof.Proof.Gen.Kernel.Launch
import proofs.«129700_j38491496907229_2_alg».proof.Proof.Gen.Kernel.Points
import proofs.«129700_j38491496907229_2_alg».proof.Proof.Gen.Kernel.Frame
import proofs.«129700_j38491496907229_2_alg».proof.Proof.Gen.KernelIdeal
import proofs.«129700_j38491496907229_2_alg».proof.Proof.Gen.KernelIdeal.Skeleton
import proofs.«129700_j38491496907229_2_alg».proof.Proof.Gen.KernelIdeal.Launch
import proofs.«129700_j38491496907229_2_alg».proof.Proof.Gen.KernelIdeal.Points
import proofs.«129700_j38491496907229_2_alg».proof.Proof.Gen.KernelIdeal.Frame
import proofs.«129700_j38491496907229_2_alg».proof.Proof.Gen.ReferenceIdeal
import proofs.«129700_j38491496907229_2_alg».proof.Proof.Gen.Pre_finite_inputs
import proofs.«129700_j38491496907229_2_alg».proof.Proof.KRun
import proofs.«129700_j38491496907229_2_alg».proof.Proof.RunP
import proofs.«129700_j38491496907229_2_alg».proof.Proof.ReadP
import proofs.«129700_j38491496907229_2_alg».proof.Proof.GcnModel
import proofs.«129700_j38491496907229_2_alg».proof.Proof.KHost
import proofs.«129700_j38491496907229_2_alg».proof.Proof.Bridge
import Idealize.ShloMosaic.Adequacy
import Idealize.ShloMosaic.Init

noncomputable section

namespace Cert.Proof

open Idealize.ShloMosaic Idealize.SL.Sem

/-- The word-level program runs and leaves its arguments as launched. -/
theorem frame_k : Cert.frame_Kernel (hKernel := Cert.Kernel.Gen.facts) (hPre_finite_inputs := Cert.Pre_finite_inputs.Gen.facts) :=
  fun m ρ _ => Cert.Kernel.Gen.frame m ρ

/-- So does its reading over the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both programs end with the kernel's arrangement of the network evaluated at the (agreeing) arguments: the kernel
    by reading its buffers boundary by boundary, the reference because that arrangement is its own result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Gcn.kOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono (fun r h c => ⟨(h c).1.trans (Cert.KernelIdeal.HostValue.kernel_value m ρ c), (h c).2⟩)
      (Cert.KernelIdeal.RunValue.run_value (F := Ideal) m ρ)
  · refine (θ_run Cert.ReferenceIdeal.defs _ _).mono (fun r h c => ⟨?_, (h c).2⟩)
      (Cert.ReferenceIdeal.ValueP.run (F := Ideal) m' ρ')
    rw [(h c).1, Cert.ReferenceIdeal.ReadP.val_main_v150_eq, ← Cert.Gcn.kOut_eq]
    obtain ⟨e0, e1, e2, e3, e4, e5, e6, e7, e8, e9, e10⟩ := hagree c
    rw [e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
